-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v97)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S60000x64 : Shape := ⟨2, ![60000, 64]⟩
abbrev S20000x128 : Shape := ⟨2, ![20000, 128]⟩
abbrev S2x500000 : Shape := ⟨2, ![2, 500000]⟩
abbrev S64x256 : Shape := ⟨2, ![64, 256]⟩
abbrev S256 : Shape := ⟨1, ![256]⟩
abbrev S128x256 : Shape := ⟨2, ![128, 256]⟩
abbrev S256x256 : Shape := ⟨2, ![256, 256]⟩
abbrev S256x128 : Shape := ⟨2, ![256, 128]⟩
abbrev S128 : Shape := ⟨1, ![128]⟩
abbrev S_ : Shape := ⟨0, ![]⟩

class Facts : Prop where
  bcast_S_S60000x64 : S_.BroadcastsInDim S60000x64 (![] : Fin 0 → Fin S60000x64.rank)
  reducesTo_S60000x64_S_d0_1 : S60000x64.ReducesTo [0, 1] S_
  h_S_ : 0 < S_.numel
  bcast_S_S20000x128 : S_.BroadcastsInDim S20000x128 (![] : Fin 0 → Fin S20000x128.rank)
  reducesTo_S20000x128_S_d0_1 : S20000x128.ReducesTo [0, 1] S_
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg12 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  main_v58

def fn_part2 {F : FTy → Type} [FloatOps F] (main_arg8 : FVec F S256 .f32) (main_arg9 : FVec F S256x128 .f32) (main_arg10 : FVec F S128 .f32) (main_arg11 : FVec F S256 .f32) (main_arg12 : FVec F S256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x128 .f32 := Host.absf main_arg9
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_arg12 main_v48 main_v49 main_v50

def fn_part1 {F : FTy → Type} [FloatOps F] (main_arg5 : FVec F S128x256 .f32) (main_arg6 : FVec F S256 .f32) (main_arg7 : FVec F S256x256 .f32) (main_arg8 : FVec F S256 .f32) (main_arg9 : FVec F S256x128 .f32) (main_arg10 : FVec F S128 .f32) (main_arg11 : FVec F S256 .f32) (main_arg12 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S128x256 .f32 := Host.absf main_arg5
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S60000x64 .f32) (main_arg1 : FVec F S20000x128 .f32) (main_arg2 : IVec S2x500000 32) (main_arg3 : FVec F S64x256 .f32) (main_arg4 : FVec F S256 .f32) (main_arg5 : FVec F S128x256 .f32) (main_arg6 : FVec F S256 .f32) (main_arg7 : FVec F S256x256 .f32) (main_arg8 : FVec F S256 .f32) (main_arg9 : FVec F S256x128 .f32) (main_arg10 : FVec F S128 .f32) (main_arg11 : FVec F S256 .f32) (main_arg12 : FVec F S256 .f32) : IVec S_ 1 :=
  let main_v0 : FVec F S60000x64 .f32 := Host.absf main_arg0
  let main_cst : FVec F S_ .f32 := constant S_ .f32 0x7F800000#32
  let main_v1 : FVec F S60000x64 .f32 := broadcastInDim S60000x64 ![] bcast_S_S60000x64 main_cst
  let main_v2 : IVec S60000x64 1 := cmpf .olt main_v0 main_v1
  let main_c : IVec S_ 1 := constantI S_ 1 1#1
  let main_v3 : IVec S_ 1 := (fun x v => Host.reduce IntOp.andi x v reducesTo_S60000x64_S_d0_1 h_S_) main_v2 main_c
  let main_v4 : FVec F S20000x128 .f32 := Host.absf main_arg1
  let main_cst_0 : FVec F S_ .f32 := constant S_ .f32 0x7F800000#32
  let main_v5 : FVec F S20000x128 .f32 := broadcastInDim S20000x128 ![] bcast_S_S20000x128 main_cst_0
  let main_v6 : IVec S20000x128 1 := cmpf .olt main_v4 main_v5
  let main_c_1 : IVec S_ 1 := constantI S_ 1 1#1
  let main_v7 : IVec S_ 1 := (fun x v => Host.reduce IntOp.andi x v reducesTo_S20000x128_S_d0_1 h_S_) main_v6 main_c_1
  let main_v8 : IVec S_ 1 := andi main_v3 main_v7
  let main_v9 : FVec F S64x256 .f32 := Host.absf main_arg3
  let main_cst_2 : FVec F S_ .f32 := constant S_ .f32 0x7F800000#32
  let main_v10 : FVec F S64x256 .f32 := broadcastInDim S64x256 ![] bcast_S_S64x256 main_cst_2
  let main_v11 : IVec S64x256 1 := cmpf .olt main_v9 main_v10
  let main_c_3 : IVec S_ 1 := constantI S_ 1 1#1
  let main_v12 : IVec S_ 1 := (fun x v => Host.reduce IntOp.andi x v reducesTo_S64x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_arg11 main_arg12 main_v13 main_v16
-- ==== Kernel.lean ====
abbrev S60000x64 : Shape := ⟨2, ![60000, 64]⟩
abbrev S20000x128 : Shape := ⟨2, ![20000, 128]⟩
abbrev S2x500000 : Shape := ⟨2, ![2, 500000]⟩
abbrev S64x256 : Shape := ⟨2, ![64, 256]⟩
abbrev S256 : Shape := ⟨1, ![256]⟩
abbrev S128x256 : Shape := ⟨2, ![128, 256]⟩
abbrev S256x256 : Shape := ⟨2, ![256, 256]⟩
abbrev S256x128 : Shape := ⟨2, ![256, 128]⟩
abbrev S128 : Shape := ⟨1, ![128]⟩
abbrev S1x500000 : Shape := ⟨2, ![1, 500000]⟩
abbrev S500000 : Shape := ⟨1, ![500000]⟩
abbrev S1x256 : Shape := ⟨2, ![1, 256]⟩
abbrev S60000x256 : Shape := ⟨2, ![60000, 256]⟩
abbrev S2000x64 : Shape := ⟨2, ![2000, 64]⟩
abbrev S2000x256 : Shape := ⟨2, ![2000, 256]⟩
abbrev S20000x256 : Shape := ⟨2, ![20000, 256]⟩
abbrev S2000x128 : Shape := ⟨2, ![2000, 128]⟩
abbrev S80000x256 : Shape := ⟨2, ![80000, 256]⟩
abbrev S80000 : Shape := ⟨1, ![80000]⟩
abbrev S580000 : Shape := ⟨1, ![580000]⟩
abbrev S_ : Shape := ⟨0, ![]⟩
abbrev S580000x1 : Shape := ⟨2, ![580000, 1]⟩
abbrev S580000x256 : Shape := ⟨2, ![580000, 256]⟩
abbrev S80000x128 : Shape := ⟨2, ![80000, 128]⟩
abbrev S580000x128 : Shape := ⟨2, ![580000, 128]⟩
abbrev S1x128 : Shape := ⟨2, ![1, 128]⟩

abbrev nBuf : Space → Nat
  | .hbm => 153
  | .vmem => 30
  | .smem => 0
  | _ => 0

abbrev hbmTy0_0 (i : Nat) : BufTy := match i % 128 with
  | 0 => ⟨S60000x64, .f32⟩
  | 1 => ⟨S20000x128, .f32⟩
  | 2 => ⟨S2x500000, .i32⟩
  | 3 => ⟨S64x256, .f32⟩
  | 4 => ⟨S256, .f32⟩
  | 5 => ⟨S128x256, .f32⟩
  | 6 => ⟨S256, .f32⟩
  | 7 => ⟨S256x256, .f32⟩
  | 8 => ⟨S256, .f32⟩
  | 9 => ⟨S256x128, .f32⟩
  | 10 => ⟨S128, .f32⟩
  | 11 => ⟨S256, .f32⟩
  | 12 => ⟨S256, .f32⟩
  | 13 => ⟨S1x500000, .i32⟩
  | 14 => ⟨S500000, .i32⟩
  | 15 => ⟨S1x500000, .i32⟩
  | 16 => ⟨S500000, .i32⟩
  | 17 => ⟨S1x256, .f32⟩
  | 18 => ⟨S60000x256, .f32⟩
  | 19 => ⟨S1x256, .f32⟩
  | 20 => ⟨S20000x256, .f32⟩
  | 21 => ⟨S80000x256, .f32⟩
  | 22 => ⟨S80000x256, .f32⟩
  | 23 => ⟨S80000, .i32⟩
  | 24 => ⟨S580000, .i32⟩
  | 25 => ⟨S580000, .i32⟩
  | 26 => ⟨S_, .f32⟩
  | 27 => ⟨S580000, .f32⟩
  | 28 => ⟨S_, .f32⟩
  | 29 => ⟨S80000, .f32⟩
  | 30 => ⟨S580000x1, .i32⟩
  | 31 => ⟨S80000, .f32⟩
  | 32 => ⟨S80000, .f32⟩
  | 33 => ⟨S_, .i32⟩
  | 34 => ⟨S580000, .i32⟩
  | 35 => ⟨S580000, .i1⟩
  | 36 => ⟨S_, .i32⟩
  | 37 => ⟨S580000, .i32⟩
  | 38 => ⟨S580000, .i32⟩
  | 39 => ⟨S580000, .i32⟩
  | 40 => ⟨S580000x1, .i32⟩
  | 41 => ⟨S580000, .f32⟩
  | 42 => ⟨S_, .i32⟩
  | 43 => ⟨S580000, .i32⟩
  | 44 => ⟨S580000, .i1⟩
  | 45 => ⟨S_, .i32⟩
  | 46 => ⟨S580000, .i32⟩
  | 47 => ⟨S580000, .i32⟩
  | 48 => ⟨S580000, .i32⟩
  | 49 => ⟨S580000x1, .i32⟩
  | 50 => ⟨S580000, .f32⟩
  | 51 => ⟨S580000, .f32⟩
  | 52 => ⟨S_, .i32⟩
  | 53 => ⟨S580000, .i32⟩
  | 54 => ⟨S580000, .i1⟩
  | 55 => ⟨S_, .i32⟩
  | 56 => ⟨S580000, .i32⟩
  | 57 => ⟨S580000, .i32⟩
  | 58 => ⟨S580000, .i32⟩
  | 59 => ⟨S580000x1, .i32⟩
  | 60 => ⟨S580000x256, .f32⟩
  | 61 => ⟨S580000x1, .f32⟩
  | 62 => ⟨S580000x256, .f32⟩
  | 63 => ⟨S580000x256, .f32⟩
  | 64 => ⟨S_, .f32⟩
  | 65 => ⟨S80000x256, .f32⟩
  | 66 => ⟨S580000x1, .i32⟩
  | 67 => ⟨S80000x256, .f32⟩
  | 68 => ⟨S1x256, .f32⟩
  | 69 => ⟨S80000x256, .f32⟩
  | 70 => ⟨S80000x256, .f32⟩
  | 71 => ⟨S_, .f32⟩
  | 72 => ⟨S256, .f32⟩
  | 73 => ⟨S_, .f32⟩
  | 74 => ⟨S256, .f32⟩
  | 75 => ⟨S256, .f32⟩
  | 76 => ⟨S_, .i32⟩
  | 77 => ⟨S_, .f32⟩
  | 78 => ⟨S256, .f32⟩
  | 79 => ⟨S1x256, .f32⟩
  | 80 => ⟨S_, .f32⟩
  | 81 => ⟨S1x256, .f32⟩
  | 82 => ⟨S1x256, .f32⟩
  | 83 => ⟨S80000x256, .f32⟩
  | 84 => ⟨S80000x256, .f32⟩
  | 85 => ⟨S80000x256, .f32⟩
  | 86 => ⟨S_, .f32⟩
  | 87 => ⟨S_, .f32⟩
  | 88 => ⟨S_, .f32⟩
  | 89 => ⟨S_, .f32⟩
  | 90 => ⟨S256, .f32⟩
  | 91 => ⟨S256, .f32⟩
  | 92 => ⟨S256, .f32⟩
  | 93 => ⟨S_, .f32⟩
  | 94 => ⟨S_, .i1⟩
  | 95 => ⟨S_, .f32⟩
  | 96 => ⟨S_, .f32⟩
  | 97 => ⟨S256, .f32⟩
  | 98 => ⟨S256, .f32⟩
  | 99 => ⟨S1x256, .f32⟩
  | 100 => ⟨S1x256, .f32⟩
  | 101 => ⟨S1x256, .f32⟩
  | 102 => ⟨S1x256, .f32⟩
  | 103 => ⟨S80000x256, .f32⟩
  | 104 => ⟨S80000x128, .f32⟩
  | 105 => ⟨S80000, .i32⟩
  | 106 => ⟨S580000, .i32⟩
  | 107 => ⟨S580000, .i32⟩
  | 108 => ⟨S_, .f32⟩
  | 109 => ⟨S580000, .f32⟩
  | 110 => ⟨S_, .f32⟩
  | 111 => ⟨S80000, .f32⟩
  | 112 => ⟨S580000x1, .i32⟩
  | 113 => ⟨S80000, .f32⟩
  | 114 => ⟨S80000, .f32⟩
  | 115 => ⟨S_, .i32⟩
  | 116 => ⟨S580000, .i32⟩
  | 117 => ⟨S580000, .i1⟩
  | 118 => ⟨S_, .i32⟩
  | 119 => ⟨S580000, .i32⟩
  | 120 => ⟨S580000, .i32⟩
  | 121 => ⟨S580000, .i32⟩
  | 122 => ⟨S580000x1, .i32⟩
  | 123 => ⟨S580000, .f32⟩
  | 124 => ⟨S_, .i32⟩
  | 125 => ⟨S580000, .i32⟩
  | 126 => ⟨S580000, .i1⟩
  | 127 => ⟨S_, .i32⟩
  | _ => ⟨S60000x64, .f32⟩

abbrev hbmTy0_1 (i : Nat) : BufTy := match i % 128 with
  | 0 => ⟨S580000, .i32⟩
  | 1 => ⟨S580000, .i32⟩
  | 2 => ⟨S580000, .i32⟩
  | 3 => ⟨S580000x1, .i32⟩
  | 4 => ⟨S580000, .f32⟩
  | 5 => ⟨S580000, .f32⟩
  | 6 => ⟨S_, .i32⟩
  | 7 => ⟨S580000, .i32⟩
  | 8 => ⟨S580000, .i1⟩
  | 9 => ⟨S_, .i32⟩
  | 10 => ⟨S580000, .i32⟩
  | 11 => ⟨S580000, .i32⟩
  | 12 => ⟨S580000, .i32⟩
  | 13 => ⟨S580000x1, .i32⟩
  | 14 => ⟨S580000x128, .f32⟩
  | 15 => ⟨S580000x1, .f32⟩
  | 16 => ⟨S580000x128, .f32⟩
  | 17 => ⟨S580000x128, .f32⟩
  | 18 => ⟨S_, .f32⟩
  | 19 => ⟨S80000x128, .f32⟩
  | 20 => ⟨S580000x1, .i32⟩
  | 21 => ⟨S80000x128, .f32⟩
  | 22 => ⟨S1x128, .f32⟩
  | 23 => ⟨S80000x128, .f32⟩
  | 24 => ⟨S80000x128, .f32⟩
  | _ => ⟨S60000x64, .f32⟩

abbrev hbmTy (i : Nat) : BufTy := match i / 128 with
  | 0 => hbmTy0_0 i
  | 1 => hbmTy0_1 i
  | _ => ⟨S60000x64, .f32⟩

abbrev bufTy : (tb : Table) → Fin (tcTables nBuf tb) → BufTy
  | .hbm, ⟨i, _⟩ => hbmTy i
  | .local _ .vmem, ⟨0, _⟩ => ⟨S2000x64, .f32⟩
  | .local _ .vmem, ⟨1, _⟩ => ⟨S2000x64, .f32⟩
  | .local _ .vmem, ⟨2, _⟩ => ⟨S64x256, .f32⟩
  | .local _ .vmem, ⟨3, _⟩ => ⟨S1x256, .f32⟩
  | .local _ .vmem, ⟨4, _⟩ => ⟨S2000x256, .f32⟩
  | .local _ .vmem, ⟨5, _⟩ => ⟨S2000x256, .f32⟩
  | .local _ .vmem, ⟨6, _⟩ => ⟨S2000x128, .f32⟩
  | .local _ .vmem, ⟨7, _⟩ => ⟨S2000x128, .f32⟩
  | .local _ .vmem, ⟨8, _⟩ => ⟨S128x256, .f32⟩
  | .local _ .vmem, ⟨9, _⟩ => ⟨S1x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S256x256, .f32⟩
  | .local _ .vmem, ⟨15, _⟩ => ⟨S2000x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S1x256, .f32⟩
  | .local _ .vmem, ⟨20, _⟩ => ⟨S1x256, .f32⟩
  | .local _ .vmem, ⟨21, _⟩ => ⟨S1x256, .f32⟩
  | .local _ .vmem, ⟨22, _⟩ => ⟨S1x256, .f32⟩
  | .local _ .vmem, ⟨23, _⟩ => ⟨S2000x256, .f32⟩
  | .local _ .vmem, ⟨24, _⟩ => ⟨S2000x256, .f32⟩
  | .local _ .vmem, ⟨25, _⟩ => ⟨S2000x256, .f32⟩
  | .local _ .vmem, ⟨26, _⟩ => ⟨S2000x256, .f32⟩
  | .local _ .vmem, ⟨27, _⟩ => ⟨S256x128, .f32⟩
  | .local _ .vmem, ⟨28, _⟩ => ⟨S2000x128, .f32⟩
  | .local _ .vmem, ⟨29, _⟩ => ⟨S2000x128, .f32⟩
  | _, _ => ⟨S60000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_cst_0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c : Ref sig .tc := ⟨.hbm, 33, rfl⟩
abbrev main_v18 : Ref sig .tc := ⟨.hbm, 34, rfl⟩
abbrev main_v19 : Ref sig .tc := ⟨.hbm, 35, rfl⟩
abbrev main_c_1 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_2 : Ref sig .tc := ⟨.hbm, 42, rfl⟩
abbrev main_v25 : Ref sig .tc := ⟨.hbm, 43, rfl⟩
abbrev main_v26 : Ref sig .tc := ⟨.hbm, 44, rfl⟩
abbrev main_c_3 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_4 : Ref sig .tc := ⟨.hbm, 52, rfl⟩
abbrev main_v33 : Ref sig .tc := ⟨.hbm, 53, rfl⟩
abbrev main_v34 : Ref sig .tc := ⟨.hbm, 54, rfl⟩
abbrev main_c_5 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_6 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_7 : Ref sig .tc := ⟨.hbm, 71, rfl⟩
abbrev main_v49 : Ref sig .tc := ⟨.hbm, 72, rfl⟩
abbrev main_cst_8 : Ref sig .tc := ⟨.hbm, 73, rfl⟩
abbrev main_v50 : Ref sig .tc := ⟨.hbm, 74, rfl⟩
abbrev main_v51 : Ref sig .tc := ⟨.hbm, 75, rfl⟩
abbrev main_c_9 : Ref sig .tc := ⟨.hbm, 76, rfl⟩
abbrev main_call0_cst : Ref sig .tc := ⟨.hbm, 77, rfl⟩
abbrev main_call0_v0 : Ref sig .tc := ⟨.hbm, 78, rfl⟩
abbrev main_call0_v1 : Ref sig .tc := ⟨.hbm, 79, rfl⟩
abbrev main_call0_cst_0 : Ref sig .tc := ⟨.hbm, 80, rfl⟩
abbrev main_call0_v2 : Ref sig .tc := ⟨.hbm, 81, rfl⟩
abbrev main_call0_v3 : Ref sig .tc := ⟨.hbm, 82, rfl⟩
abbrev main_call0_v4 : Ref sig .tc := ⟨.hbm, 83, rfl⟩
abbrev main_call0_v5 : Ref sig .tc := ⟨.hbm, 84, rfl⟩
abbrev main_call0_v6 : Ref sig .tc := ⟨.hbm, 85, rfl⟩
abbrev main_call0_v7 : Ref sig .tc := ⟨.hbm, 86, rfl⟩
abbrev main_call0_cst_1 : Ref sig .tc := ⟨.hbm, 87, rfl⟩
abbrev main_call0_v8 : Ref sig .tc := ⟨.hbm, 88, rfl⟩
abbrev main_call0_cst_2 : Ref sig .tc := ⟨.hbm, 89, rfl⟩
abbrev main_call0_v9 : Ref sig .tc := ⟨.hbm, 90, rfl⟩
abbrev main_call0_v10 : Ref sig .tc := ⟨.hbm, 91, rfl⟩
abbrev main_call0_v11 : Ref sig .tc := ⟨.hbm, 92, rfl⟩
abbrev main_call0_cst_3 : Ref sig .tc := ⟨.hbm, 93, rfl⟩
abbrev main_call0_v12 : Ref sig .tc := ⟨.hbm, 94, rfl⟩
abbrev main_call0_cst_4 : Ref sig .tc := ⟨.hbm, 95, rfl⟩
abbrev main_call0_call0_v0 : Ref sig .tc := ⟨.hbm, 96, rfl⟩
abbrev main_call0_call0_v1 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_cst_10 : Ref sig .tc := ⟨.hbm, 108, rfl⟩
abbrev main_v62 : Ref sig .tc := ⟨.hbm, 109, rfl⟩
abbrev main_cst_11 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_c_12 : Ref sig .tc := ⟨.hbm, 115, rfl⟩
abbrev main_v67 : Ref sig .tc := ⟨.hbm, 116, rfl⟩
abbrev main_v68 : Ref sig .tc := ⟨.hbm, 117, rfl⟩
abbrev main_c_13 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_c_14 : Ref sig .tc := ⟨.hbm, 124, rfl⟩
abbrev main_v74 : Ref sig .tc := ⟨.hbm, 125, rfl⟩
abbrev main_v75 : Ref sig .tc := ⟨.hbm, 126, rfl⟩
abbrev main_c_15 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_c_16 : Ref sig .tc := ⟨.hbm, 134, rfl⟩
abbrev main_v82 : Ref sig .tc := ⟨.hbm, 135, rfl⟩
abbrev main_v83 : Ref sig .tc := ⟨.hbm, 136, rfl⟩
abbrev main_c_17 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_cst_18 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg5_0 : Ref sig .tc := ⟨.vmem, 23, rfl⟩
abbrev cc3_stg5_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg2_0 : Ref sig .tc := ⟨.vmem, 28, rfl⟩
abbrev cc4_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem4_0 : DmaSem sig := 22
abbrev cc3_sem5_0 : DmaSem sig := 23
abbrev cc3_sem5_1 : DmaSem sig := 24
abbrev cc4_sem0_0 : DmaSem sig := 25
abbrev cc4_sem0_1 : DmaSem sig := 26
abbrev cc4_sem1_0 : DmaSem sig := 27
abbrev cc4_sem2_0 : DmaSem sig := 28
abbrev cc4_sem2_1 : DmaSem sig := 29

abbrev nD : Nat := 1
abbrev τ : Topo := Topo.v7x

variable {F : FTy → Type} [FloatOps F]

abbrev grid0 : Pipeline.Grid := ⟨1, ![30], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![40], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![40], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![40], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  shapeCasts_S256_S1x256 : S256.ShapeCasts S1x256
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  inb_S2000x128_S2000x128_0_0 : ∀ a, (![0, 0] : Fin 2 → Nat) a + S2000x128.size a ≤ S2000x128.size a
  h_S2000x128 : 0 < S2000x128.numel
  inb_S128x256_S128x256_0_0 : ∀ a, (![0, 0] : Fin 2 → Nat) a + S128x256.size a ≤ S128x256.size a
  h_S128x256 : 0 < S128x256.numel
  concatenates_S60000x256_S20000x256_S80000x256_d0 : Shape.Concatenates [S60000x256, S20000x256] S80000x256 0
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  concatenates_S500000_S80000_S580000_d0 : Shape.Concatenates [S500000, S80000] S580000 0
  bcast_S_S580000 : S_.BroadcastsInDim S580000 (![] : Fin 0 → Fin S580000.rank)
  bcast_S_S80000 : S_.BroadcastsInDim S80000 (![] : Fin 0 → Fin S80000.rank)
  bcast_S580000_S580000x1_0 : S580000.BroadcastsInDim S580000x1 (![0] : Fin 1 → Fin S580000x1.rank)
  bcast_S580000x1_S580000x256_0_1 : S580000x1.BroadcastsInDim S580000x256 (![0, 1] : Fin 2 → Fin S580000x256.rank)
  bcast_S_S80000x256 : S_.BroadcastsInDim S80000x256 (![] : Fin 0 → Fin S80000x256.rank)
  bcast_S256_S1x256_1 : S256.BroadcastsInDim S1x256 (![1] : Fin 1 → Fin S1x256.rank)
  bcast_S1x256_S80000x256_0_1 : S1x256.BroadcastsInDim S80000x256 (![0, 1] : Fin 2 → Fin S80000x256.rank)
  reducesTo_S80000x256_S256_d0 : S80000x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  inb_S256x128_S256x128_0_0 : ∀ a, (![0, 0] : Fin 2 → Nat) a + S256x128.size a ≤ S256x128.size a
  h_S256x128 : 0 < S256x128.numel
  bcast_S580000x1_S580000x128_0_1 : S580000x1.BroadcastsInDim S580000x128 (![0, 1] : Fin 2 → Fin S580000x128.rank)
  bcast_S_S80000x128 : S_.BroadcastsInDim S80000x128 (![] : Fin 0 → Fin S80000x128.rank)
  bcast_S128_S1x128_1 : S128.BroadcastsInDim S1x128 (![1] : Fin 1 → Fin S1x128.rank)
  bcast_S1x128_S80000x128_0_1 : S1x128.BroadcastsInDim S80000x128 (![0, 1] : Fin 2 → Fin S80000x128.rank)
  dot_S2000x64_S64x256_S2000x256_1_0_0_1_n_n_wf : DotDims.WF S2000x64 S64x256 S2000x256 [1] [0] [0] [1] [] []
  dot_S2000x128_S128x256_S2000x256_1_0_0_1_n_n_wf : DotDims.WF S2000x128 S128x256 S2000x256 [1] [0] [0] [1] [] []
  dot_S2000x256_S256x256_S2000x256_1_0_0_1_n_n_wf : DotDims.WF S2000x256 S256x256 S2000x256 [1] [0] [0] [1] [] []
  scatter_S80000_S580000x1_S580000_n_0_0_1_wf : ScatterDims.WF S80000 S580000x1 S580000 [] [0] [0] 1
  gather_S80000_S580000x1_S580000_n_0_n_n_0_1_1_wf : GatherDims.WF S80000 S580000x1 S580000 [] [0] [] [0] [] 1 ![1]
  gather_S80000x256_S580000x1_S580000x256_1_0_n_n_0_1_1256_wf : GatherDims.WF S80000x256 S580000x1 S580000x256 [1] [0] [] [0] [] 1 ![1, 256]
  scatter_S80000x256_S580000x1_S580000x256_1_0_0_1_wf : ScatterDims.WF S80000x256 S580000x1 S580000x256 [1] [0] [0] 1
  dot_S2000x256_S256x128_S2000x128_1_0_0_1_n_n_wf : DotDims.WF S2000x256 S256x128 S2000x128 [1] [0] [0] [1] [] []
  gather_S80000x128_S580000x1_S580000x128_1_0_n_n_0_1_1128_wf : GatherDims.WF S80000x128 S580000x1 S580000x128 [1] [0] [] [0] [] 1 ![1, 128]
  scatter_S80000x128_S580000x1_S580000x128_1_0_0_1_wf : ScatterDims.WF S80000x128 S580000x1 S580000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S60000x64.size a
  hwx0_0 : ∀ i : grid0.Coords, EltTy.bits .f32 = 32 ∨ (Rect.block (s := S60000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x256.size a
  hwx0_1 : ∀ i : grid0.Coords, EltTy.bits .f32 = 32 ∨ (Rect.block (s := S64x256) S64x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S60000x256.size a
  hwx0_3 : ∀ i : grid0.Coords, EltTy.bits .f32 = 32 ∨ (Rect.block (s := S60000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S20000x128.size a
  hwx1_0 : ∀ i : grid1.Coords, EltTy.bits .f32 = 32 ∨ (Rect.block (s := S20000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x256.size a ≤ S128x256.size a
  hwx1_1 : ∀ i : grid1.Coords, EltTy.bits .f32 = 32 ∨ (Rect.block (s := S128x256) S128x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x256.size a ≤ S20000x256.size a
  hwx1_3 : ∀ i : grid1.Coords, EltTy.bits .f32 = 32 ∨ (Rect.block (s := S20000x256) S2000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S80000x256.size a
  hwx2_0 : ∀ i : grid2.Coords, EltTy.bits .f32 = 32 ∨ (Rect.block (s := S80000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S80000x256.size a
  hwx2_2 : ∀ i : grid2.Coords, EltTy.bits .f32 = 32 ∨ (Rect.block (s := S80000x256) S2000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S80000x256.size a
  hwx3_0 : ∀ i : grid3.Coords, EltTy.bits .f32 = 32 ∨ (Rect.block (s := S80000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x256.size a ≤ S80000x256.size a
  hwx3_5 : ∀ i : grid3.Coords, EltTy.bits .f32 = 32 ∨ (Rect.block (s := S80000x256) S2000x256.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S80000x256.size a
  hwx4_0 : ∀ i : grid4.Coords, EltTy.bits .f32 = 32 ∨ (Rect.block (s := S80000x256) S2000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x128.size a ≤ S256x128.size a
  hwx4_1 : ∀ i : grid4.Coords, EltTy.bits .f32 = 32 ∨ (Rect.block (s := S256x128) S256x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S80000x128.size a
  hwx4_2 : ∀ i : grid4.Coords, EltTy.bits .f32 = 32 ∨ (Rect.block (s := S80000x128) S2000x128.size (cc4_transform_2 i) (hinb4_2 i)).WholeWords (EltTy.packing .f32)

variable [Facts₀]

def dot_S2000x64_S64x256_S2000x256_1_0_0_1_n_n : DotDims S2000x64 S64x256 S2000x256 where
  lhsContracting := [1]
  rhsContracting := [0]
  lhsNonContracting := [0]
  rhsNonContracting := [1]
  lhsBatch := []
  rhsBatch := []
  wf := dot_S2000x64_S64x256_S2000x256_1_0_0_1_n_n_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def scatter_S80000_S580000x1_S580000_n_0_0_1 : ScatterDims S80000 S580000x1 S580000 where
  updateWindowDims := []
  insertedWindowDims := [0]
  scatterDimsToOperandDims := [0]
  indexVectorDim := 1
  wf := scatter_S80000_S580000x1_S580000_n_0_0_1_wf
def gather_S80000_S580000x1_S580000_n_0_n_n_0_1_1 : GatherDims S80000 S580000x1 S580000 where
  offsetDims := []
  collapsedSliceDims := [0]
  operandBatchingDims := []
  startIndicesBatchingDims := []
  startIndexMap := [0]
  indexVectorDim := 1
  sliceSizes := ![1]
  wf := gather_S80000_S580000x1_S580000_n_0_n_n_0_1_1_wf
def gather_S80000x256_S580000x1_S580000x256_1_0_n_n_0_1_1256 : GatherDims S80000x256 S580000x1 S580000x256 where
  offsetDims := [1]
  collapsedSliceDims := [0]
  operandBatchingDims := []
  startIndicesBatchingDims := []
  startIndexMap := [0]
  indexVectorDim := 1
  sliceSizes := ![1, 256]
  wf := gather_S80000x256_S580000x1_S580000x256_1_0_n_n_0_1_1256_wf
def scatter_S80000x256_S580000x1_S580000x256_1_0_0_1 : ScatterDims S80000x256 S580000x1 S580000x256 where
  updateWindowDims := [1]
  insertedWindowDims := [0]
  scatterDimsToOperandDims := [0]
  indexVectorDim := 1
  wf := scatter_S80000x256_S580000x1_S580000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S80000x128_S580000x1_S580000x128_1_0_n_n_0_1_1128 : GatherDims S80000x128 S580000x1 S580000x128 where
  offsetDims := [1]
  collapsedSliceDims := [0]
  operandBatchingDims := []
  startIndicesBatchingDims := []
  startIndexMap := [0]
  indexVectorDim := 1
  sliceSizes := ![1, 128]
  wf := gather_S80000x128_S580000x1_S580000x128_1_0_n_n_0_1_1128_wf
def scatter_S80000x128_S580000x1_S580000x128_1_0_0_1 : ScatterDims S80000x128 S580000x1 S580000x128 where
  updateWindowDims := [1]
  insertedWindowDims := [0]
  scatterDimsToOperandDims := [0]
  indexVectorDim := 1
  wf := scatter_S80000x128_S580000x1_S580000x128_1_0_0_1_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S2000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v8) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v9) S2000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v48) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v53) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v54) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v55) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v56) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v57) S2000x256.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v57) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg9) S256x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v58) S2000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S60000x64 : Shape := ⟨2, ![60000, 64]⟩
abbrev S20000x128 : Shape := ⟨2, ![20000, 128]⟩
abbrev S2x500000 : Shape := ⟨2, ![2, 500000]⟩
abbrev S64x256 : Shape := ⟨2, ![64, 256]⟩
abbrev S256 : Shape := ⟨1, ![256]⟩
abbrev S128x256 : Shape := ⟨2, ![128, 256]⟩
abbrev S256x256 : Shape := ⟨2, ![256, 256]⟩
abbrev S256x128 : Shape := ⟨2, ![256, 128]⟩
abbrev S128 : Shape := ⟨1, ![128]⟩
abbrev S1x500000 : Shape := ⟨2, ![1, 500000]⟩
abbrev S500000 : Shape := ⟨1, ![500000]⟩
abbrev S60000x256 : Shape := ⟨2, ![60000, 256]⟩
abbrev S1x256 : Shape := ⟨2, ![1, 256]⟩
abbrev S20000x256 : Shape := ⟨2, ![20000, 256]⟩
abbrev S80000x256 : Shape := ⟨2, ![80000, 256]⟩
abbrev S80000 : Shape := ⟨1, ![80000]⟩
abbrev S580000 : Shape := ⟨1, ![580000]⟩
abbrev S_ : Shape := ⟨0, ![]⟩
abbrev S580000x1 : Shape := ⟨2, ![580000, 1]⟩
abbrev S580000x256 : Shape := ⟨2, ![580000, 256]⟩
abbrev S80000x128 : Shape := ⟨2, ![80000, 128]⟩
abbrev S580000x128 : Shape := ⟨2, ![580000, 128]⟩
abbrev S1x128 : Shape := ⟨2, ![1, 128]⟩

abbrev nBuf : Space → Nat
  | .hbm => 171
  | .vmem => 0
  | .smem => 0
  | _ => 0

abbrev hbmTy0_0 (i : Nat) : BufTy := match i % 128 with
  | 0 => ⟨S60000x64, .f32⟩
  | 1 => ⟨S20000x128, .f32⟩
  | 2 => ⟨S2x500000, .i32⟩
  | 3 => ⟨S64x256, .f32⟩
  | 4 => ⟨S256, .f32⟩
  | 5 => ⟨S128x256, .f32⟩
  | 6 => ⟨S256, .f32⟩
  | 7 => ⟨S256x256, .f32⟩
  | 8 => ⟨S256, .f32⟩
  | 9 => ⟨S256x128, .f32⟩
  | 10 => ⟨S128, .f32⟩
  | 11 => ⟨S256, .f32⟩
  | 12 => ⟨S256, .f32⟩
  | 13 => ⟨S1x500000, .i32⟩
  | 14 => ⟨S500000, .i32⟩
  | 15 => ⟨S1x500000, .i32⟩
  | 16 => ⟨S500000, .i32⟩
  | 17 => ⟨S60000x256, .f32⟩
  | 18 => ⟨S1x256, .f32⟩
  | 19 => ⟨S60000x256, .f32⟩
  | 20 => ⟨S60000x256, .f32⟩
  | 21 => ⟨S20000x256, .f32⟩
  | 22 => ⟨S1x256, .f32⟩
  | 23 => ⟨S20000x256, .f32⟩
  | 24 => ⟨S20000x256, .f32⟩
  | 25 => ⟨S80000x256, .f32⟩
  | 26 => ⟨S80000x256, .f32⟩
  | 27 => ⟨S80000, .i32⟩
  | 28 => ⟨S580000, .i32⟩
  | 29 => ⟨S580000, .i32⟩
  | 30 => ⟨S_, .f32⟩
  | 31 => ⟨S580000, .f32⟩
  | 32 => ⟨S_, .f32⟩
  | 33 => ⟨S80000, .f32⟩
  | 34 => ⟨S580000x1, .i32⟩
  | 35 => ⟨S80000, .f32⟩
  | 36 => ⟨S80000, .f32⟩
  | 37 => ⟨S_, .i32⟩
  | 38 => ⟨S580000, .i32⟩
  | 39 => ⟨S580000, .i1⟩
  | 40 => ⟨S_, .i32⟩
  | 41 => ⟨S580000, .i32⟩
  | 42 => ⟨S580000, .i32⟩
  | 43 => ⟨S580000, .i32⟩
  | 44 => ⟨S580000x1, .i32⟩
  | 45 => ⟨S580000, .f32⟩
  | 46 => ⟨S_, .i32⟩
  | 47 => ⟨S580000, .i32⟩
  | 48 => ⟨S580000, .i1⟩
  | 49 => ⟨S_, .i32⟩
  | 50 => ⟨S580000, .i32⟩
  | 51 => ⟨S580000, .i32⟩
  | 52 => ⟨S580000, .i32⟩
  | 53 => ⟨S580000x1, .i32⟩
  | 54 => ⟨S580000, .f32⟩
  | 55 => ⟨S580000, .f32⟩
  | 56 => ⟨S_, .i32⟩
  | 57 => ⟨S580000, .i32⟩
  | 58 => ⟨S580000, .i1⟩
  | 59 => ⟨S_, .i32⟩
  | 60 => ⟨S580000, .i32⟩
  | 61 => ⟨S580000, .i32⟩
  | 62 => ⟨S580000, .i32⟩
  | 63 => ⟨S580000x1, .i32⟩
  | 64 => ⟨S580000x256, .f32⟩
  | 65 => ⟨S580000x1, .f32⟩
  | 66 => ⟨S580000x256, .f32⟩
  | 67 => ⟨S580000x256, .f32⟩
  | 68 => ⟨S_, .f32⟩
  | 69 => ⟨S80000x256, .f32⟩
  | 70 => ⟨S580000x1, .i32⟩
  | 71 => ⟨S80000x256, .f32⟩
  | 72 => ⟨S1x256, .f32⟩
  | 73 => ⟨S80000x256, .f32⟩
  | 74 => ⟨S80000x256, .f32⟩
  | 75 => ⟨S_, .f32⟩
  | 76 => ⟨S256, .f32⟩
  | 77 => ⟨S_, .f32⟩
  | 78 => ⟨S256, .f32⟩
  | 79 => ⟨S256, .f32⟩
  | 80 => ⟨S_, .i32⟩
  | 81 => ⟨S_, .f32⟩
  | 82 => ⟨S256, .f32⟩
  | 83 => ⟨S1x256, .f32⟩
  | 84 => ⟨S_, .f32⟩
  | 85 => ⟨S1x256, .f32⟩
  | 86 => ⟨S1x256, .f32⟩
  | 87 => ⟨S80000x256, .f32⟩
  | 88 => ⟨S80000x256, .f32⟩
  | 89 => ⟨S80000x256, .f32⟩
  | 90 => ⟨S_, .f32⟩
  | 91 => ⟨S_, .f32⟩
  | 92 => ⟨S_, .f32⟩
  | 93 => ⟨S_, .f32⟩
  | 94 => ⟨S256, .f32⟩
  | 95 => ⟨S256, .f32⟩
  | 96 => ⟨S256, .f32⟩
  | 97 => ⟨S_, .f32⟩
  | 98 => ⟨S_, .i1⟩
  | 99 => ⟨S_, .f32⟩
  | 100 => ⟨S_, .f32⟩
  | 101 => ⟨S256, .f32⟩
  | 102 => ⟨S256, .f32⟩
  | 103 => ⟨S1x256, .f32⟩
  | 104 => ⟨S80000x256, .f32⟩
  | 105 => ⟨S80000x256, .f32⟩
  | 106 => ⟨S_, .f32⟩
  | 107 => ⟨S256, .f32⟩
  | 108 => ⟨S256, .f32⟩
  | 109 => ⟨S256, .f32⟩
  | 110 => ⟨S1x256, .f32⟩
  | 111 => ⟨S80000x256, .f32⟩
  | 112 => ⟨S80000x256, .f32⟩
  | 113 => ⟨S1x256, .f32⟩
  | 114 => ⟨S80000x256, .f32⟩
  | 115 => ⟨S80000x256, .f32⟩
  | 116 => ⟨S1x256, .f32⟩
  | 117 => ⟨S80000x256, .f32⟩
  | 118 => ⟨S80000x256, .f32⟩
  | 119 => ⟨S_, .f32⟩
  | 120 => ⟨S80000x256, .f32⟩
  | 121 => ⟨S80000x256, .f32⟩
  | 122 => ⟨S80000x128, .f32⟩
  | 123 => ⟨S80000, .i32⟩
  | 124 => ⟨S580000, .i32⟩
  | 125 => ⟨S580000, .i32⟩
  | 126 => ⟨S_, .f32⟩
  | 127 => ⟨S580000, .f32⟩
  | _ => ⟨S60000x64, .f32⟩

abbrev hbmTy0_1 (i : Nat) : BufTy := match i % 128 with
  | 0 => ⟨S_, .f32⟩
  | 1 => ⟨S80000, .f32⟩
  | 2 => ⟨S580000x1, .i32⟩
  | 3 => ⟨S80000, .f32⟩
  | 4 => ⟨S80000, .f32⟩
  | 5 => ⟨S_, .i32⟩
  | 6 => ⟨S580000, .i32⟩
  | 7 => ⟨S580000, .i1⟩
  | 8 => ⟨S_, .i32⟩
  | 9 => ⟨S580000, .i32⟩
  | 10 => ⟨S580000, .i32⟩
  | 11 => ⟨S580000, .i32⟩
  | 12 => ⟨S580000x1, .i32⟩
  | 13 => ⟨S580000, .f32⟩
  | 14 => ⟨S_, .i32⟩
  | 15 => ⟨S580000, .i32⟩
  | 16 => ⟨S580000, .i1⟩
  | 17 => ⟨S_, .i32⟩
  | 18 => ⟨S580000, .i32⟩
  | 19 => ⟨S580000, .i32⟩
  | 20 => ⟨S580000, .i32⟩
  | 21 => ⟨S580000x1, .i32⟩
  | 22 => ⟨S580000, .f32⟩
  | 23 => ⟨S580000, .f32⟩
  | 24 => ⟨S_, .i32⟩
  | 25 => ⟨S580000, .i32⟩
  | 26 => ⟨S580000, .i1⟩
  | 27 => ⟨S_, .i32⟩
  | 28 => ⟨S580000, .i32⟩
  | 29 => ⟨S580000, .i32⟩
  | 30 => ⟨S580000, .i32⟩
  | 31 => ⟨S580000x1, .i32⟩
  | 32 => ⟨S580000x128, .f32⟩
  | 33 => ⟨S580000x1, .f32⟩
  | 34 => ⟨S580000x128, .f32⟩
  | 35 => ⟨S580000x128, .f32⟩
  | 36 => ⟨S_, .f32⟩
  | 37 => ⟨S80000x128, .f32⟩
  | 38 => ⟨S580000x1, .i32⟩
  | 39 => ⟨S80000x128, .f32⟩
  | 40 => ⟨S1x128, .f32⟩
  | 41 => ⟨S80000x128, .f32⟩
  | 42 => ⟨S80000x128, .f32⟩
  | _ => ⟨S60000x64, .f32⟩

abbrev hbmTy (i : Nat) : BufTy := match i / 128 with
  | 0 => hbmTy0_0 i
  | 1 => hbmTy0_1 i
  | _ => ⟨S60000x64, .f32⟩

abbrev bufTy : (tb : Table) → Fin (tcTables nBuf tb) → BufTy
  | .hbm, ⟨i, _⟩ => hbmTy i
  | _, _ => ⟨S60000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst : Ref sig .tc := ⟨.hbm, 30, rfl⟩
abbrev main_v17 : Ref sig .tc := ⟨.hbm, 31, rfl⟩
abbrev main_cst_0 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c : Ref sig .tc := ⟨.hbm, 37, rfl⟩
abbrev main_v22 : Ref sig .tc := ⟨.hbm, 38, rfl⟩
abbrev main_v23 : Ref sig .tc := ⟨.hbm, 39, rfl⟩
abbrev main_c_1 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_2 : Ref sig .tc := ⟨.hbm, 46, rfl⟩
abbrev main_v29 : Ref sig .tc := ⟨.hbm, 47, rfl⟩
abbrev main_v30 : Ref sig .tc := ⟨.hbm, 48, rfl⟩
abbrev main_c_3 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_4 : Ref sig .tc := ⟨.hbm, 56, rfl⟩
abbrev main_v37 : Ref sig .tc := ⟨.hbm, 57, rfl⟩
abbrev main_v38 : Ref sig .tc := ⟨.hbm, 58, rfl⟩
abbrev main_c_5 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_6 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_7 : Ref sig .tc := ⟨.hbm, 75, rfl⟩
abbrev main_v53 : Ref sig .tc := ⟨.hbm, 76, rfl⟩
abbrev main_cst_8 : Ref sig .tc := ⟨.hbm, 77, rfl⟩
abbrev main_v54 : Ref sig .tc := ⟨.hbm, 78, rfl⟩
abbrev main_v55 : Ref sig .tc := ⟨.hbm, 79, rfl⟩
abbrev main_c_9 : Ref sig .tc := ⟨.hbm, 80, rfl⟩
abbrev main_call0_cst : Ref sig .tc := ⟨.hbm, 81, rfl⟩
abbrev main_call0_v0 : Ref sig .tc := ⟨.hbm, 82, rfl⟩
abbrev main_call0_v1 : Ref sig .tc := ⟨.hbm, 83, rfl⟩
abbrev main_call0_cst_0 : Ref sig .tc := ⟨.hbm, 84, rfl⟩
abbrev main_call0_v2 : Ref sig .tc := ⟨.hbm, 85, rfl⟩
abbrev main_call0_v3 : Ref sig .tc := ⟨.hbm, 86, rfl⟩
abbrev main_call0_v4 : Ref sig .tc := ⟨.hbm, 87, rfl⟩
abbrev main_call0_v5 : Ref sig .tc := ⟨.hbm, 88, rfl⟩
abbrev main_call0_v6 : Ref sig .tc := ⟨.hbm, 89, rfl⟩
abbrev main_call0_v7 : Ref sig .tc := ⟨.hbm, 90, rfl⟩
abbrev main_call0_cst_1 : Ref sig .tc := ⟨.hbm, 91, rfl⟩
abbrev main_call0_v8 : Ref sig .tc := ⟨.hbm, 92, rfl⟩
abbrev main_call0_cst_2 : Ref sig .tc := ⟨.hbm, 93, rfl⟩
abbrev main_call0_v9 : Ref sig .tc := ⟨.hbm, 94, rfl⟩
abbrev main_call0_v10 : Ref sig .tc := ⟨.hbm, 95, rfl⟩
abbrev main_call0_v11 : Ref sig .tc := ⟨.hbm, 96, rfl⟩
abbrev main_call0_cst_3 : Ref sig .tc := ⟨.hbm, 97, rfl⟩
abbrev main_call0_v12 : Ref sig .tc := ⟨.hbm, 98, rfl⟩
abbrev main_call0_cst_4 : Ref sig .tc := ⟨.hbm, 99, rfl⟩
abbrev main_call0_call0_v0 : Ref sig .tc := ⟨.hbm, 100, rfl⟩
abbrev main_call0_call0_v1 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_cst_10 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_call1_cst : Ref sig .tc := ⟨.hbm, 119, rfl⟩
abbrev main_call1_v0 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_cst_11 : Ref sig .tc := ⟨.hbm, 126, rfl⟩
abbrev main_v77 : Ref sig .tc := ⟨.hbm, 127, rfl⟩
abbrev main_cst_12 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_c_13 : Ref sig .tc := ⟨.hbm, 133, rfl⟩
abbrev main_v82 : Ref sig .tc := ⟨.hbm, 134, rfl⟩
abbrev main_v83 : Ref sig .tc := ⟨.hbm, 135, rfl⟩
abbrev main_c_14 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_c_15 : Ref sig .tc := ⟨.hbm, 142, rfl⟩
abbrev main_v89 : Ref sig .tc := ⟨.hbm, 143, rfl⟩
abbrev main_v90 : Ref sig .tc := ⟨.hbm, 144, rfl⟩
abbrev main_c_16 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_c_17 : Ref sig .tc := ⟨.hbm, 152, rfl⟩
abbrev main_v97 : Ref sig .tc := ⟨.hbm, 153, rfl⟩
abbrev main_v98 : Ref sig .tc := ⟨.hbm, 154, rfl⟩
abbrev main_c_18 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_cst_19 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S256_S1x256_1 : S256.BroadcastsInDim S1x256 (![1] : Fin 1 → Fin S1x256.rank)
  bcast_S1x256_S60000x256_0_1 : S1x256.BroadcastsInDim S60000x256 (![0, 1] : Fin 2 → Fin S60000x256.rank)
  bcast_S1x256_S20000x256_0_1 : S1x256.BroadcastsInDim S20000x256 (![0, 1] : Fin 2 → Fin S20000x256.rank)
  concatenates_S60000x256_S20000x256_S80000x256_d0 : Shape.Concatenates [S60000x256, S20000x256] S80000x256 0
  concatenates_S500000_S80000_S580000_d0 : Shape.Concatenates [S500000, S80000] S580000 0
  bcast_S_S580000 : S_.BroadcastsInDim S580000 (![] : Fin 0 → Fin S580000.rank)
  bcast_S_S80000 : S_.BroadcastsInDim S80000 (![] : Fin 0 → Fin S80000.rank)
  bcast_S580000_S580000x1_0 : S580000.BroadcastsInDim S580000x1 (![0] : Fin 1 → Fin S580000x1.rank)
  bcast_S580000x1_S580000x256_0_1 : S580000x1.BroadcastsInDim S580000x256 (![0, 1] : Fin 2 → Fin S580000x256.rank)
  bcast_S_S80000x256 : S_.BroadcastsInDim S80000x256 (![] : Fin 0 → Fin S80000x256.rank)
  bcast_S1x256_S80000x256_0_1 : S1x256.BroadcastsInDim S80000x256 (![0, 1] : Fin 2 → Fin S80000x256.rank)
  reducesTo_S80000x256_S256_d0 : S80000x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  bcast_S580000x1_S580000x128_0_1 : S580000x1.BroadcastsInDim S580000x128 (![0, 1] : Fin 2 → Fin S580000x128.rank)
  bcast_S_S80000x128 : S_.BroadcastsInDim S80000x128 (![] : Fin 0 → Fin S80000x128.rank)
  bcast_S128_S1x128_1 : S128.BroadcastsInDim S1x128 (![1] : Fin 1 → Fin S1x128.rank)
  bcast_S1x128_S80000x128_0_1 : S1x128.BroadcastsInDim S80000x128 (![0, 1] : Fin 2 → Fin S80000x128.rank)
  dot_S60000x64_S64x256_S60000x256_1_0_0_1_n_n_wf : DotDims.WF S60000x64 S64x256 S60000x256 [1] [0] [0] [1] [] []
  dot_S20000x128_S128x256_S20000x256_1_0_0_1_n_n_wf : DotDims.WF S20000x128 S128x256 S20000x256 [1] [0] [0] [1] [] []
  dot_S80000x256_S256x256_S80000x256_1_0_0_1_n_n_wf : DotDims.WF S80000x256 S256x256 S80000x256 [1] [0] [0] [1] [] []
  scatter_S80000_S580000x1_S580000_n_0_0_1_wf : ScatterDims.WF S80000 S580000x1 S580000 [] [0] [0] 1
  gather_S80000_S580000x1_S580000_n_0_n_n_0_1_1_wf : GatherDims.WF S80000 S580000x1 S580000 [] [0] [] [0] [] 1 ![1]
  gather_S80000x256_S580000x1_S580000x256_1_0_n_n_0_1_1256_wf : GatherDims.WF S80000x256 S580000x1 S580000x256 [1] [0] [] [0] [] 1 ![1, 256]
  scatter_S80000x256_S580000x1_S580000x256_1_0_0_1_wf : ScatterDims.WF S80000x256 S580000x1 S580000x256 [1] [0] [0] 1
  dot_S80000x256_S256x128_S80000x128_1_0_0_1_n_n_wf : DotDims.WF S80000x256 S256x128 S80000x128 [1] [0] [0] [1] [] []
  gather_S80000x128_S580000x1_S580000x128_1_0_n_n_0_1_1128_wf : GatherDims.WF S80000x128 S580000x1 S580000x128 [1] [0] [] [0] [] 1 ![1, 128]
  scatter_S80000x128_S580000x1_S580000x128_1_0_0_1_wf : ScatterDims.WF S80000x128 S580000x1 S580000x128 [1] [0] [0] 1

variable [Facts₀]

def dot_S60000x64_S64x256_S60000x256_1_0_0_1_n_n : DotDims S60000x64 S64x256 S60000x256 where
  lhsContracting := [1]
  rhsContracting := [0]
  lhsNonContracting := [0]
  rhsNonContracting := [1]
  lhsBatch := []
  rhsBatch := []
  wf := dot_S60000x64_S64x256_S60000x256_1_0_0_1_n_n_wf
def dot_S20000x128_S128x256_S20000x256_1_0_0_1_n_n : DotDims S20000x128 S128x256 S20000x256 where
  lhsContracting := [1]
  rhsContracting := [0]
  lhsNonContracting := [0]
  rhsNonContracting := [1]
  lhsBatch := []
  rhsBatch := []
  wf := dot_S20000x128_S128x256_S20000x256_1_0_0_1_n_n_wf
def dot_S80000x256_S256x256_S80000x256_1_0_0_1_n_n : DotDims S80000x256 S256x256 S80000x256 where
  lhsContracting := [1]
  rhsContracting := [0]
  lhsNonContracting := [0]
  rhsNonContracting := [1]
  lhsBatch := []
  rhsBatch := []
  wf := dot_S80000x256_S256x256_S80000x256_1_0_0_1_n_n_wf
def scatter_S80000_S580000x1_S580000_n_0_0_1 : ScatterDims S80000 S580000x1 S580000 where
  updateWindowDims := []
  insertedWindowDims := [0]
  scatterDimsToOperandDims := [0]
  indexVectorDim := 1
  wf := scatter_S80000_S580000x1_S580000_n_0_0_1_wf
def gather_S80000_S580000x1_S580000_n_0_n_n_0_1_1 : GatherDims S80000 S580000x1 S580000 where
  offsetDims := []
  collapsedSliceDims := [0]
  operandBatchingDims := []
  startIndicesBatchingDims := []
  startIndexMap := [0]
  indexVectorDim := 1
  sliceSizes := ![1]
  wf := gather_S80000_S580000x1_S580000_n_0_n_n_0_1_1_wf
def gather_S80000x256_S580000x1_S580000x256_1_0_n_n_0_1_1256 : GatherDims S80000x256 S580000x1 S580000x256 where
  offsetDims := [1]
  collapsedSliceDims := [0]
  operandBatchingDims := []
  startIndicesBatchingDims := []
  startIndexMap := [0]
  indexVectorDim := 1
  sliceSizes := ![1, 256]
  wf := gather_S80000x256_S580000x1_S580000x256_1_0_n_n_0_1_1256_wf
def scatter_S80000x256_S580000x1_S580000x256_1_0_0_1 : ScatterDims S80000x256 S580000x1 S580000x256 where
  updateWindowDims := [1]
  insertedWindowDims := [0]
  scatterDimsToOperandDims := [0]
  indexVectorDim := 1
  wf := scatter_S80000x256_S580000x1_S580000x256_1_0_0_1_wf
def dot_S80000x256_S256x128_S80000x128_1_0_0_1_n_n : DotDims S80000x256 S256x128 S80000x128 where
  lhsContracting := [1]
  rhsContracting := [0]
  lhsNonContracting := [0]
  rhsNonContracting := [1]
  lhsBatch := []
  rhsBatch := []
  wf := dot_S80000x256_S256x128_S80000x128_1_0_0_1_n_n_wf
def gather_S80000x128_S580000x1_S580000x128_1_0_n_n_0_1_1128 : GatherDims S80000x128 S580000x1 S580000x128 where
  offsetDims := [1]
  collapsedSliceDims := [0]
  operandBatchingDims := []
  startIndicesBatchingDims := []
  startIndexMap := [0]
  indexVectorDim := 1
  sliceSizes := ![1, 128]
  wf := gather_S80000x128_S580000x1_S580000x128_1_0_n_n_0_1_1128_wf
def scatter_S80000x128_S580000x1_S580000x128_1_0_0_1 : ScatterDims S80000x128 S580000x1 S580000x128 where
  updateWindowDims := [1]
  insertedWindowDims := [0]
  scatterDimsToOperandDims := [0]
  indexVectorDim := 1
  wf := scatter_S80000x128_S580000x1_S580000x128_1_0_0_1_wf

class Facts : Prop extends Facts₀ where

variable [Facts]
-- ==== Proof.KRun.lean ====
/-
  The idealized kernel's run with its final buffer contents named.

  @main is twelve segments: stretches of host operations and five pallas regions. The generated frame module names the
  TensorCore's buffer contents at every segment boundary — `W0` the launch memory, `W12` the contents after the last
  host stretch — and launches the segments. Here the same launch is read with the strongest post it offers: every weakly
  fair execution terminates, and every unscoped buffer of every core ends at `W12`. The result buffer and the thirteen
  arguments are among them.
-/
import proofs.«170367_j24137716203574_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, and every unscoped TensorCore buffer ends at the
    contents the last segment boundary names. -/
theorem run_final : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h => h)

/-- The same run at a buffer that is not scoped: it ends at `W12`. -/
theorem run_at (b : Ref sig .tc) (hb : ¬ (Proc.devRef .tc b : DevRef τ sig).isScoped) :
    θ_run defs (onTc (τ := τ) (main (F := F))) ⟨m, fun _ => 0, ρ⟩ (fun r => ∀ c : Dev nD,
      r.2.mem ((c.tc : Thread nD τ).loc b) = W12 m ρ c (Proc.devRef .tc b)) :=
  (θ_run defs _ _).mono (fun r h c => h c _ (mem_uc b hb)) (run_final m ρ)

end Cert.KernelIdeal.Run

end
-- ==== Proof.RefRun.lean ====
/-
  The idealized reference's run, read back.

  The reference is a straight line of 158 host operations once its three outlined functions (the variance with its
  inner select, and the positive part) are written at their call sites over the calls' buffers. Every weakly fair
  execution of it terminates with each TensorCore buffer at the fold of the operations' results over the launch
  contents. The line is cut into ten stages — the edge table's rows, two input layers, their stacking, a product,
  the first message passing with the column means, the column variances, the normalisation with the positive part, a
  product, the second message passing — so that the fold can be read one stage at a time.
-/
import proofs.«170367_j24137716203574_1_alg».proof.Proof.Gen.ReferenceIdeal
import Idealize.ShloMosaic.Lib.StableHlo.Run
import Idealize.ShloMosaic.Lib.Pipeline.Regions

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- The two rows of the edge table, each sliced out and flattened: the sources and the destinations. -/
abbrev rA : List (HloOp τ sig (Elt F)) :=
  [ StableHlo.unary main_arg2 main_v0 ((extractStridedSlice S1x500000 ![0, 0] · slices_S2x500000_S1x500000_0_0) : (⟨S2x500000, .i32⟩ : BufTy).Contents (Elt F) → (⟨S1x500000, .i32⟩ : BufTy).Contents (Elt F)),
    StableHlo.reshape main_v0 main_v1 rfl shapeCasts_S1x500000_S500000,
    StableHlo.unary main_arg2 main_v2 ((extractStridedSlice S1x500000 ![1, 0] · slices_S2x500000_S1x500000_1_0) : (⟨S2x500000, .i32⟩ : BufTy).Contents (Elt F) → (⟨S1x500000, .i32⟩ : BufTy).Contents (Elt F)),
    StableHlo.reshape main_v2 main_v3 rfl shapeCasts_S1x500000_S500000 ]

/-- The first input layer: the product with its weight, the bias broadcast in two steps, the sum. -/
abbrev rL1 : List (HloOp τ sig (Elt F)) :=
  [ StableHlo.binary main_arg0 main_arg3 main_v4 ((fun l r => Host.dotGeneral dot_S60000x64_S64x256_S60000x256_1_0_0_1_n_n none l r) : (⟨S60000x64, .f32⟩ : BufTy).Contents (Elt F) → (⟨S64x256, .f32⟩ : BufTy).Contents (Elt F) → (⟨S60000x256, .f32⟩ : BufTy).Contents (Elt F)),
    StableHlo.unary main_arg4 main_v5 (broadcastInDim S1x256 ![1] bcast_S256_S1x256_1 : (⟨S256, .f32⟩ : BufTy).Contents (Elt F) → (⟨S1x256, .f32⟩ : BufTy).Contents (Elt F)),
    StableHlo.unary main_v5 main_v6 (broadcastInDim S60000x256 ![0, 1] bcast_S1x256_S60000x256_0_1 : (⟨S1x256, .f32⟩ : BufTy).Contents (Elt F) → (⟨S60000x256, .f32⟩ : BufTy).Contents (Elt F)),
    StableHlo.binary main_v4 main_v6 main_v7 (addf : (⟨S60000x256, .f32⟩ : BufTy).Contents (Elt F) → (⟨S60000x256, .f32⟩ : BufTy).Contents (Elt F) → (⟨S60000x256, .f32⟩ : BufTy).Contents (Elt F)) ]

/-- The second input layer, likewise. -/
abbrev rL2 : List (HloOp τ sig (Elt F)) :=
  [ StableHlo.binary main_arg1 main_arg5 main_v8 ((fun l r => Host.dotGeneral dot_S20000x128_S128x256_S20000x256_1_0_0_1_n_n none l r) : (⟨S20000x128, .f32⟩ : BufTy).Contents (Elt F) → (⟨S128x256, .f32⟩ : BufTy).Contents (Elt F) → (⟨S20000x256, .f32⟩ : BufTy).Contents (Elt F)),
    StableHlo.unary main_arg6 main_v9 (broadcastInDim S1x256 ![1] bcast_S256_S1x256_1 : (⟨S256, .f32⟩ : BufTy).Contents (Elt F) → (⟨S1x256, .f32⟩ : BufTy).Contents (Elt F)),
    StableHlo.unary main_v9 main_v10 (broadcastInDim S20000x256 ![0, 1] bcast_S1x256_S20000x256_0_1 : (⟨S1x256, .f32⟩ : BufTy).Contents (Elt F) → (⟨S20000x256, .f32⟩ : BufTy).Contents (Elt F)),
    StableHlo.binary main_v8 main_v10 main_v11 (addf : (⟨S20000x256, .f32⟩ : BufTy).Contents (Elt F) → (⟨S20000x256, .f32⟩ : BufTy).Contents (Elt F) → (⟨S20000x256, .f32⟩ : BufTy).Contents (Elt F)) ]

/-- The two layers' rows stacked. -/
abbrev rCat : List (HloOp τ sig (Elt F)) :=
  [ StableHlo.binary main_v7 main_v11 main_v12 ((fun a b => concatenate S80000x256 0 [⟨S60000x256, a⟩, ⟨S20000x256, b⟩] concatenates_S60000x256_S20000x256_S80000x256_d0) : (⟨S60000x256, .f32⟩ : BufTy).Contents (Elt F) → (⟨S20000x256, .f32⟩ : BufTy).Contents (Elt F) → (⟨S80000x256, .f32⟩ : BufTy).Contents (Elt F)) ]

/-- The first convolution's product with its weight. -/
abbrev rMM1 : List (HloOp τ sig (Elt F)) :=
  [ StableHlo.binary main_v12 main_arg7 main_v13 ((fun l r => Host.dotGeneral dot_S80000x256_S256x256_S80000x256_1_0_0_1_n_n none l r) : (⟨S80000x256, .f32⟩ : BufTy).Contents (Elt F) → (⟨S256x256, .f32⟩ : BufTy).Contents (Elt F) → (⟨S80000x256, .f32⟩ : BufTy).Contents (Elt F)) ]

/-- The first convolution's message passing (self-loops appended, degrees scattered, their inverse square roots gathered at both ends of every edge, the rows gathered, scaled and scatter-added, the bias added), then the column sums and the column means. -/
abbrev rT1 : List (HloOp τ sig (Elt F)) :=
  [ StableHlo.nullary main_v14 (iotaInDim S80000 32 0),
    StableHlo.binary main_v1 main_v14 main_v15 ((fun a b => concatenate S580000 0 [⟨S500000, a⟩, ⟨S80000, b⟩] concatenates_S500000_S80000_S580000_d0) : (⟨S500000, .i32⟩ : BufTy).Contents (Elt F) → (⟨S80000, .i32⟩ : BufTy).Contents (Elt F) → (⟨S580000, .i32⟩ : BufTy).Contents (Elt F)),
    StableHlo.binary main_v3 main_v14 main_v16 ((fun a b => concatenate S580000 0 [⟨S500000, a⟩, ⟨S80000, b⟩] concatenates_S500000_S80000_S580000_d0) : (⟨S500000, .i32⟩ : BufTy).Contents (Elt F) → (⟨S80000, .i32⟩ : BufTy).Contents (Elt F) → (⟨S580000, .i32⟩ : BufTy).Contents (Elt F)),
    StableHlo.nullary main_cst (constant S_ .f32 0x3F800000#32),
    StableHlo.unary main_cst main_v17 (broadcastInDim S580000 ![] bcast_S_S580000 : (⟨S_, .f32⟩ : BufTy).Contents (Elt F) → (⟨S580000, .f32⟩ : BufTy).Contents (Elt F)),
    StableHlo.nullary main_cst_0 (constant S_ .f32 0x00000000#32),
    StableHlo.unary main_cst_0 main_v18 (broadcastInDim S80000 ![] bcast_S_S80000 : (⟨S_, .f32⟩ : BufTy).Contents (Elt F) → (⟨S80000, .f32⟩ : BufTy).Contents (Elt F)),
    StableHlo.unary main_v16 main_v19 (broadcastInDim S580000x1 ![0] bcast_S580000_S580000x1_0 : (⟨S580000, .i32⟩ : BufTy).Contents (Elt F) → (⟨S580000x1, .i32⟩ : BufTy).Contents (Elt F)),
    StableHlo.ternary main_v18 main_v19 main_v17 main_v20 ((fun x i u => Host.scatterAdd scatter_S80000_S580000x1_S580000_n_0_0_1 x i u) : (⟨S80000, .f32⟩ : BufTy).Contents (Elt F) → (⟨S580000x1, .i32⟩ : BufTy).Contents (Elt F) → (⟨S580000, .f32⟩ : BufTy).Contents (Elt F) → (⟨S80000, .f32⟩ : BufTy).Contents (Elt F)),
    StableHlo.unary main_v20 main_v21 (Host.rsqrt : (⟨S80000, .f32⟩ : BufTy).Contents (Elt F) → (⟨S80000, .f32⟩ : BufTy).Contents (Elt F)),
    StableHlo.nullary main_c (constantI S_ 32 0#32),
    StableHlo.unary main_c main_v22 (broadcastInDim S580000 ![] bcast_S_S580000 : (⟨S_, .i32⟩ : BufTy).Contents (Elt F) → (⟨S580000, .i32⟩ : BufTy).Contents (Elt F)),
    StableHlo.binary main_v15 main_v22 main_v23 (cmpi .slt : (⟨S580000, .i32⟩ : BufTy).Contents (Elt F) → (⟨S580000, .i32⟩ : BufTy).Contents (Elt F) → (⟨S580000, .i1⟩ : BufTy).Contents (Elt F)),
    StableHlo.nullary main_c_1 (constantI S_ 32 80000#32),
    StableHlo.unary main_c_1 main_v24 (broadcastInDim S580000 ![] bcast_S_S580000 : (⟨S_, .i32⟩ : BufTy).Contents (Elt F) → (⟨S580000, .i32⟩ : BufTy).Contents (Elt F)),
    StableHlo.binary main_v15 main_v24 main_v25 (addi : (⟨S580000, .i32⟩ : BufTy).Contents (Elt F) → (⟨S580000, .i32⟩ : BufTy).Contents (Elt F) → (⟨S580000, .i32⟩ : BufTy).Contents (Elt F)),
    StableHlo.ternary main_v23 main_v25 main_v15 main_v26 (select : (⟨S580000, .i1⟩ : BufTy).Contents (Elt F) → (⟨S580000, .i32⟩ : BufTy).Contents (Elt F) → (⟨S580000, .i32⟩ : BufTy).Contents (Elt F) → (⟨S580000, .i32⟩ : BufTy).Contents (Elt F)),
    StableHlo.unary main_v26 main_v27 (broadcastInDim S580000x1 ![0] bcast_S580000_S580000x1_0 : (⟨S580000, .i32⟩ : BufTy).Contents (Elt F) → (⟨S580000x1, .i32⟩ : BufTy).Contents (Elt F)),
    StableHlo.binary main_v21 main_v27 main_v28 ((fun x i => Host.gather gather_S80000_S580000x1_S580000_n_0_n_n_0_1_1 x i) : (⟨S80000, .f32⟩ : BufTy).Contents (Elt F) → (⟨S580000x1, .i32⟩ : BufTy).Contents (Elt F) → (⟨S580000, .f32⟩ : BufTy).Contents (Elt F)),
    StableHlo.nullary main_c_2 (constantI S_ 32 0#32),
    StableHlo.unary main_c_2 main_v29 (broadcastInDim S580000 ![] bcast_S_S580000 : (⟨S_, .i32⟩ : BufTy).Contents (Elt F) → (⟨S580000, .i32⟩ : BufTy).Contents (Elt F)),
    StableHlo.binary main_v16 main_v29 main_v30 (cmpi .slt : (⟨S580000, .i32⟩ : BufTy).Contents (Elt F) → (⟨S580000, .i32⟩ : BufTy).Contents (Elt F) → (⟨S580000, .i1⟩ : BufTy).Contents (Elt F)),
    StableHlo.nullary main_c_3 (constantI S_ 32 80000#32),
    StableHlo.unary main_c_3 main_v31 (broadcastInDim S580000 ![] bcast_S_S580000 : (⟨S_, .i32⟩ : BufTy).Contents (Elt F) → (⟨S580000, .i32⟩ : BufTy).Contents (Elt F)),
    StableHlo.binary main_v16 main_v31 main_v32 (addi : (⟨S580000, .i32⟩ : BufTy).Contents (Elt F) → (⟨S580000, .i32⟩ : BufTy).Contents (Elt F) → (⟨S580000, .i32⟩ : BufTy).Contents (Elt F)),
    StableHlo.ternary main_v30 main_v32 main_v16 main_v33 (select : (⟨S580000, .i1⟩ : BufTy).Contents (Elt F) → (⟨S580000, .i32⟩ : BufTy).Contents (Elt F) → (⟨S580000, .i32⟩ : BufTy).Contents (Elt F) → (⟨S580000, .i32⟩ : BufTy).Contents (Elt F)),
    StableHlo.unary main_v33 main_v34 (broadcastInDim S580000x1 ![0] bcast_S580000_S580000x1_0 : (⟨S580000, .i32⟩ : BufTy).Contents (Elt F) → (⟨S580000x1, .i32⟩ : BufTy).Contents (Elt F)),
    StableHlo.binary main_v21 main_v34 main_v35 ((fun x i => Host.gather gather_S80000_S580000x1_S580000_n_0_n_n_0_1_1 x i) : (⟨S80000, .f32⟩ : BufTy).Contents (Elt F) → (⟨S580000x1, .i32⟩ : BufTy).Contents (Elt F) → (⟨S580000, .f32⟩ : BufTy).Contents (Elt F)),
    StableHlo.binary main_v28 main_v35 main_v36 (mulf : (⟨S580000, .f32⟩ : BufTy).Contents (Elt F) → (⟨S580000, .f32⟩ : BufTy).Contents (Elt F) → (⟨S580000, .f32⟩ : BufTy).Contents (Elt F)),
    StableHlo.nullary main_c_4 (constantI S_ 32 0#32),
    StableHlo.unary main_c_4 main_v37 (broadcastInDim S580000 ![] bcast_S_S580000 : (⟨S_, .i32⟩ : BufTy).Contents (Elt F) → (⟨S580000, .i32⟩ : BufTy).Contents (Elt F)),
    StableHlo.binary main_v15 main_v37 main_v38 (cmpi .slt : (⟨S580000, .i32⟩ : BufTy).Contents (Elt F) → (⟨S580000, .i32⟩ : BufTy).Contents (Elt F) → (⟨S580000, .i1⟩ : BufTy).Contents (Elt F)),
    StableHlo.nullary main_c_5 (constantI S_ 32 80000#32),
    StableHlo.unary main_c_5 main_v39 (broadcastInDim S580000 ![] bcast_S_S580000 : (⟨S_, .i32⟩ : BufTy).Contents (Elt F) → (⟨S580000, .i32⟩ : BufTy).Contents (Elt F)),
    StableHlo.binary main_v15 main_v39 main_v40 (addi : (⟨S580000, .i32⟩ : BufTy).Contents (Elt F) → (⟨S580000, .i32⟩ : BufTy).Contents (Elt F) → (⟨S580000, .i32⟩ : BufTy).Contents (Elt F)),
    StableHlo.ternary main_v38 main_v40 main_v15 main_v41 (select : (⟨S580000, .i1⟩ : BufTy).Contents (Elt F) → (⟨S580000, .i32⟩ : BufTy).Contents (Elt F) → (⟨S580000, .i32⟩ : BufTy).Contents (Elt F) → (⟨S580000, .i32⟩ : BufTy).Contents (Elt F)),
    StableHlo.unary main_v41 main_v42 (broadcastInDim S580000x1 ![0] bcast_S580000_S580000x1_0 : (⟨S580000, .i32⟩ : BufTy).Contents (Elt F) → (⟨S580000x1, .i32⟩ : BufTy).Contents (Elt F)),
    StableHlo.binary main_v13 main_v42 main_v43 ((fun x i => Host.gather gather_S80000x256_S580000x1_S580000x256_1_0_n_n_0_1_1256 x i) : (⟨S80000x256, .f32⟩ : BufTy).Contents (Elt F) → (⟨S580000x1, .i32⟩ : BufTy).Contents (Elt F) → (⟨S580000x256, .f32⟩ : BufTy).Contents (Elt F)),
    StableHlo.unary main_v36 main_v44 (broadcastInDim S580000x1 ![0] bcast_S580000_S580000x1_0 : (⟨S580000, .f32⟩ : BufTy).Contents (Elt F) → (⟨S580000x1, .f32⟩ : BufTy).Contents (Elt F)),
    StableHlo.unary main_v44 main_v45 (broadcastInDim S580000x256 ![0, 1] bcast_S580000x1_S580000x256_0_1 : (⟨S580000x1, .f32⟩ : BufTy).Contents (Elt F) → (⟨S580000x256, .f32⟩ : BufTy).Contents (Elt F)),
    StableHlo.binary main_v43 main_v45 main_v46 (mulf : (⟨S580000x256, .f32⟩ : BufTy).Contents (Elt F) → (⟨S580000x256, .f32⟩ : BufTy).Contents (Elt F) → (⟨S580000x256, .f32⟩ : BufTy).Contents (Elt F)),
    StableHlo.nullary main_cst_6 (constant S_ .f32 0x00000000#32),
    StableHlo.unary main_cst_6 main_v47 (broadcastInDim S80000x256 ![] bcast_S_S80000x256 : (⟨S_, .f32⟩ : BufTy).Contents (Elt F) → (⟨S80000x256, .f32⟩ : BufTy).Contents (Elt F)),
    StableHlo.unary main_v16 main_v48 (broadcastInDim S580000x1 ![0] bcast_S580000_S580000x1_0 : (⟨S580000, .i32⟩ : BufTy).Contents (Elt F) → (⟨S580000x1, .i32⟩ : BufTy).Contents (Elt F)),
    StableHlo.ternary main_v47 main_v48 main_v46 main_v49 ((fun x i u => Host.scatterAdd scatter_S80000x256_S580000x1_S580000x256_1_0_0_1 x i u) : (⟨S80000x256, .f32⟩ : BufTy).Contents (Elt F) → (⟨S580000x1, .i32⟩ : BufTy).Contents (Elt F) → (⟨S580000x256, .f32⟩ : BufTy).Contents (Elt F) → (⟨S80000x256, .f32⟩ : BufTy).Contents (Elt F)),
    StableHlo.unary main_arg8 main_v50 (broadcastInDim S1x256 ![1] bcast_S256_S1x256_1 : (⟨S256, .f32⟩ : BufTy).Contents (Elt F) → (⟨S1x256, .f32⟩ : BufTy).Contents (Elt F)),
    StableHlo.unary main_v50 main_v51 (broadcastInDim S80000x256 ![0, 1] bcast_S1x256_S80000x256_0_1 : (⟨S1x256, .f32⟩ : BufTy).Contents (Elt F) → (⟨S80000x256, .f32⟩ : BufTy).Contents (Elt F)),
    StableHlo.binary main_v49 main_v51 main_v52 (addf : (⟨S80000x256, .f32⟩ : BufTy).Contents (Elt F) → (⟨S80000x256, .f32⟩ : BufTy).Contents (Elt F) → (⟨S80000x256, .f32⟩ : BufTy).Contents (Elt F)),
    StableHlo.nullary main_cst_7 (constant S_ .f32 0x00000000#32),
    StableHlo.binary main_v52 main_cst_7 main_v53 ((fun x v => Host.reduceAdd x v reducesTo_S80000x256_S256_d0 h_S_) : (⟨S80000x256, .f32⟩ : BufTy).Contents (Elt F) → (⟨S_, .f32⟩ : BufTy).Contents (Elt F) → (⟨S256, .f32⟩ : BufTy).Contents (Elt F)),
    StableHlo.nullary main_cst_8 (constant S_ .f32 0x479C4000#32),
    StableHlo.unary main_cst_8 main_v54 (broadcastInDim S256 ![] bcast_S_S256 : (⟨S_, .f32⟩ : BufTy).Contents (Elt F) → (⟨S256, .f32⟩ : BufTy).Contents (Elt F)),
    StableHlo.binary main_v53 main_v54 main_v55 (Host.divf : (⟨S256, .f32⟩ : BufTy).Contents (Elt F) → (⟨S256, .f32⟩ : BufTy).Contents (Elt F) → (⟨S256, .f32⟩ : BufTy).Contents (Elt F)),
    StableHlo.nullary main_c_9 (constantI S_ 32 0#32) ]

/-- The column variances: the outlined variance with its inner select written at the call site, over the call's buffers. -/
abbrev rVar : List (HloOp τ sig (Elt F)) :=
  [ StableHlo.TRef.nullary main_call0.cst (constant S_ .f32 0x00000000#32),
    StableHlo.TRef.binary (.of main_v52) main_call0.cst main_call0.v0 (fun x v => Host.reduceAdd x v reducesTo_S80000x256_S256_d0 h_S_),
    StableHlo.TRef.unary main_call0.v0 main_call0.v1 (broadcastInDim S1x256 ![1] bcast_S256_S1x256_1),
    StableHlo.TRef.nullary main_call0.cst_0 (constant S_ .f32 0x479C4000#32),
    StableHlo.TRef.unary main_call0.cst_0 main_call0.v2 (broadcastInDim S1x256 ![] bcast_S_S1x256),
    StableHlo.TRef.binary main_call0.v1 main_call0.v2 main_call0.v3 Host.divf,
    StableHlo.TRef.unary main_call0.v3 main_call0.v4 (broadcastInDim S80000x256 ![0, 1] bcast_S1x256_S80000x256_0_1),
    StableHlo.TRef.binary (.of main_v52) main_call0.v4 main_call0.v5 subf,
    StableHlo.TRef.binary main_call0.v5 main_call0.v5 main_call0.v6 mulf,
    StableHlo.TRef.unary (.of main_c_9) main_call0.v7 (sitofp .f32),
    StableHlo.TRef.nullary main_call0.cst_1 (constant S_ .f32 0x479C4000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S80000x256_S256_d0 h_S_),
    StableHlo.TRef.unary main_call0.v8 main_call0.v10 (broadcastInDim S256 ![] bcast_S_S256),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S256 ![] bcast_S_S256),
    StableHlo.TRef.ternary main_call0.v12 main_call0.v11 main_call0.call0.v1 main_call0.call0.v2 (fun p a b => select (broadcastInDim S256 ![] bcast_S_S256 p) a b) ]

/-- The normalisation, scale and shift, column by column, and the positive part (the outlined maximum with a broadcast zero, at its call site). -/
abbrev rBN : List (HloOp τ sig (Elt F)) :=
  [ StableHlo.unary main_v55 main_v57 (broadcastInDim S1x256 ![1] bcast_S256_S1x256_1 : (⟨S256, .f32⟩ : BufTy).Contents (Elt F) → (⟨S1x256, .f32⟩ : BufTy).Contents (Elt F)),
    StableHlo.unary main_v57 main_v58 (broadcastInDim S80000x256 ![0, 1] bcast_S1x256_S80000x256_0_1 : (⟨S1x256, .f32⟩ : BufTy).Contents (Elt F) → (⟨S80000x256, .f32⟩ : BufTy).Contents (Elt F)),
    StableHlo.binary main_v52 main_v58 main_v59 (subf : (⟨S80000x256, .f32⟩ : BufTy).Contents (Elt F) → (⟨S80000x256, .f32⟩ : BufTy).Contents (Elt F) → (⟨S80000x256, .f32⟩ : BufTy).Contents (Elt F)),
    StableHlo.nullary main_cst_10 (constant S_ .f32 0x3727C5AC#32),
    StableHlo.unary main_cst_10 main_v60 (broadcastInDim S256 ![] bcast_S_S256 : (⟨S_, .f32⟩ : BufTy).Contents (Elt F) → (⟨S256, .f32⟩ : BufTy).Contents (Elt F)),
    StableHlo.binary main_v56 main_v60 main_v61 (addf : (⟨S256, .f32⟩ : BufTy).Contents (Elt F) → (⟨S256, .f32⟩ : BufTy).Contents (Elt F) → (⟨S256, .f32⟩ : BufTy).Contents (Elt F)),
    StableHlo.unary main_v61 main_v62 (Host.rsqrt : (⟨S256, .f32⟩ : BufTy).Contents (Elt F) → (⟨S256, .f32⟩ : BufTy).Contents (Elt F)),
    StableHlo.unary main_v62 main_v63 (broadcastInDim S1x256 ![1] bcast_S256_S1x256_1 : (⟨S256, .f32⟩ : BufTy).Contents (Elt F) → (⟨S1x256, .f32⟩ : BufTy).Contents (Elt F)),
    StableHlo.unary main_v63 main_v64 (broadcastInDim S80000x256 ![0, 1] bcast_S1x256_S80000x256_0_1 : (⟨S1x256, .f32⟩ : BufTy).Contents (Elt F) → (⟨S80000x256, .f32⟩ : BufTy).Contents (Elt F)),
    StableHlo.binary main_v59 main_v64 main_v65 (mulf : (⟨S80000x256, .f32⟩ : BufTy).Contents (Elt F) → (⟨S80000x256, .f32⟩ : BufTy).Contents (Elt F) → (⟨S80000x256, .f32⟩ : BufTy).Contents (Elt F)),
    StableHlo.unary main_arg11 main_v66 (broadcastInDim S1x256 ![1] bcast_S256_S1x256_1 : (⟨S256, .f32⟩ : BufTy).Contents (Elt F) → (⟨S1x256, .f32⟩ : BufTy).Contents (Elt F)),
    StableHlo.unary main_v66 main_v67 (broadcastInDim S80000x256 ![0, 1] bcast_S1x256_S80000x256_0_1 : (⟨S1x256, .f32⟩ : BufTy).Contents (Elt F) → (⟨S80000x256, .f32⟩ : BufTy).Contents (Elt F)),
    StableHlo.binary main_v65 main_v67 main_v68 (mulf : (⟨S80000x256, .f32⟩ : BufTy).Contents (Elt F) → (⟨S80000x256, .f32⟩ : BufTy).Contents (Elt F) → (⟨S80000x256, .f32⟩ : BufTy).Contents (Elt F)),
    StableHlo.unary main_arg12 main_v69 (broadcastInDim S1x256 ![1] bcast_S256_S1x256_1 : (⟨S256, .f32⟩ : BufTy).Contents (Elt F) → (⟨S1x256, .f32⟩ : BufTy).Contents (Elt F)),
    StableHlo.unary main_v69 main_v70 (broadcastInDim S80000x256 ![0, 1] bcast_S1x256_S80000x256_0_1 : (⟨S1x256, .f32⟩ : BufTy).Contents (Elt F) → (⟨S80000x256, .f32⟩ : BufTy).Contents (Elt F)),
    StableHlo.binary main_v68 main_v70 main_v71 (addf : (⟨S80000x256, .f32⟩ : BufTy).Contents (Elt F) → (⟨S80000x256, .f32⟩ : BufTy).Contents (Elt F) → (⟨S80000x256, .f32⟩ : BufTy).Contents (Elt F)),
    StableHlo.TRef.nullary main_call1.cst (constant S_ .f32 0x00000000#32),
    StableHlo.TRef.unary main_call1.cst main_call1.v0 (broadcastInDim S80000x256 ![] bcast_S_S80000x256),
    StableHlo.TRef.binary (.of main_v71) main_call1.v0 main_call1.v1 maximumf ]

/-- The second convolution's product with its weight. -/
abbrev rMM2 : List (HloOp τ sig (Elt F)) :=
  [ StableHlo.binary main_v72 main_arg9 main_v73 ((fun l r => Host.dotGeneral dot_S80000x256_S256x128_S80000x128_1_0_0_1_n_n none l r) : (⟨S80000x256, .f32⟩ : BufTy).Contents (Elt F) → (⟨S256x128, .f32⟩ : BufTy).Contents (Elt F) → (⟨S80000x128, .f32⟩ : BufTy).Contents (Elt F)) ]

/-- The second convolution's message passing, as the first's, on 128 columns. -/
abbrev rT2 : List (HloOp τ sig (Elt F)) :=
  [ StableHlo.nullary main_v74 (iotaInDim S80000 32 0),
    StableHlo.binary main_v1 main_v74 main_v75 ((fun a b => concatenate S580000 0 [⟨S500000, a⟩, ⟨S80000, b⟩] concatenates_S500000_S80000_S580000_d0) : (⟨S500000, .i32⟩ : BufTy).Contents (Elt F) → (⟨S80000, .i32⟩ : BufTy).Contents (Elt F) → (⟨S580000, .i32⟩ : BufTy).Contents (Elt F)),
    StableHlo.binary main_v3 main_v74 main_v76 ((fun a b => concatenate S580000 0 [⟨S500000, a⟩, ⟨S80000, b⟩] concatenates_S500000_S80000_S580000_d0) : (⟨S500000, .i32⟩ : BufTy).Contents (Elt F) → (⟨S80000, .i32⟩ : BufTy).Contents (Elt F) → (⟨S580000, .i32⟩ : BufTy).Contents (Elt F)),
    StableHlo.nullary main_cst_11 (constant S_ .f32 0x3F800000#32),
    StableHlo.unary main_cst_11 main_v77 (broadcastInDim S580000 ![] bcast_S_S580000 : (⟨S_, .f32⟩ : BufTy).Contents (Elt F) → (⟨S580000, .f32⟩ : BufTy).Contents (Elt F)),
    StableHlo.nullary main_cst_12 (constant S_ .f32 0x00000000#32),
    StableHlo.unary main_cst_12 main_v78 (broadcastInDim S80000 ![] bcast_S_S80000 : (⟨S_, .f32⟩ : BufTy).Contents (Elt F) → (⟨S80000, .f32⟩ : BufTy).Contents (Elt F)),
    StableHlo.unary main_v76 main_v79 (broadcastInDim S580000x1 ![0] bcast_S580000_S580000x1_0 : (⟨S580000, .i32⟩ : BufTy).Contents (Elt F) → (⟨S580000x1, .i32⟩ : BufTy).Contents (Elt F)),
    StableHlo.ternary main_v78 main_v79 main_v77 main_v80 ((fun x i u => Host.scatterAdd scatter_S80000_S580000x1_S580000_n_0_0_1 x i u) : (⟨S80000, .f32⟩ : BufTy).Contents (Elt F) → (⟨S580000x1, .i32⟩ : BufTy).Contents (Elt F) → (⟨S580000, .f32⟩ : BufTy).Contents (Elt F) → (⟨S80000, .f32⟩ : BufTy).Contents (Elt F)),
    StableHlo.unary main_v80 main_v81 (Host.rsqrt : (⟨S80000, .f32⟩ : BufTy).Contents (Elt F) → (⟨S80000, .f32⟩ : BufTy).Contents (Elt F)),
    StableHlo.nullary main_c_13 (constantI S_ 32 0#32),
    StableHlo.unary main_c_13 main_v82 (broadcastInDim S580000 ![] bcast_S_S580000 : (⟨S_, .i32⟩ : BufTy).Contents (Elt F) → (⟨S580000, .i32⟩ : BufTy).Contents (Elt F)),
    StableHlo.binary main_v75 main_v82 main_v83 (cmpi .slt : (⟨S580000, .i32⟩ : BufTy).Contents (Elt F) → (⟨S580000, .i32⟩ : BufTy).Contents (Elt F) → (⟨S580000, .i1⟩ : BufTy).Contents (Elt F)),
    StableHlo.nullary main_c_14 (constantI S_ 32 80000#32),
    StableHlo.unary main_c_14 main_v84 (broadcastInDim S580000 ![] bcast_S_S580000 : (⟨S_, .i32⟩ : BufTy).Contents (Elt F) → (⟨S580000, .i32⟩ : BufTy).Contents (Elt F)),
    StableHlo.binary main_v75 main_v84 main_v85 (addi : (⟨S580000, .i32⟩ : BufTy).Contents (Elt F) → (⟨S580000, .i32⟩ : BufTy).Contents (Elt F) → (⟨S580000, .i32⟩ : BufTy).Contents (Elt F)),
    StableHlo.ternary main_v83 main_v85 main_v75 main_v86 (select : (⟨S580000, .i1⟩ : BufTy).Contents (Elt F) → (⟨S580000, .i32⟩ : BufTy).Contents (Elt F) → (⟨S580000, .i32⟩ : BufTy).Contents (Elt F) → (⟨S580000, .i32⟩ : BufTy).Contents (Elt F)),
    StableHlo.unary main_v86 main_v87 (broadcastInDim S580000x1 ![0] bcast_S580000_S580000x1_0 : (⟨S580000, .i32⟩ : BufTy).Contents (Elt F) → (⟨S580000x1, .i32⟩ : BufTy).Contents (Elt F)),
    StableHlo.binary main_v81 main_v87 main_v88 ((fun x i => Host.gather gather_S80000_S580000x1_S580000_n_0_n_n_0_1_1 x i) : (⟨S80000, .f32⟩ : BufTy).Contents (Elt F) → (⟨S580000x1, .i32⟩ : BufTy).Contents (Elt F) → (⟨S580000, .f32⟩ : BufTy).Contents (Elt F)),
    StableHlo.nullary main_c_15 (constantI S_ 32 0#32),
    StableHlo.unary main_c_15 main_v89 (broadcastInDim S580000 ![] bcast_S_S580000 : (⟨S_, .i32⟩ : BufTy).Contents (Elt F) → (⟨S580000, .i32⟩ : BufTy).Contents (Elt F)),
    StableHlo.binary main_v76 main_v89 main_v90 (cmpi .slt : (⟨S580000, .i32⟩ : BufTy).Contents (Elt F) → (⟨S580000, .i32⟩ : BufTy).Contents (Elt F) → (⟨S580000, .i1⟩ : BufTy).Contents (Elt F)),
    StableHlo.nullary main_c_16 (constantI S_ 32 80000#32),
    StableHlo.unary main_c_16 main_v91 (broadcastInDim S580000 ![] bcast_S_S580000 : (⟨S_, .i32⟩ : BufTy).Contents (Elt F) → (⟨S580000, .i32⟩ : BufTy).Contents (Elt F)),
    StableHlo.binary main_v76 main_v91 main_v92 (addi : (⟨S580000, .i32⟩ : BufTy).Contents (Elt F) → (⟨S580000, .i32⟩ : BufTy).Contents (Elt F) → (⟨S580000, .i32⟩ : BufTy).Contents (Elt F)),
    StableHlo.ternary main_v90 main_v92 main_v76 main_v93 (select : (⟨S580000, .i1⟩ : BufTy).Contents (Elt F) → (⟨S580000, .i32⟩ : BufTy).Contents (Elt F) → (⟨S580000, .i32⟩ : BufTy).Contents (Elt F) → (⟨S580000, .i32⟩ : BufTy).Contents (Elt F)),
    StableHlo.unary main_v93 main_v94 (broadcastInDim S580000x1 ![0] bcast_S580000_S580000x1_0 : (⟨S580000, .i32⟩ : BufTy).Contents (Elt F) → (⟨S580000x1, .i32⟩ : BufTy).Contents (Elt F)),
    StableHlo.binary main_v81 main_v94 main_v95 ((fun x i => Host.gather gather_S80000_S580000x1_S580000_n_0_n_n_0_1_1 x i) : (⟨S80000, .f32⟩ : BufTy).Contents (Elt F) → (⟨S580000x1, .i32⟩ : BufTy).Contents (Elt F) → (⟨S580000, .f32⟩ : BufTy).Contents (Elt F)),
    StableHlo.binary main_v88 main_v95 main_v96 (mulf : (⟨S580000, .f32⟩ : BufTy).Contents (Elt F) → (⟨S580000, .f32⟩ : BufTy).Contents (Elt F) → (⟨S580000, .f32⟩ : BufTy).Contents (Elt F)),
    StableHlo.nullary main_c_17 (constantI S_ 32 0#32),
    StableHlo.unary main_c_17 main_v97 (broadcastInDim S580000 ![] bcast_S_S580000 : (⟨S_, .i32⟩ : BufTy).Contents (Elt F) → (⟨S580000, .i32⟩ : BufTy).Contents (Elt F)),
    StableHlo.binary main_v75 main_v97 main_v98 (cmpi .slt : (⟨S580000, .i32⟩ : BufTy).Contents (Elt F) → (⟨S580000, .i32⟩ : BufTy).Contents (Elt F) → (⟨S580000, .i1⟩ : BufTy).Contents (Elt F)),
    StableHlo.nullary main_c_18 (constantI S_ 32 80000#32),
    StableHlo.unary main_c_18 main_v99 (broadcastInDim S580000 ![] bcast_S_S580000 : (⟨S_, .i32⟩ : BufTy).Contents (Elt F) → (⟨S580000, .i32⟩ : BufTy).Contents (Elt F)),
    StableHlo.binary main_v75 main_v99 main_v100 (addi : (⟨S580000, .i32⟩ : BufTy).Contents (Elt F) → (⟨S580000, .i32⟩ : BufTy).Contents (Elt F) → (⟨S580000, .i32⟩ : BufTy).Contents (Elt F)),
    StableHlo.ternary main_v98 main_v100 main_v75 main_v101 (select : (⟨S580000, .i1⟩ : BufTy).Contents (Elt F) → (⟨S580000, .i32⟩ : BufTy).Contents (Elt F) → (⟨S580000, .i32⟩ : BufTy).Contents (Elt F) → (⟨S580000, .i32⟩ : BufTy).Contents (Elt F)),
    StableHlo.unary main_v101 main_v102 (broadcastInDim S580000x1 ![0] bcast_S580000_S580000x1_0 : (⟨S580000, .i32⟩ : BufTy).Contents (Elt F) → (⟨S580000x1, .i32⟩ : BufTy).Contents (Elt F)),
    StableHlo.binary main_v73 main_v102 main_v103 ((fun x i => Host.gather gather_S80000x128_S580000x1_S580000x128_1_0_n_n_0_1_1128 x i) : (⟨S80000x128, .f32⟩ : BufTy).Contents (Elt F) → (⟨S580000x1, .i32⟩ : BufTy).Contents (Elt F) → (⟨S580000x128, .f32⟩ : BufTy).Contents (Elt F)),
    StableHlo.unary main_v96 main_v104 (broadcastInDim S580000x1 ![0] bcast_S580000_S580000x1_0 : (⟨S580000, .f32⟩ : BufTy).Contents (Elt F) → (⟨S580000x1, .f32⟩ : BufTy).Contents (Elt F)),
    StableHlo.unary main_v104 main_v105 (broadcastInDim S580000x128 ![0, 1] bcast_S580000x1_S580000x128_0_1 : (⟨S580000x1, .f32⟩ : BufTy).Contents (Elt F) → (⟨S580000x128, .f32⟩ : BufTy).Contents (Elt F)),
    StableHlo.binary main_v103 main_v105 main_v106 (mulf : (⟨S580000x128, .f32⟩ : BufTy).Contents (Elt F) → (⟨S580000x128, .f32⟩ : BufTy).Contents (Elt F) → (⟨S580000x128, .f32⟩ : BufTy).Contents (Elt F)),
    StableHlo.nullary main_cst_19 (constant S_ .f32 0x00000000#32),
    StableHlo.unary main_cst_19 main_v107 (broadcastInDim S80000x128 ![] bcast_S_S80000x128 : (⟨S_, .f32⟩ : BufTy).Contents (Elt F) → (⟨S80000x128, .f32⟩ : BufTy).Contents (Elt F)),
    StableHlo.unary main_v76 main_v108 (broadcastInDim S580000x1 ![0] bcast_S580000_S580000x1_0 : (⟨S580000, .i32⟩ : BufTy).Contents (Elt F) → (⟨S580000x1, .i32⟩ : BufTy).Contents (Elt F)),
    StableHlo.ternary main_v107 main_v108 main_v106 main_v109 ((fun x i u => Host.scatterAdd scatter_S80000x128_S580000x1_S580000x128_1_0_0_1 x i u) : (⟨S80000x128, .f32⟩ : BufTy).Contents (Elt F) → (⟨S580000x1, .i32⟩ : BufTy).Contents (Elt F) → (⟨S580000x128, .f32⟩ : BufTy).Contents (Elt F) → (⟨S80000x128, .f32⟩ : BufTy).Contents (Elt F)),
    StableHlo.unary main_arg10 main_v110 (broadcastInDim S1x128 ![1] bcast_S128_S1x128_1 : (⟨S128, .f32⟩ : BufTy).Contents (Elt F) → (⟨S1x128, .f32⟩ : BufTy).Contents (Elt F)),
    StableHlo.unary main_v110 main_v111 (broadcastInDim S80000x128 ![0, 1] bcast_S1x128_S80000x128_0_1 : (⟨S1x128, .f32⟩ : BufTy).Contents (Elt F) → (⟨S80000x128, .f32⟩ : BufTy).Contents (Elt F)),
    StableHlo.binary main_v109 main_v111 main_v112 (addf : (⟨S80000x128, .f32⟩ : BufTy).Contents (Elt F) → (⟨S80000x128, .f32⟩ : BufTy).Contents (Elt F) → (⟨S80000x128, .f32⟩ : BufTy).Contents (Elt F)) ]

/-- @main's 158 operations, in order. -/
abbrev ops : List (HloOp τ sig (Elt F)) :=
  [ StableHlo.unary main_arg2 main_v0 ((extractStridedSlice S1x500000 ![0, 0] · slices_S2x500000_S1x500000_0_0) : (⟨S2x500000, .i32⟩ : BufTy).Contents (Elt F) → (⟨S1x500000, .i32⟩ : BufTy).Contents (Elt F)),
    StableHlo.reshape main_v0 main_v1 rfl shapeCasts_S1x500000_S500000,
    StableHlo.unary main_arg2 main_v2 ((extractStridedSlice S1x500000 ![1, 0] · slices_S2x500000_S1x500000_1_0) : (⟨S2x500000, .i32⟩ : BufTy).Contents (Elt F) → (⟨S1x500000, .i32⟩ : BufTy).Contents (Elt F)),
    StableHlo.reshape main_v2 main_v3 rfl shapeCasts_S1x500000_S500000,
    StableHlo.binary main_arg0 main_arg3 main_v4 ((fun l r => Host.dotGeneral dot_S60000x64_S64x256_S60000x256_1_0_0_1_n_n none l r) : (⟨S60000x64, .f32⟩ : BufTy).Contents (Elt F) → (⟨S64x256, .f32⟩ : BufTy).Contents (Elt F) → (⟨S60000x256, .f32⟩ : BufTy).Contents (Elt F)),
    StableHlo.unary main_arg4 main_v5 (broadcastInDim S1x256 ![1] bcast_S256_S1x256_1 : (⟨S256, .f32⟩ : BufTy).Contents (Elt F) → (⟨S1x256, .f32⟩ : BufTy).Contents (Elt F)),
    StableHlo.unary main_v5 main_v6 (broadcastInDim S60000x256 ![0, 1] bcast_S1x256_S60000x256_0_1 : (⟨S1x256, .f32⟩ : BufTy).Contents (Elt F) → (⟨S60000x256, .f32⟩ : BufTy).Contents (Elt F)),
    StableHlo.binary main_v4 main_v6 main_v7 (addf : (⟨S60000x256, .f32⟩ : BufTy).Contents (Elt F) → (⟨S60000x256, .f32⟩ : BufTy).Contents (Elt F) → (⟨S60000x256, .f32⟩ : BufTy).Contents (Elt F)),
    StableHlo.binary main_arg1 main_arg5 main_v8 ((fun l r => Host.dotGeneral dot_S20000x128_S128x256_S20000x256_1_0_0_1_n_n none l r) : (⟨S20000x128, .f32⟩ : BufTy).Contents (Elt F) → (⟨S128x256, .f32⟩ : BufTy).Contents (Elt F) → (⟨S20000x256, .f32⟩ : BufTy).Contents (Elt F)),
    StableHlo.unary main_arg6 main_v9 (broadcastInDim S1x256 ![1] bcast_S256_S1x256_1 : (⟨S256, .f32⟩ : BufTy).Contents (Elt F) → (⟨S1x256, .f32⟩ : BufTy).Contents (Elt F)),
    StableHlo.unary main_v9 main_v10 (broadcastInDim S20000x256 ![0, 1] bcast_S1x256_S20000x256_0_1 : (⟨S1x256, .f32⟩ : BufTy).Contents (Elt F) → (⟨S20000x256, .f32⟩ : BufTy).Contents (Elt F)),
    StableHlo.binary main_v8 main_v10 main_v11 (addf : (⟨S20000x256, .f32⟩ : BufTy).Contents (Elt F) → (⟨S20000x256, .f32⟩ : BufTy).Contents (Elt F) → (⟨S20000x256, .f32⟩ : BufTy).Contents (Elt F)),
    StableHlo.binary main_v7 main_v11 main_v12 ((fun a b => concatenate S80000x256 0 [⟨S60000x256, a⟩, ⟨S20000x256, b⟩] concatenates_S60000x256_S20000x256_S80000x256_d0) : (⟨S60000x256, .f32⟩ : BufTy).Contents (Elt F) → (⟨S20000x256, .f32⟩ : BufTy).Contents (Elt F) → (⟨S80000x256, .f32⟩ : BufTy).Contents (Elt F)),
    StableHlo.binary main_v12 main_arg7 main_v13 ((fun l r => Host.dotGeneral dot_S80000x256_S256x256_S80000x256_1_0_0_1_n_n none l r) : (⟨S80000x256, .f32⟩ : BufTy).Contents (Elt F) → (⟨S256x256, .f32⟩ : BufTy).Contents (Elt F) → (⟨S80000x256, .f32⟩ : BufTy).Contents (Elt F)),
    StableHlo.nullary main_v14 (iotaInDim S80000 32 0),
    StableHlo.binary main_v1 main_v14 main_v15 ((fun a b => concatenate S580000 0 [⟨S500000, a⟩, ⟨S80000, b⟩] concatenates_S500000_S80000_S580000_d0) : (⟨S500000, .i32⟩ : BufTy).Contents (Elt F) → (⟨S80000, .i32⟩ : BufTy).Contents (Elt F) → (⟨S580000, .i32⟩ : BufTy).Contents (Elt F)),
    StableHlo.binary main_v3 main_v14 main_v16 ((fun a b => concatenate S580000 0 [⟨S500000, a⟩, ⟨S80000, b⟩] concatenates_S500000_S80000_S580000_d0) : (⟨S500000, .i32⟩ : BufTy).Contents (Elt F) → (⟨S80000, .i32⟩ : BufTy).Contents (Elt F) → (⟨S580000, .i32⟩ : BufTy).Contents (Elt F)),
    StableHlo.nullary main_cst (constant S_ .f32 0x3F800000#32),
    StableHlo.unary main_cst main_v17 (broadcastInDim S580000 ![] bcast_S_S580000 : (⟨S_, .f32⟩ : BufTy).Contents (Elt F) → (⟨S580000, .f32⟩ : BufTy).Contents (Elt F)),
    StableHlo.nullary main_cst_0 (constant S_ .f32 0x00000000#32),
    StableHlo.unary main_cst_0 main_v18 (broadcastInDim S80000 ![] bcast_S_S80000 : (⟨S_, .f32⟩ : BufTy).Contents (Elt F) → (⟨S80000, .f32⟩ : BufTy).Contents (Elt F)),
    StableHlo.unary main_v16 main_v19 (broadcastInDim S580000x1 ![0] bcast_S580000_S580000x1_0 : (⟨S580000, .i32⟩ : BufTy).Contents (Elt F) → (⟨S580000x1, .i32⟩ : BufTy).Contents (Elt F)),
    StableHlo.ternary main_v18 main_v19 main_v17 main_v20 ((fun x i u => Host.scatterAdd scatter_S80000_S580000x1_S580000_n_0_0_1 x i u) : (⟨S80000, .f32⟩ : BufTy).Contents (Elt F) → (⟨S580000x1, .i32⟩ : BufTy).Contents (Elt F) → (⟨S580000, .f32⟩ : BufTy).Contents (Elt F) → (⟨S80000, .f32⟩ : BufTy).Contents (Elt F)),
    StableHlo.unary main_v20 main_v21 (Host.rsqrt : (⟨S80000, .f32⟩ : BufTy).Contents (Elt F) → (⟨S80000, .f32⟩ : BufTy).Contents (Elt F)),
    StableHlo.nullary main_c (constantI S_ 32 0#32),
    StableHlo.unary main_c main_v22 (broadcastInDim S580000 ![] bcast_S_S580000 : (⟨S_, .i32⟩ : BufTy).Contents (Elt F) → (⟨S580000, .i32⟩ : BufTy).Contents (Elt F)),
    StableHlo.binary main_v15 main_v22 main_v23 (cmpi .slt : (⟨S580000, .i32⟩ : BufTy).Contents (Elt F) → (⟨S580000, .i32⟩ : BufTy).Contents (Elt F) → (⟨S580000, .i1⟩ : BufTy).Contents (Elt F)),
    StableHlo.nullary main_c_1 (constantI S_ 32 80000#32),
    StableHlo.unary main_c_1 main_v24 (broadcastInDim S580000 ![] bcast_S_S580000 : (⟨S_, .i32⟩ : BufTy).Contents (Elt F) → (⟨S580000, .i32⟩ : BufTy).Contents (Elt F)),
    StableHlo.binary main_v15 main_v24 main_v25 (addi : (⟨S580000, .i32⟩ : BufTy).Contents (Elt F) → (⟨S580000, .i32⟩ : BufTy).Contents (Elt F) → (⟨S580000, .i32⟩ : BufTy).Contents (Elt F)),
    StableHlo.ternary main_v23 main_v25 main_v15 main_v26 (select : (⟨S580000, .i1⟩ : BufTy).Contents (Elt F) → (⟨S580000, .i32⟩ : BufTy).Contents (Elt F) → (⟨S580000, .i32⟩ : BufTy).Contents (Elt F) → (⟨S580000, .i32⟩ : BufTy).Contents (Elt F)),
    StableHlo.unary main_v26 main_v27 (broadcastInDim S580000x1 ![0] bcast_S580000_S580000x1_0 : (⟨S580000, .i32⟩ : BufTy).Contents (Elt F) → (⟨S580000x1, .i32⟩ : BufTy).Contents (Elt F)),
    StableHlo.binary main_v21 main_v27 main_v28 ((fun x i => Host.gather gather_S80000_S580000x1_S580000_n_0_n_n_0_1_1 x i) : (⟨S80000, .f32⟩ : BufTy).Contents (Elt F) → (⟨S580000x1, .i32⟩ : BufTy).Contents (Elt F) → (⟨S580000, .f32⟩ : BufTy).Contents (Elt F)),
    StableHlo.nullary main_c_2 (constantI S_ 32 0#32),
    StableHlo.unary main_c_2 main_v29 (broadcastInDim S580000 ![] bcast_S_S580000 : (⟨S_, .i32⟩ : BufTy).Contents (Elt F) → (⟨S580000, .i32⟩ : BufTy).Contents (Elt F)),
    StableHlo.binary main_v16 main_v29 main_v30 (cmpi .slt : (⟨S580000, .i32⟩ : BufTy).Contents (Elt F) → (⟨S580000, .i32⟩ : BufTy).Contents (Elt F) → (⟨S580000, .i1⟩ : BufTy).Contents (Elt F)),
    StableHlo.nullary main_c_3 (constantI S_ 32 80000#32),
    StableHlo.unary main_c_3 main_v31 (broadcastInDim S580000 ![] bcast_S_S580000 : (⟨S_, .i32⟩ : BufTy).Contents (Elt F) → (⟨S580000, .i32⟩ : BufTy).Contents (Elt F)),
    StableHlo.binary main_v16 main_v31 main_v32 (addi : (⟨S580000, .i32⟩ : BufTy).Contents (Elt F) → (⟨S580000, .i32⟩ : BufTy).Contents (Elt F) → (⟨S580000, .i32⟩ : BufTy).Contents (Elt F)),
    StableHlo.ternary main_v30 main_v32 main_v16 main_v33 (select : (⟨S580000, .i1⟩ : BufTy).Contents (Elt F) → (⟨S580000, .i32⟩ : BufTy).Contents (Elt F) → (⟨S580000, .i32⟩ : BufTy).Contents (Elt F) → (⟨S580000, .i32⟩ : BufTy).Contents (Elt F)),
    StableHlo.unary main_v33 main_v34 (broadcastInDim S580000x1 ![0] bcast_S580000_S580000x1_0 : (⟨S580000, .i32⟩ : BufTy).Contents (Elt F) → (⟨S580000x1, .i32⟩ : BufTy).Contents (Elt F)),
    StableHlo.binary main_v21 main_v34 main_v35 ((fun x i => Host.gather gather_S80000_S580000x1_S580000_n_0_n_n_0_1_1 x i) : (⟨S80000, .f32⟩ : BufTy).Contents (Elt F) → (⟨S580000x1, .i32⟩ : BufTy).Contents (Elt F) → (⟨S580000, .f32⟩ : BufTy).Contents (Elt F)),
    StableHlo.binary main_v28 main_v35 main_v36 (mulf : (⟨S580000, .f32⟩ : BufTy).Contents (Elt F) → (⟨S580000, .f32⟩ : BufTy).Contents (Elt F) → (⟨S580000, .f32⟩ : BufTy).Contents (Elt F)),
    StableHlo.nullary main_c_4 (constantI S_ 32 0#32),
    StableHlo.unary main_c_4 main_v37 (broadcastInDim S580000 ![] bcast_S_S580000 : (⟨S_, .i32⟩ : BufTy).Contents (Elt F) → (⟨S580000, .i32⟩ : BufTy).Contents (Elt F)),
    StableHlo.binary main_v15 main_v37 main_v38 (cmpi .slt : (⟨S580000, .i32⟩ : BufTy).Contents (Elt F) → (⟨S580000, .i32⟩ : BufTy).Contents (Elt F) → (⟨S580000, .i1⟩ : BufTy).Contents (Elt F)),
    StableHlo.nullary main_c_5 (constantI S_ 32 80000#32),
    StableHlo.unary main_c_5 main_v39 (broadcastInDim S580000 ![] bcast_S_S580000 : (⟨S_, .i32⟩ : BufTy).Contents (Elt F) → (⟨S580000, .i32⟩ : BufTy).Contents (Elt F)),
    StableHlo.binary main_v15 main_v39 main_v40 (addi : (⟨S580000, .i32⟩ : BufTy).Contents (Elt F) → (⟨S580000, .i32⟩ : BufTy).Contents (Elt F) → (⟨S580000, .i32⟩ : BufTy).Contents (Elt F)),
    StableHlo.ternary main_v38 main_v40 main_v15 main_v41 (select : (⟨S580000, .i1⟩ : BufTy).Contents (Elt F) → (⟨S580000, .i32⟩ : BufTy).Contents (Elt F) → (⟨S580000, .i32⟩ : BufTy).Contents (Elt F) → (⟨S580000, .i32⟩ : BufTy).Contents (Elt F)),
    StableHlo.unary main_v41 main_v42 (broadcastInDim S580000x1 ![0] bcast_S580000_S580000x1_0 : (⟨S580000, .i32⟩ : BufTy).Contents (Elt F) → (⟨S580000x1, .i32⟩ : BufTy).Contents (Elt F)),
    StableHlo.binary main_v13 main_v42 main_v43 ((fun x i => Host.gather gather_S80000x256_S580000x1_S580000x256_1_0_n_n_0_1_1256 x i) : (⟨S80000x256, .f32⟩ : BufTy).Contents (Elt F) → (⟨S580000x1, .i32⟩ : BufTy).Contents (Elt F) → (⟨S580000x256, .f32⟩ : BufTy).Contents (Elt F)),
    StableHlo.unary main_v36 main_v44 (broadcastInDim S580000x1 ![0] bcast_S580000_S580000x1_0 : (⟨S580000, .f32⟩ : BufTy).Contents (Elt F) → (⟨S580000x1, .f32⟩ : BufTy).Contents (Elt F)),
    StableHlo.unary main_v44 main_v45 (broadcastInDim S580000x256 ![0, 1] bcast_S580000x1_S580000x256_0_1 : (⟨S580000x1, .f32⟩ : BufTy).Contents (Elt F) → (⟨S580000x256, .f32⟩ : BufTy).Contents (Elt F)),
    StableHlo.binary main_v43 main_v45 main_v46 (mulf : (⟨S580000x256, .f32⟩ : BufTy).Contents (Elt F) → (⟨S580000x256, .f32⟩ : BufTy).Contents (Elt F) → (⟨S580000x256, .f32⟩ : BufTy).Contents (Elt F)),
    StableHlo.nullary main_cst_6 (constant S_ .f32 0x00000000#32),
    StableHlo.unary main_cst_6 main_v47 (broadcastInDim S80000x256 ![] bcast_S_S80000x256 : (⟨S_, .f32⟩ : BufTy).Contents (Elt F) → (⟨S80000x256, .f32⟩ : BufTy).Contents (Elt F)),
    StableHlo.unary main_v16 main_v48 (broadcastInDim S580000x1 ![0] bcast_S580000_S580000x1_0 : (⟨S580000, .i32⟩ : BufTy).Contents (Elt F) → (⟨S580000x1, .i32⟩ : BufTy).Contents (Elt F)),
    StableHlo.ternary main_v47 main_v48 main_v46 main_v49 ((fun x i u => Host.scatterAdd scatter_S80000x256_S580000x1_S580000x256_1_0_0_1 x i u) : (⟨S80000x256, .f32⟩ : BufTy).Contents (Elt F) → (⟨S580000x1, .i32⟩ : BufTy).Contents (Elt F) → (⟨S580000x256, .f32⟩ : BufTy).Contents (Elt F) → (⟨S80000x256, .f32⟩ : BufTy).Contents (Elt F)),
    StableHlo.unary main_arg8 main_v50 (broadcastInDim S1x256 ![1] bcast_S256_S1x256_1 : (⟨S256, .f32⟩ : BufTy).Contents (Elt F) → (⟨S1x256, .f32⟩ : BufTy).Contents (Elt F)),
    StableHlo.unary main_v50 main_v51 (broadcastInDim S80000x256 ![0, 1] bcast_S1x256_S80000x256_0_1 : (⟨S1x256, .f32⟩ : BufTy).Contents (Elt F) → (⟨S80000x256, .f32⟩ : BufTy).Contents (Elt F)),
    StableHlo.binary main_v49 main_v51 main_v52 (addf : (⟨S80000x256, .f32⟩ : BufTy).Contents (Elt F) → (⟨S80000x256, .f32⟩ : BufTy).Contents (Elt F) → (⟨S80000x256, .f32⟩ : BufTy).Contents (Elt F)),
    StableHlo.nullary main_cst_7 (constant S_ .f32 0x00000000#32),
    StableHlo.binary main_v52 main_cst_7 main_v53 ((fun x v => Host.reduceAdd x v reducesTo_S80000x256_S256_d0 h_S_) : (⟨S80000x256, .f32⟩ : BufTy).Contents (Elt F) → (⟨S_, .f32⟩ : BufTy).Contents (Elt F) → (⟨S256, .f32⟩ : BufTy).Contents (Elt F)),
    StableHlo.nullary main_cst_8 (constant S_ .f32 0x479C4000#32),
    StableHlo.unary main_cst_8 main_v54 (broadcastInDim S256 ![] bcast_S_S256 : (⟨S_, .f32⟩ : BufTy).Contents (Elt F) → (⟨S256, .f32⟩ : BufTy).Contents (Elt F)),
    StableHlo.binary main_v53 main_v54 main_v55 (Host.divf : (⟨S256, .f32⟩ : BufTy).Contents (Elt F) → (⟨S256, .f32⟩ : BufTy).Contents (Elt F) → (⟨S256, .f32⟩ : BufTy).Contents (Elt F)),
    StableHlo.nullary main_c_9 (constantI S_ 32 0#32),
    StableHlo.TRef.nullary main_call0.cst (constant S_ .f32 0x00000000#32),
    StableHlo.TRef.binary (.of main_v52) main_call0.cst main_call0.v0 (fun x v => Host.reduceAdd x v reducesTo_S80000x256_S256_d0 h_S_),
    StableHlo.TRef.unary main_call0.v0 main_call0.v1 (broadcastInDim S1x256 ![1] bcast_S256_S1x256_1),
    StableHlo.TRef.nullary main_call0.cst_0 (constant S_ .f32 0x479C4000#32),
    StableHlo.TRef.unary main_call0.cst_0 main_call0.v2 (broadcastInDim S1x256 ![] bcast_S_S1x256),
    StableHlo.TRef.binary main_call0.v1 main_call0.v2 main_call0.v3 Host.divf,
    StableHlo.TRef.unary main_call0.v3 main_call0.v4 (broadcastInDim S80000x256 ![0, 1] bcast_S1x256_S80000x256_0_1),
    StableHlo.TRef.binary (.of main_v52) main_call0.v4 main_call0.v5 subf,
    StableHlo.TRef.binary main_call0.v5 main_call0.v5 main_call0.v6 mulf,
    StableHlo.TRef.unary (.of main_c_9) main_call0.v7 (sitofp .f32),
    StableHlo.TRef.nullary main_call0.cst_1 (constant S_ .f32 0x479C4000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S80000x256_S256_d0 h_S_),
    StableHlo.TRef.unary main_call0.v8 main_call0.v10 (broadcastInDim S256 ![] bcast_S_S256),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S256 ![] bcast_S_S256),
    StableHlo.TRef.ternary main_call0.v12 main_call0.v11 main_call0.call0.v1 main_call0.call0.v2 (fun p a b => select (broadcastInDim S256 ![] bcast_S_S256 p) a b),
    StableHlo.unary main_v55 main_v57 (broadcastInDim S1x256 ![1] bcast_S256_S1x256_1 : (⟨S256, .f32⟩ : BufTy).Contents (Elt F) → (⟨S1x256, .f32⟩ : BufTy).Contents (Elt F)),
    StableHlo.unary main_v57 main_v58 (broadcastInDim S80000x256 ![0, 1] bcast_S1x256_S80000x256_0_1 : (⟨S1x256, .f32⟩ : BufTy).Contents (Elt F) → (⟨S80000x256, .f32⟩ : BufTy).Contents (Elt F)),
    StableHlo.binary main_v52 main_v58 main_v59 (subf : (⟨S80000x256, .f32⟩ : BufTy).Contents (Elt F) → (⟨S80000x256, .f32⟩ : BufTy).Contents (Elt F) → (⟨S80000x256, .f32⟩ : BufTy).Contents (Elt F)),
    StableHlo.nullary main_cst_10 (constant S_ .f32 0x3727C5AC#32),
    StableHlo.unary main_cst_10 main_v60 (broadcastInDim S256 ![] bcast_S_S256 : (⟨S_, .f32⟩ : BufTy).Contents (Elt F) → (⟨S256, .f32⟩ : BufTy).Contents (Elt F)),
    StableHlo.binary main_v56 main_v60 main_v61 (addf : (⟨S256, .f32⟩ : BufTy).Contents (Elt F) → (⟨S256, .f32⟩ : BufTy).Contents (Elt F) → (⟨S256, .f32⟩ : BufTy).Contents (Elt F)),
    StableHlo.unary main_v61 main_v62 (Host.rsqrt : (⟨S256, .f32⟩ : BufTy).Contents (Elt F) → (⟨S256, .f32⟩ : BufTy).Contents (Elt F)),
    StableHlo.unary main_v62 main_v63 (broadcastInDim S1x256 ![1] bcast_S256_S1x256_1 : (⟨S256, .f32⟩ : BufTy).Contents (Elt F) → (⟨S1x256, .f32⟩ : BufTy).Contents (Elt F)),
    StableHlo.unary main_v63 main_v64 (broadcastInDim S80000x256 ![0, 1] bcast_S1x256_S80000x256_0_1 : (⟨S1x256, .f32⟩ : BufTy).Contents (Elt F) → (⟨S80000x256, .f32⟩ : BufTy).Contents (Elt F)),
    StableHlo.binary main_v59 main_v64 main_v65 (mulf : (⟨S80000x256, .f32⟩ : BufTy).Contents (Elt F) → (⟨S80000x256, .f32⟩ : BufTy).Contents (Elt F) → (⟨S80000x256, .f32⟩ : BufTy).Contents (Elt F)),
    StableHlo.unary main_arg11 main_v66 (broadcastInDim S1x256 ![1] bcast_S256_S1x256_1 : (⟨S256, .f32⟩ : BufTy).Contents (Elt F) → (⟨S1x256, .f32⟩ : BufTy).Contents (Elt F)),
    StableHlo.unary main_v66 main_v67 (broadcastInDim S80000x256 ![0, 1] bcast_S1x256_S80000x256_0_1 : (⟨S1x256, .f32⟩ : BufTy).Contents (Elt F) → (⟨S80000x256, .f32⟩ : BufTy).Contents (Elt F)),
    StableHlo.binary main_v65 main_v67 main_v68 (mulf : (⟨S80000x256, .f32⟩ : BufTy).Contents (Elt F) → (⟨S80000x256, .f32⟩ : BufTy).Contents (Elt F) → (⟨S80000x256, .f32⟩ : BufTy).Contents (Elt F)),
    StableHlo.unary main_arg12 main_v69 (broadcastInDim S1x256 ![1] bcast_S256_S1x256_1 : (⟨S256, .f32⟩ : BufTy).Contents (Elt F) → (⟨S1x256, .f32⟩ : BufTy).Contents (Elt F)),
    StableHlo.unary main_v69 main_v70 (broadcastInDim S80000x256 ![0, 1] bcast_S1x256_S80000x256_0_1 : (⟨S1x256, .f32⟩ : BufTy).Contents (Elt F) → (⟨S80000x256, .f32⟩ : BufTy).Contents (Elt F)),
    StableHlo.binary main_v68 main_v70 main_v71 (addf : (⟨S80000x256, .f32⟩ : BufTy).Contents (Elt F) → (⟨S80000x256, .f32⟩ : BufTy).Contents (Elt F) → (⟨S80000x256, .f32⟩ : BufTy).Contents (Elt F)),
    StableHlo.TRef.nullary main_call1.cst (constant S_ .f32 0x00000000#32),
    StableHlo.TRef.unary main_call1.cst main_call1.v0 (broadcastInDim S80000x256 ![] bcast_S_S80000x256),
    StableHlo.TRef.binary (.of main_v71) main_call1.v0 main_call1.v1 maximumf,
    StableHlo.binary main_v72 main_arg9 main_v73 ((fun l r => Host.dotGeneral dot_S80000x256_S256x128_S80000x128_1_0_0_1_n_n none l r) : (⟨S80000x256, .f32⟩ : BufTy).Contents (Elt F) → (⟨S256x128, .f32⟩ : BufTy).Contents (Elt F) → (⟨S80000x128, .f32⟩ : BufTy).Contents (Elt F)),
    StableHlo.nullary main_v74 (iotaInDim S80000 32 0),
    StableHlo.binary main_v1 main_v74 main_v75 ((fun a b => concatenate S580000 0 [⟨S500000, a⟩, ⟨S80000, b⟩] concatenates_S500000_S80000_S580000_d0) : (⟨S500000, .i32⟩ : BufTy).Contents (Elt F) → (⟨S80000, .i32⟩ : BufTy).Contents (Elt F) → (⟨S580000, .i32⟩ : BufTy).Contents (Elt F)),
    StableHlo.binary main_v3 main_v74 main_v76 ((fun a b => concatenate S580000 0 [⟨S500000, a⟩, ⟨S80000, b⟩] concatenates_S500000_S80000_S580000_d0) : (⟨S500000, .i32⟩ : BufTy).Contents (Elt F) → (⟨S80000, .i32⟩ : BufTy).Contents (Elt F) → (⟨S580000, .i32⟩ : BufTy).Contents (Elt F)),
    StableHlo.nullary main_cst_11 (constant S_ .f32 0x3F800000#32),
    StableHlo.unary main_cst_11 main_v77 (broadcastInDim S580000 ![] bcast_S_S580000 : (⟨S_, .f32⟩ : BufTy).Contents (Elt F) → (⟨S580000, .f32⟩ : BufTy).Contents (Elt F)),
    StableHlo.nullary main_cst_12 (constant S_ .f32 0x00000000#32),
    StableHlo.unary main_cst_12 main_v78 (broadcastInDim S80000 ![] bcast_S_S80000 : (⟨S_, .f32⟩ : BufTy).Contents (Elt F) → (⟨S80000, .f32⟩ : BufTy).Contents (Elt F)),
    StableHlo.unary main_v76 main_v79 (broadcastInDim S580000x1 ![0] bcast_S580000_S580000x1_0 : (⟨S580000, .i32⟩ : BufTy).Contents (Elt F) → (⟨S580000x1, .i32⟩ : BufTy).Contents (Elt F)),
    StableHlo.ternary main_v78 main_v79 main_v77 main_v80 ((fun x i u => Host.scatterAdd scatter_S80000_S580000x1_S580000_n_0_0_1 x i u) : (⟨S80000, .f32⟩ : BufTy).Contents (Elt F) → (⟨S580000x1, .i32⟩ : BufTy).Contents (Elt F) → (⟨S580000, .f32⟩ : BufTy).Contents (Elt F) → (⟨S80000, .f32⟩ : BufTy).Contents (Elt F)),
    StableHlo.unary main_v80 main_v81 (Host.rsqrt : (⟨S80000, .f32⟩ : BufTy).Contents (Elt F) → (⟨S80000, .f32⟩ : BufTy).Contents (Elt F)),
    StableHlo.nullary main_c_13 (constantI S_ 32 0#32),
    StableHlo.unary main_c_13 main_v82 (broadcastInDim S580000 ![] bcast_S_S580000 : (⟨S_, .i32⟩ : BufTy).Contents (Elt F) → (⟨S580000, .i32⟩ : BufTy).Contents (Elt F)),
    StableHlo.binary main_v75 main_v82 main_v83 (cmpi .slt : (⟨S580000, .i32⟩ : BufTy).Contents (Elt F) → (⟨S580000, .i32⟩ : BufTy).Contents (Elt F) → (⟨S580000, .i1⟩ : BufTy).Contents (Elt F)),
    StableHlo.nullary main_c_14 (constantI S_ 32 80000#32),
    StableHlo.unary main_c_14 main_v84 (broadcastInDim S580000 ![] bcast_S_S580000 : (⟨S_, .i32⟩ : BufTy).Contents (Elt F) → (⟨S580000, .i32⟩ : BufTy).Contents (Elt F)),
    StableHlo.binary main_v75 main_v84 main_v85 (addi : (⟨S580000, .i32⟩ : BufTy).Contents (Elt F) → (⟨S580000, .i32⟩ : BufTy).Contents (Elt F) → (⟨S580000, .i32⟩ : BufTy).Contents (Elt F)),
    StableHlo.ternary main_v83 main_v85 main_v75 main_v86 (select : (⟨S580000, .i1⟩ : BufTy).Contents (Elt F) → (⟨S580000, .i32⟩ : BufTy).Contents (Elt F) → (⟨S580000, .i32⟩ : BufTy).Contents (Elt F) → (⟨S580000, .i32⟩ : BufTy).Contents (Elt F)),
    StableHlo.unary main_v86 main_v87 (broadcastInDim S580000x1 ![0] bcast_S580000_S580000x1_0 : (⟨S580000, .i32⟩ : BufTy).Contents (Elt F) → (⟨S580000x1, .i32⟩ : BufTy).Contents (Elt F)),
    StableHlo.binary main_v81 main_v87 main_v88 ((fun x i => Host.gather gather_S80000_S580000x1_S580000_n_0_n_n_0_1_1 x i) : (⟨S80000, .f32⟩ : BufTy).Contents (Elt F) → (⟨S580000x1, .i32⟩ : BufTy).Contents (Elt F) → (⟨S580000, .f32⟩ : BufTy).Contents (Elt F)),
    StableHlo.nullary main_c_15 (constantI S_ 32 0#32),
    StableHlo.unary main_c_15 main_v89 (broadcastInDim S580000 ![] bcast_S_S580000 : (⟨S_, .i32⟩ : BufTy).Contents (Elt F) → (⟨S580000, .i32⟩ : BufTy).Contents (Elt F)),
    StableHlo.binary main_v76 main_v89 main_v90 (cmpi .slt : (⟨S580000, .i32⟩ : BufTy).Contents (Elt F) → (⟨S580000, .i32⟩ : BufTy).Contents (Elt F) → (⟨S580000, .i1⟩ : BufTy).Contents (Elt F)),
    StableHlo.nullary main_c_16 (constantI S_ 32 80000#32),
    StableHlo.unary main_c_16 main_v91 (broadcastInDim S580000 ![] bcast_S_S580000 : (⟨S_, .i32⟩ : BufTy).Contents (Elt F) → (⟨S580000, .i32⟩ : BufTy).Contents (Elt F)),
    StableHlo.binary main_v76 main_v91 main_v92 (addi : (⟨S580000, .i32⟩ : BufTy).Contents (Elt F) → (⟨S580000, .i32⟩ : BufTy).Contents (Elt F) → (⟨S580000, .i32⟩ : BufTy).Contents (Elt F)),
    StableHlo.ternary main_v90 main_v92 main_v76 main_v93 (select : (⟨S580000, .i1⟩ : BufTy).Contents (Elt F) → (⟨S580000, .i32⟩ : BufTy).Contents (Elt F) → (⟨S580000, .i32⟩ : BufTy).Contents (Elt F) → (⟨S580000, .i32⟩ : BufTy).Contents (Elt F)),
    StableHlo.unary main_v93 main_v94 (broadcastInDim S580000x1 ![0] bcast_S580000_S580000x1_0 : (⟨S580000, .i32⟩ : BufTy).Contents (Elt F) → (⟨S580000x1, .i32⟩ : BufTy).Contents (Elt F)),
    StableHlo.binary main_v81 main_v94 main_v95 ((fun x i => Host.gather gather_S80000_S580000x1_S580000_n_0_n_n_0_1_1 x i) : (⟨S80000, .f32⟩ : BufTy).Contents (Elt F) → (⟨S580000x1, .i32⟩ : BufTy).Contents (Elt F) → (⟨S580000, .f32⟩ : BufTy).Contents (Elt F)),
    StableHlo.binary main_v88 main_v95 main_v96 (mulf : (⟨S580000, .f32⟩ : BufTy).Contents (Elt F) → (⟨S580000, .f32⟩ : BufTy).Contents (Elt F) → (⟨S580000, .f32⟩ : BufTy).Contents (Elt F)),
    StableHlo.nullary main_c_17 (constantI S_ 32 0#32),
    StableHlo.unary main_c_17 main_v97 (broadcastInDim S580000 ![] bcast_S_S580000 : (⟨S_, .i32⟩ : BufTy).Contents (Elt F) → (⟨S580000, .i32⟩ : BufTy).Contents (Elt F)),
    StableHlo.binary main_v75 main_v97 main_v98 (cmpi .slt : (⟨S580000, .i32⟩ : BufTy).Contents (Elt F) → (⟨S580000, .i32⟩ : BufTy).Contents (Elt F) → (⟨S580000, .i1⟩ : BufTy).Contents (Elt F)),
    StableHlo.nullary main_c_18 (constantI S_ 32 80000#32),
    StableHlo.unary main_c_18 main_v99 (broadcastInDim S580000 ![] bcast_S_S580000 : (⟨S_, .i32⟩ : BufTy).Contents (Elt F) → (⟨S580000, .i32⟩ : BufTy).Contents (Elt F)),
    StableHlo.binary main_v75 main_v99 main_v100 (addi : (⟨S580000, .i32⟩ : BufTy).Contents (Elt F) → (⟨S580000, .i32⟩ : BufTy).Contents (Elt F) → (⟨S580000, .i32⟩ : BufTy).Contents (Elt F)),
    StableHlo.ternary main_v98 main_v100 main_v75 main_v101 (select : (⟨S580000, .i1⟩ : BufTy).Contents (Elt F) → (⟨S580000, .i32⟩ : BufTy).Contents (Elt F) → (⟨S580000, .i32⟩ : BufTy).Contents (Elt F) → (⟨S580000, .i32⟩ : BufTy).Contents (Elt F)),
    StableHlo.unary main_v101 main_v102 (broadcastInDim S580000x1 ![0] bcast_S580000_S580000x1_0 : (⟨S580000, .i32⟩ : BufTy).Contents (Elt F) → (⟨S580000x1, .i32⟩ : BufTy).Contents (Elt F)),
    StableHlo.binary main_v73 main_v102 main_v103 ((fun x i => Host.gather gather_S80000x128_S580000x1_S580000x128_1_0_n_n_0_1_1128 x i) : (⟨S80000x128, .f32⟩ : BufTy).Contents (Elt F) → (⟨S580000x1, .i32⟩ : BufTy).Contents (Elt F) → (⟨S580000x128, .f32⟩ : BufTy).Contents (Elt F)),
    StableHlo.unary main_v96 main_v104 (broadcastInDim S580000x1 ![0] bcast_S580000_S580000x1_0 : (⟨S580000, .f32⟩ : BufTy).Contents (Elt F) → (⟨S580000x1, .f32⟩ : BufTy).Contents (Elt F)),
    StableHlo.unary main_v104 main_v105 (broadcastInDim S580000x128 ![0, 1] bcast_S580000x1_S580000x128_0_1 : (⟨S580000x1, .f32⟩ : BufTy).Contents (Elt F) → (⟨S580000x128, .f32⟩ : BufTy).Contents (Elt F)),
    StableHlo.binary main_v103 main_v105 main_v106 (mulf : (⟨S580000x128, .f32⟩ : BufTy).Contents (Elt F) → (⟨S580000x128, .f32⟩ : BufTy).Contents (Elt F) → (⟨S580000x128, .f32⟩ : BufTy).Contents (Elt F)),
    StableHlo.nullary main_cst_19 (constant S_ .f32 0x00000000#32),
    StableHlo.unary main_cst_19 main_v107 (broadcastInDim S80000x128 ![] bcast_S_S80000x128 : (⟨S_, .f32⟩ : BufTy).Contents (Elt F) → (⟨S80000x128, .f32⟩ : BufTy).Contents (Elt F)),
    StableHlo.unary main_v76 main_v108 (broadcastInDim S580000x1 ![0] bcast_S580000_S580000x1_0 : (⟨S580000, .i32⟩ : BufTy).Contents (Elt F) → (⟨S580000x1, .i32⟩ : BufTy).Contents (Elt F)),
    StableHlo.ternary main_v107 main_v108 main_v106 main_v109 ((fun x i u => Host.scatterAdd scatter_S80000x128_S580000x1_S580000x128_1_0_0_1 x i u) : (⟨S80000x128, .f32⟩ : BufTy).Contents (Elt F) → (⟨S580000x1, .i32⟩ : BufTy).Contents (Elt F) → (⟨S580000x128, .f32⟩ : BufTy).Contents (Elt F) → (⟨S80000x128, .f32⟩ : BufTy).Contents (Elt F)),
    StableHlo.unary main_arg10 main_v110 (broadcastInDim S1x128 ![1] bcast_S128_S1x128_1 : (⟨S128, .f32⟩ : BufTy).Contents (Elt F) → (⟨S1x128, .f32⟩ : BufTy).Contents (Elt F)),
    StableHlo.unary main_v110 main_v111 (broadcastInDim S80000x128 ![0, 1] bcast_S1x128_S80000x128_0_1 : (⟨S1x128, .f32⟩ : BufTy).Contents (Elt F) → (⟨S80000x128, .f32⟩ : BufTy).Contents (Elt F)),
    StableHlo.binary main_v109 main_v111 main_v112 (addf : (⟨S80000x128, .f32⟩ : BufTy).Contents (Elt F) → (⟨S80000x128, .f32⟩ : BufTy).Contents (Elt F) → (⟨S80000x128, .f32⟩ : BufTy).Contents (Elt F)) ]

/-- The line is its ten stages one after the other. -/
theorem ops_eq : (ops : List (HloOp τ sig (Elt F))) = rA ++ rL1 ++ rL2 ++ rCat ++ rMM1 ++ rT1 ++ rVar ++ rBN ++ rMM2 ++ rT2 := rfl

set_option maxRecDepth 8192 in
/-- @main is that straight line: the outlined functions unfolded at their calls, the three windows of statements run in
    order. -/
theorem main_eq (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub .., binary_bufs_sub .., unary_bufs_sub .., unary_bufs_sub .., binary_bufs_sub .., binary_bufs_sub .., unary_bufs_sub .., unary_bufs_sub .., binary_bufs_sub .., binary_bufs_sub .., binary_bufs_sub .., nullary_bufs_sub .., binary_bufs_sub .., binary_bufs_sub .., nullary_bufs_sub .., unary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., nullary_bufs_sub .., binary_bufs_sub .., binary_bufs_sub .., nullary_bufs_sub .., unary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩

/-- From any memory with zero counters every weakly fair execution of @main terminates, and every TensorCore buffer ends
    at the fold of the 158 operations over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

end Cert.ReferenceIdeal.Run

end
-- ==== Proof.LibAfter.lean ====
/-
  General facts for reading the fold of buffer contents through a line of host operations.

  * Over a concatenation: running two lines one after the other is running the first, then the second from what the first
    left (`after_append`).
  * A concatenation of TWO arrays with the arrays as plain arguments (`concat2`, `concatenate_pair`): in `concatenate` the
    operands sit in a list of (shape, array) pairs on which the shape fact depends, so a rewriting pass cannot go inside the
    list; stated over the two arrays it can.
  * `read_fold`: one rewriting pass that reads such a fold back at a buffer — each operation's result at its own result
    buffer is its function of the operands' contents, at any other buffer what was there — going inside two-operand
    concatenations as well.
-/
import Idealize.ShloMosaic.Lib.StableHlo.Run

noncomputable section

namespace Cert.Lib.After

open Idealize.ShloMosaic Idealize.ShloMosaic.StableHlo

variable {τ : Topo} {sig : RefSig} {Val : EltTy → Type}

/-- The contents after `l₁ ++ l₂` are the contents after `l₂` from the contents after `l₁`. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The concatenation of two arrays along an axis, the arrays as plain arguments. -/
def concat2 {α : Type} (t : Shape) (a : Fin t.rank) (s₁ s₂ : Shape) (x : s₁.Idx → α) (y : s₂.Idx → α)
    (h : Shape.Concatenates [s₁, s₂] t a) : t.Idx → α :=
  concatenate t a [⟨s₁, x⟩, ⟨s₂, y⟩] h

/-- A two-operand `concatenate` is that. -/
theorem concatenate_pair {α : Type} (t : Shape) (a : Fin t.rank) (s₁ s₂ : Shape) (x : s₁.Idx → α) (y : s₂.Idx → α)
    (h : Shape.Concatenates (([⟨s₁, x⟩, ⟨s₂, y⟩] : List ((s : Shape) × (s.Idx → α))).map (·.1)) t a) :
    concatenate t a [⟨s₁, x⟩, ⟨s₂, y⟩] h = concat2 t a s₁ s₂ x y (by simpa using h) := rfl

end Cert.Lib.After

/-- Reads a fold of host operations back at a buffer in one rewriting pass (the library's pass, and inside two-operand
    concatenations). -/
macro "read_fold" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Idealize.ShloMosaic.StableHlo.nary4_result', Idealize.ShloMosaic.StableHlo.nary_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne',
      Cert.Lib.After.concatenate_pair]))

end
-- ==== Proof.RCarry.lean ====
/-
  The reference's line of operations read one stage at a time.

  The fold over the 158 operations is the fold over the ten stages in turn; `Q0` is the launch memory and `Qk` the buffer
  contents after stage `k`. A stage changes only the buffers its operations write, so a buffer read several stages after it
  was written is carried there unchanged.
-/
import proofs.«170367_j24137716203574_1_alg».proof.Proof.RefRun
import proofs.«170367_j24137716203574_1_alg».proof.Proof.LibAfter

set_option maxRecDepth 16384

noncomputable section

namespace Cert.ReferenceIdeal.Carry

open Cert.ReferenceIdeal Cert.ReferenceIdeal.Gen Cert.ReferenceIdeal.Run Idealize.ShloMosaic Idealize.ShloMosaic.TcCoe Idealize.ShloMosaic.StableHlo

variable {F : FTy → Type} [FloatOps F]

/-- The buffers the operations of `rA` write. -/
abbrev w_rA : List (Ref sig .tc) := [main_v0, main_v1, main_v2, main_v3]
theorem w_rA_ok : (rA : List (HloOp τ sig (Elt F))).Forall fun op => op.writes ⊆ ((w_rA).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

/-- The buffers the operations of `rL1` write. -/
abbrev w_rL1 : List (Ref sig .tc) := [main_v4, main_v5, main_v6, main_v7]
theorem w_rL1_ok : (rL1 : List (HloOp τ sig (Elt F))).Forall fun op => op.writes ⊆ ((w_rL1).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

/-- The buffers the operations of `rL2` write. -/
abbrev w_rL2 : List (Ref sig .tc) := [main_v8, main_v9, main_v10, main_v11]
theorem w_rL2_ok : (rL2 : List (HloOp τ sig (Elt F))).Forall fun op => op.writes ⊆ ((w_rL2).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

/-- The buffers the operations of `rCat` write. -/
abbrev w_rCat : List (Ref sig .tc) := [main_v12]
theorem w_rCat_ok : (rCat : List (HloOp τ sig (Elt F))).Forall fun op => op.writes ⊆ ((w_rCat).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

/-- The buffers the operations of `rMM1` write. -/
abbrev w_rMM1 : List (Ref sig .tc) := [main_v13]
theorem w_rMM1_ok : (rMM1 : List (HloOp τ sig (Elt F))).Forall fun op => op.writes ⊆ ((w_rMM1).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

/-- The buffers the operations of `rT1` write. -/
abbrev w_rT1 : List (Ref sig .tc) := [main_v14, main_v15, main_v16, main_cst, main_v17, main_cst_0, main_v18, main_v19, main_v20, main_v21, main_c, main_v22, main_v23, main_c_1, main_v24, main_v25, main_v26, main_v27, main_v28, main_c_2, main_v29, main_v30, main_c_3, main_v31, main_v32, main_v33, main_v34, main_v35, main_v36, main_c_4, main_v37, main_v38, main_c_5, main_v39, main_v40, main_v41, main_v42, main_v43, main_v44, main_v45, main_v46, main_cst_6, main_v47, main_v48, main_v49, main_v50, main_v51, main_v52, main_cst_7, main_v53, main_cst_8, main_v54, main_v55, main_c_9]
theorem w_rT1_ok : (rT1 : List (HloOp τ sig (Elt F))).Forall fun op => op.writes ⊆ ((w_rT1).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

/-- The buffers the operations of `rVar` write. -/
abbrev w_rVar : List (Ref sig .tc) := [main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v56]
theorem w_rVar_ok : (rVar : List (HloOp τ sig (Elt F))).Forall fun op => op.writes ⊆ ((w_rVar).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

/-- The buffers the operations of `rBN` write. -/
abbrev w_rBN : List (Ref sig .tc) := [main_v57, main_v58, main_v59, main_cst_10, main_v60, main_v61, main_v62, main_v63, main_v64, main_v65, main_v66, main_v67, main_v68, main_v69, main_v70, main_v71, main_call1_cst, main_call1_v0, main_v72]
theorem w_rBN_ok : (rBN : List (HloOp τ sig (Elt F))).Forall fun op => op.writes ⊆ ((w_rBN).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

/-- The buffers the operations of `rMM2` write. -/
abbrev w_rMM2 : List (Ref sig .tc) := [main_v73]
theorem w_rMM2_ok : (rMM2 : List (HloOp τ sig (Elt F))).Forall fun op => op.writes ⊆ ((w_rMM2).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

/-- The buffers the operations of `rT2` write. -/
abbrev w_rT2 : List (Ref sig .tc) := [main_v74, main_v75, main_v76, main_cst_11, main_v77, main_cst_12, main_v78, main_v79, main_v80, main_v81, main_c_13, main_v82, main_v83, main_c_14, main_v84, main_v85, main_v86, main_v87, main_v88, main_c_15, main_v89, main_v90, main_c_16, main_v91, main_v92, main_v93, main_v94, main_v95, main_v96, main_c_17, main_v97, main_v98, main_c_18, main_v99, main_v100, main_v101, main_v102, main_v103, main_v104, main_v105, main_v106, main_cst_19, main_v107, main_v108, main_v109, main_v110, main_v111, main_v112]
theorem w_rT2_ok : (rT2 : List (HloOp τ sig (Elt F))).Forall fun op => op.writes ⊆ ((w_rT2).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

variable (m : (ℓ : Loc nD τ sig) → Buf (Elt F) ℓ) (c : Dev nD)

/-- The launch contents. -/
abbrev Q0 : Valuation τ sig (Elt F) := launchContents m c
/-- After `rA`. -/
abbrev Q1 : Valuation τ sig (Elt F) := after rA (Q0 m c)
/-- After `rL1`. -/
abbrev Q2 : Valuation τ sig (Elt F) := after rL1 (Q1 m c)
/-- After `rL2`. -/
abbrev Q3 : Valuation τ sig (Elt F) := after rL2 (Q2 m c)
/-- After `rCat`. -/
abbrev Q4 : Valuation τ sig (Elt F) := after rCat (Q3 m c)
/-- After `rMM1`. -/
abbrev Q5 : Valuation τ sig (Elt F) := after rMM1 (Q4 m c)
/-- After `rT1`. -/
abbrev Q6 : Valuation τ sig (Elt F) := after rT1 (Q5 m c)
/-- After `rVar`. -/
abbrev Q7 : Valuation τ sig (Elt F) := after rVar (Q6 m c)
/-- After `rBN`. -/
abbrev Q8 : Valuation τ sig (Elt F) := after rBN (Q7 m c)
/-- After `rMM2`. -/
abbrev Q9 : Valuation τ sig (Elt F) := after rMM2 (Q8 m c)
/-- After `rT2`. -/
abbrev Q10 : Valuation τ sig (Elt F) := after rT2 (Q9 m c)

/-- The whole line's fold is the last stage's contents. -/
theorem ops_staged : after (ops : List (HloOp τ sig (Elt F))) (launchContents m c) = Q10 m c := by
  rw [ops_eq]
  simp only [Cert.Lib.After.after_append]

/-- Across `rA`: a buffer it does not write is unchanged. -/
theorem q1 (b : Ref sig .tc) (h : b ∉ w_rA) : Q1 m c (Proc.devRef .tc b) = Q0 m c (Proc.devRef .tc b) :=
  after_of_writes_sub rA _ w_rA_ok h
/-- Across `rL1`: a buffer it does not write is unchanged. -/
theorem q2 (b : Ref sig .tc) (h : b ∉ w_rL1) : Q2 m c (Proc.devRef .tc b) = Q1 m c (Proc.devRef .tc b) :=
  after_of_writes_sub rL1 _ w_rL1_ok h
/-- Across `rL2`: a buffer it does not write is unchanged. -/
theorem q3 (b : Ref sig .tc) (h : b ∉ w_rL2) : Q3 m c (Proc.devRef .tc b) = Q2 m c (Proc.devRef .tc b) :=
  after_of_writes_sub rL2 _ w_rL2_ok h
/-- Across `rCat`: a buffer it does not write is unchanged. -/
theorem q4 (b : Ref sig .tc) (h : b ∉ w_rCat) : Q4 m c (Proc.devRef .tc b) = Q3 m c (Proc.devRef .tc b) :=
  after_of_writes_sub rCat _ w_rCat_ok h
/-- Across `rMM1`: a buffer it does not write is unchanged. -/
theorem q5 (b : Ref sig .tc) (h : b ∉ w_rMM1) : Q5 m c (Proc.devRef .tc b) = Q4 m c (Proc.devRef .tc b) :=
  after_of_writes_sub rMM1 _ w_rMM1_ok h
/-- Across `rT1`: a buffer it does not write is unchanged. -/
theorem q6 (b : Ref sig .tc) (h : b ∉ w_rT1) : Q6 m c (Proc.devRef .tc b) = Q5 m c (Proc.devRef .tc b) :=
  after_of_writes_sub rT1 _ w_rT1_ok h
/-- Across `rVar`: a buffer it does not write is unchanged. -/
theorem q7 (b : Ref sig .tc) (h : b ∉ w_rVar) : Q7 m c (Proc.devRef .tc b) = Q6 m c (Proc.devRef .tc b) :=
  after_of_writes_sub rVar _ w_rVar_ok h
/-- Across `rBN`: a buffer it does not write is unchanged. -/
theorem q8 (b : Ref sig .tc) (h : b ∉ w_rBN) : Q8 m c (Proc.devRef .tc b) = Q7 m c (Proc.devRef .tc b) :=
  after_of_writes_sub rBN _ w_rBN_ok h
/-- Across `rMM2`: a buffer it does not write is unchanged. -/
theorem q9 (b : Ref sig .tc) (h : b ∉ w_rMM2) : Q9 m c (Proc.devRef .tc b) = Q8 m c (Proc.devRef .tc b) :=
  after_of_writes_sub rMM2 _ w_rMM2_ok h
/-- Across `rT2`: a buffer it does not write is unchanged. -/
theorem q10 (b : Ref sig .tc) (h : b ∉ w_rT2) : Q10 m c (Proc.devRef .tc b) = Q9 m c (Proc.devRef .tc b) :=
  after_of_writes_sub rT2 _ w_rT2_ok h

/-- The launch contents are the launch memory. -/
theorem q0 (b : Ref sig .tc) : Q0 m c (Proc.devRef .tc b) = m ((c.tc : Thread nD τ).loc b) := rfl

end Cert.ReferenceIdeal.Carry

end
-- ==== Proof.RKept.lean ====
/-
  The reference leaves its arguments as launched.

  No stage of the reference's line writes an argument buffer, so the fold over the whole line reads, at an argument, the
  launch memory: the buffer is carried back through the ten stages unchanged.
-/
import proofs.«170367_j24137716203574_1_alg».proof.Proof.RCarry

noncomputable section

namespace Cert.ReferenceIdeal.Carry

open Cert.ReferenceIdeal Cert.ReferenceIdeal.Gen Cert.ReferenceIdeal.Run Idealize.ShloMosaic Idealize.ShloMosaic.TcCoe Idealize.ShloMosaic.StableHlo

variable {F : FTy → Type} [FloatOps F] (m : (ℓ : Loc nD τ sig) → Buf (Elt F) ℓ) (c : Dev nD)

/-- A buffer no stage writes ends at its launch contents. -/
theorem kept (b : Ref sig .tc) (h1 : b ∉ w_rA) (h2 : b ∉ w_rL1) (h3 : b ∉ w_rL2) (h4 : b ∉ w_rCat) (h5 : b ∉ w_rMM1) (h6 : b ∉ w_rT1) (h7 : b ∉ w_rVar) (h8 : b ∉ w_rBN) (h9 : b ∉ w_rMM2) (h10 : b ∉ w_rT2) :
    after (ops : List (HloOp τ sig (Elt F))) (launchContents m c) (Proc.devRef .tc b) = m ((c.tc : Thread nD τ).loc b) :=
  (congrFun (ops_staged m c) _).trans
    (((q10 m c b h10).trans ((q9 m c b h9).trans ((q8 m c b h8).trans ((q7 m c b h7).trans ((q6 m c b h6).trans ((q5 m c b h5).trans ((q4 m c b h4).trans ((q3 m c b h3).trans ((q2 m c b h2).trans (q1 m c b h1)))))))))))

/-- The result buffer ends at the last stage's contents. -/
theorem result_at (b : Ref sig .tc) :
    after (ops : List (HloOp τ sig (Elt F))) (launchContents m c) (Proc.devRef .tc b) = Q10 m c (Proc.devRef .tc b) :=
  congrFun (ops_staged m c) _

end Cert.ReferenceIdeal.Carry

end
-- ==== Proof.KCarry.lean ====
/-
  What each segment of the kernel's @main leaves unchanged.

  The generated frame names the TensorCore's buffer contents at the twelve segment boundaries, `W0` (the launch memory) to
  `W12`. A stretch of host operations changes only the buffers its operations write; a pallas region changes only its own
  arrays. One lemma per segment says so; composed, they carry a buffer's contents from the boundary where it was written
  to the boundary where it is read.
-/
import proofs.«170367_j24137716203574_1_alg».proof.Proof.Gen.KernelIdeal.Frame

set_option maxRecDepth 16384

noncomputable section

namespace Cert.KernelIdeal.Carry

open Cert.KernelIdeal Cert.KernelIdeal.Gen Idealize.ShloMosaic Idealize.ShloMosaic.TcCoe

variable {F : FTy → Type} [FloatOps F]

/-- The buffers the operations of `hostOps0` write. -/
abbrev wr0 : List (Ref sig .tc) := [main_v0, main_v1, main_v2, main_v3, main_v4]
theorem wr0_ok : (hostOps0 : List (HloOp τ sig (Elt F))).Forall fun op => op.writes ⊆ (wr0.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

/-- The buffers the operations of `hostOps1` write. -/
abbrev wr1 : List (Ref sig .tc) := [main_v6]
theorem wr1_ok : (hostOps1 : List (HloOp τ sig (Elt F))).Forall fun op => op.writes ⊆ (wr1.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

/-- The buffers the operations of `hostOps2` write. -/
abbrev wr2 : List (Ref sig .tc) := [main_v8]
theorem wr2_ok : (hostOps2 : List (HloOp τ sig (Elt F))).Forall fun op => op.writes ⊆ (wr2.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

/-- The buffers the operations of `hostOps3` write. -/
abbrev wr3 : List (Ref sig .tc) := [main_v10, main_v11, main_v12, main_cst, main_v13, main_cst_0, main_v14, main_v15, main_v16, main_v17, main_c, main_v18, main_v19, main_c_1, main_v20, main_v21, main_v22, main_v23, main_v24, main_c_2, main_v25, main_v26, main_c_3, main_v27, main_v28, main_v29, main_v30, main_v31, main_v32, main_c_4, main_v33, main_v34, main_c_5, main_v35, main_v36, main_v37, main_v38, main_v39, main_v40, main_v41, main_v42, main_cst_6, main_v43, main_v44, main_v45, main_v46, main_v47, main_v48, main_cst_7, main_v49, main_cst_8, main_v50, main_v51, main_c_9]
theorem wr3_ok : (hostOps3 : List (HloOp τ sig (Elt F))).Forall fun op => op.writes ⊆ (wr3.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

/-- The buffers the operations of `hostOps3_1` write. -/
abbrev wr3_1 : List (Ref sig .tc) := [main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v52]
theorem wr3_1_ok : (hostOps3_1 : List (HloOp τ sig (Elt F))).Forall fun op => op.writes ⊆ (wr3_1.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

/-- The buffers the operations of `hostOps3_2` write. -/
abbrev wr3_2 : List (Ref sig .tc) := [main_v53, main_v54, main_v55, main_v56]
theorem wr3_2_ok : (hostOps3_2 : List (HloOp τ sig (Elt F))).Forall fun op => op.writes ⊆ (wr3_2.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

/-- The buffers the operations of `hostOps5` write. -/
abbrev wr5 : List (Ref sig .tc) := [main_v59, main_v60, main_v61, main_cst_10, main_v62, main_cst_11, main_v63, main_v64, main_v65, main_v66, main_c_12, main_v67, main_v68, main_c_13, main_v69, main_v70, main_v71, main_v72, main_v73, main_c_14, main_v74, main_v75, main_c_15, main_v76, main_v77, main_v78, main_v79, main_v80, main_v81, main_c_16, main_v82, main_v83, main_c_17, main_v84, main_v85, main_v86, main_v87, main_v88, main_v89, main_v90, main_v91, main_cst_18, main_v92, main_v93, main_v94, main_v95, main_v96, main_v97]
theorem wr5_ok : (hostOps5 : List (HloOp τ sig (Elt F))).Forall fun op => op.writes ⊆ (wr5.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

variable (m : (ℓ : Loc nD τ sig) → Buf (Elt F) ℓ) (ρ : Dev nD → PrngReg) (c : Dev nD)

/-- Across `hostOps0`: a buffer it does not write is unchanged. -/
theorem k1 (b : Ref sig .tc) (h : b ∉ wr0) : W1 m ρ c (Proc.devRef .tc b) = W0 m ρ c (Proc.devRef .tc b) :=
  StableHlo.after_of_writes_sub hostOps0 _ wr0_ok h

/-- Across region 0: a buffer that is none of its arrays is unchanged. -/
theorem k2 (b : Ref sig .tc) (h : ∀ w, Pipeline.arrRef spec0 w ≠ b) : W2 m ρ c (Proc.devRef .tc b) = W1 m ρ c (Proc.devRef .tc b) :=
  W2_of_ne m ρ c b h

/-- Across `hostOps1`: a buffer it does not write is unchanged. -/
theorem k3 (b : Ref sig .tc) (h : b ∉ wr1) : W3 m ρ c (Proc.devRef .tc b) = W2 m ρ c (Proc.devRef .tc b) :=
  StableHlo.after_of_writes_sub hostOps1 _ wr1_ok h

/-- Across region 1: a buffer that is none of its arrays is unchanged. -/
theorem k4 (b : Ref sig .tc) (h : ∀ w, Pipeline.arrRef spec1 w ≠ b) : W4 m ρ c (Proc.devRef .tc b) = W3 m ρ c (Proc.devRef .tc b) :=
  W4_of_ne m ρ c b h

/-- Across `hostOps2`: a buffer it does not write is unchanged. -/
theorem k5 (b : Ref sig .tc) (h : b ∉ wr2) : W5 m ρ c (Proc.devRef .tc b) = W4 m ρ c (Proc.devRef .tc b) :=
  StableHlo.after_of_writes_sub hostOps2 _ wr2_ok h

/-- Across region 2: a buffer that is none of its arrays is unchanged. -/
theorem k6 (b : Ref sig .tc) (h : ∀ w, Pipeline.arrRef spec2 w ≠ b) : W6 m ρ c (Proc.devRef .tc b) = W5 m ρ c (Proc.devRef .tc b) :=
  W6_of_ne m ρ c b h

/-- Across `hostOps3`: a buffer it does not write is unchanged. -/
theorem k7 (b : Ref sig .tc) (h : b ∉ wr3) : W7 m ρ c (Proc.devRef .tc b) = W6 m ρ c (Proc.devRef .tc b) :=
  StableHlo.after_of_writes_sub hostOps3 _ wr3_ok h

/-- Across `hostOps3_1`: a buffer it does not write is unchanged. -/
theorem k8 (b : Ref sig .tc) (h : b ∉ wr3_1) : W8 m ρ c (Proc.devRef .tc b) = W7 m ρ c (Proc.devRef .tc b) :=
  StableHlo.after_of_writes_sub hostOps3_1 _ wr3_1_ok h

/-- Across `hostOps3_2`: a buffer it does not write is unchanged. -/
theorem k9 (b : Ref sig .tc) (h : b ∉ wr3_2) : W9 m ρ c (Proc.devRef .tc b) = W8 m ρ c (Proc.devRef .tc b) :=
  StableHlo.after_of_writes_sub hostOps3_2 _ wr3_2_ok h

/-- Across region 3: a buffer that is none of its arrays is unchanged. -/
theorem k10 (b : Ref sig .tc) (h : ∀ w, Pipeline.arrRef spec3 w ≠ b) : W10 m ρ c (Proc.devRef .tc b) = W9 m ρ c (Proc.devRef .tc b) :=
  W10_of_ne m ρ c b h

/-- Across region 4: a buffer that is none of its arrays is unchanged. -/
theorem k11 (b : Ref sig .tc) (h : ∀ w, Pipeline.arrRef spec4 w ≠ b) : W11 m ρ c (Proc.devRef .tc b) = W10 m ρ c (Proc.devRef .tc b) :=
  W11_of_ne m ρ c b h

/-- Across `hostOps5`: a buffer it does not write is unchanged. -/
theorem k12 (b : Ref sig .tc) (h : b ∉ wr5) : W12 m ρ c (Proc.devRef .tc b) = W11 m ρ c (Proc.devRef .tc b) :=
  StableHlo.after_of_writes_sub hostOps5 _ wr5_ok h

/-- The launch contents are the launch memory. -/
theorem k0 (b : Ref sig .tc) : W0 m ρ c (Proc.devRef .tc b) = m ((c : Thread nD τ).loc b) := rfl

end Cert.KernelIdeal.Carry

end
-- ==== Proof.LibPlainDot.lean ====
/-
  A plain matrix product read at one entry.

  For the dimension numbers of an `M × K` by `K × N` product (the left operand contracted on its columns, the
  right on its rows, no batch axis) the entry at row `p`, column `q` of a `tpu.matmul` into the zero
  accumulator, and of the host's `dot_general`, is at the ideal values the sum over `k` of the left operand at
  `(p, k)` times the right operand at `(k, q)`. The contraction index of the dimension numbers is re-indexed by
  its one coordinate, so the sum runs over the literal `Fin K`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : Nat}

/-- The left operand's index at output entry `(p, q)` and contraction position `k` is `(p, k)`. -/
theorem lhsIdx_plain (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- The right operand's index at output entry `(p, q)` and contraction position `k` is `(k, q)`. -/
theorem rhsIdx_plain (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- A `tpu.matmul` into the zero accumulator, at entry `(p, q)`. -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  exact Finset.sum_congr rfl fun k _ => by rw [lhsIdx_plain, rhsIdx_plain]

/-- The host's `dot_general`, at entry `(p, q)`. -/
theorem dotGeneral_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  exact Finset.sum_congr rfl fun k _ => by rw [lhsIdx_plain, rhsIdx_plain]

end Cert.Lib.PlainDot

end
-- ==== Proof.LibBiasDot.lean ====
/-
  A matrix product with a bias row added, read at one entry.

  The linear-layer body that many kernels share: an `M × K` by `K × N` product into the zero accumulator, plus a
  bias vector of length `N` viewed as a `1 × N` row and repeated down the `M` rows. At the ideal values its entry at
  row `p`, column `q` is the sum over `k` of the left operand at `(p, k)` times the right operand at `(k, q)`, plus
  the bias at `q`. `lin` names that whole-array function.
-/
import Idealize.ShloMosaic.Lib.ValueIdx
import Idealize.ShloMosaic.Lib.Pipeline.Value
import Idealize.ShloMosaic.PureOps.Ideal.Laws
import proofs.«170367_j24137716203574_1_alg».proof.Proof.LibPlainDot

noncomputable section

open scoped BigOperators

namespace Cert.Lib.BiasDot

open Idealize.ShloMosaic Idealize.ShloMosaic.ValueIdx

variable {M K N : Nat}

/-- The linear layer as one function of its three arrays: entry `(p, q)` is `∑ k, A (p, k) · W (k, q) + b q`. -/
def lin (A : (⟨2, ![M, K]⟩ : Shape).Idx → EReal) (W : (⟨2, ![K, N]⟩ : Shape).Idx → EReal)
    (b : (⟨1, ![N]⟩ : Shape).Idx → EReal) : (⟨2, ![M, N]⟩ : Shape).Idx → EReal :=
  fun i => (∑ k : Fin K, A (ix2 (i 0) k) * W (ix2 k (i 1))) + b (ix1 (i 1))

theorem lin_apply (A : (⟨2, ![M, K]⟩ : Shape).Idx → EReal) (W : (⟨2, ![K, N]⟩ : Shape).Idx → EReal)
    (b : (⟨1, ![N]⟩ : Shape).Idx → EReal) (p : Fin M) (q : Fin N) :
    lin A W b (ix2 p q) = (∑ k : Fin K, A (ix2 p k) * W (ix2 k q)) + b (ix1 q) := rfl

/-- A vector of length `N` viewed as a `1 × N` row and repeated down `M` rows reads, at `(p, q)`, the vector at `q`. -/
theorem rowBroadcast_apply {α : Type} (b : (⟨1, ![N]⟩ : Shape).Idx → α)
    (hc : (⟨1, ![N]⟩ : Shape).ShapeCasts ⟨2, ![1, N]⟩) (hb : (⟨2, ![1, N]⟩ : Shape).Broadcasts ⟨2, ![M, N]⟩)
    (p : Fin M) (q : Fin N) :
    broadcastTo ⟨2, ![M, N]⟩ (shapeCast ⟨2, ![1, N]⟩ b hc) hb (ix2 p q) = b (ix1 q) := by
  refine (broadcastTo_apply _ hb (ix2 p q) (ix2 (0 : Fin 1) q) (fun a => ?_)).trans ?_
  · match a with
    | ⟨0, _⟩ => exact (if_pos rfl).symm
    | ⟨1, _⟩ =>
      show q.val = if N = 1 then 0 else q.val
      split
      · have := q.isLt; omega
      · rfl
  · refine (shapeCast_addUnit_apply ![N] b hc (ix2 (0 : Fin 1) q)).trans (congrArg b ?_)
    funext a
    match a with
    | ⟨0, _⟩ => rfl

/-- The product into zero plus the repeated bias row, at entry `(p, q)`. -/
theorem biasDot_apply {φ₁ φ₂ : FTy} (prec : Option ContractPrecision)
    (l : FVec Ideal ⟨2, ![M, K]⟩ φ₁) (r : FVec Ideal ⟨2, ![K, N]⟩ φ₂) (b : FVec Ideal ⟨1, ![N]⟩ .f32)
    (hc : (⟨1, ![N]⟩ : Shape).ShapeCasts ⟨2, ![1, N]⟩) (hb : (⟨2, ![1, N]⟩ : Shape).Broadcasts ⟨2, ![M, N]⟩)
    (p : Fin M) (q : Fin N) :
    addf (FloatOps.matmul (DotDims.plain M K N) prec l r (constant ⟨2, ![M, N]⟩ .f32 0x00000000#32))
        (broadcastTo ⟨2, ![M, N]⟩ (shapeCast ⟨2, ![1, N]⟩ b hc) hb) (ix2 p q)
      = (∑ k : Fin K, l (ix2 p k) * r (ix2 k q)) + b (ix1 q) := by
  rw [addf_apply, Cert.Lib.PlainDot.matmul_zero_apply, rowBroadcast_apply]

end Cert.Lib.BiasDot

end
-- ==== Proof.LibDense.lean ====
/-
  The dense layers of the network as whole-array functions on the extended reals, and the host's spelling of each.

  A matrix with `M` rows and `N` columns is a function of its two coordinates. The layers are: a product plus a bias
  row (`lin`, from the bias-and-product module), the same with the contraction split over two pairs of operands
  (`lin2`), the plain product (`mm`), adding a row to every row of a matrix (`addRow`), and the positive part
  (`relu`). The host writes a layer as a `dot_general`, the bias broadcast in two steps to the matrix's shape,
  an addition, and a maximum with a broadcast zero; entry by entry these are the functions above.

  Two identities join the kernel's arrangement to the host's. A product whose left operand is two blocks set side by
  side, against a weight matrix, is the sum of the two blocks' products against the matching row ranges of the weight:
  the sum over the contraction index splits at the seam, which needs only that addition of extended reals is
  associative and commutative. And a product plus a row of zeros is the product.
-/
import Idealize.ShloMosaic.Lib.ValueIdx
import Idealize.ShloMosaic.Lib.Pipeline.Value
import Idealize.ShloMosaic.PureOps.Ideal.Laws
import proofs.«170367_j24137716203574_1_alg».proof.Proof.LibBiasDot

noncomputable section

open scoped BigOperators

namespace Cert.Lib.Dense

open Idealize.ShloMosaic Idealize.ShloMosaic.ValueIdx Cert.Lib.BiasDot

variable {M K K' N : Nat}

/-- The positive part, entry by entry. -/
def relu {s : Shape} (f : s.Idx → EReal) : s.Idx → EReal := fun i => max (f i) 0

/-- A row added to every row of a matrix. -/
def addRow (X : (⟨2, ![M, N]⟩ : Shape).Idx → EReal) (B : (⟨1, ![N]⟩ : Shape).Idx → EReal) :
    (⟨2, ![M, N]⟩ : Shape).Idx → EReal := fun i => X i + B (ix1 (i 1))

/-- The plain product: entry `(p, q)` is `∑ k, A (p, k) · W (k, q)`. -/
def mm (A : (⟨2, ![M, K]⟩ : Shape).Idx → EReal) (W : (⟨2, ![K, N]⟩ : Shape).Idx → EReal) :
    (⟨2, ![M, N]⟩ : Shape).Idx → EReal := fun i => ∑ k : Fin K, A (ix2 (i 0) k) * W (ix2 k (i 1))

/-- Two products added, plus a bias row: entry `(p, q)` is `∑ k, A (p, k) · Wa (k, q) + ∑ k, C (p, k) · Wb (k, q) + b q`. -/
def lin2 (A : (⟨2, ![M, K]⟩ : Shape).Idx → EReal) (Wa : (⟨2, ![K, N]⟩ : Shape).Idx → EReal)
    (C : (⟨2, ![M, K']⟩ : Shape).Idx → EReal) (Wb : (⟨2, ![K', N]⟩ : Shape).Idx → EReal)
    (B : (⟨1, ![N]⟩ : Shape).Idx → EReal) : (⟨2, ![M, N]⟩ : Shape).Idx → EReal :=
  fun i => ((∑ k : Fin K, A (ix2 (i 0) k) * Wa (ix2 k (i 1))) + (∑ k : Fin K', C (ix2 (i 0) k) * Wb (ix2 k (i 1))))
    + B (ix1 (i 1))

/-! ## The host's spelling, read at an entry -/

/-- A vector of length `N` broadcast to a `1 × N` row and then down `M` rows reads, at `(p, q)`, the vector at `q`. -/
theorem hostRow_apply {α : Type} (B : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 B) (ix2 p q) = B (ix1 q) := by
  refine (broadcastInDim_apply ![0, 1] h2 _ (ix2 p q) (ix2 (0 : Fin 1) q) (fun a => ?_)).trans ?_
  · match a with
    | ⟨0, _⟩ => exact (if_pos rfl).symm
    | ⟨1, _⟩ =>
      show q.val = if N = 1 then 0 else q.val
      split
      · have := q.isLt; omega
      · rfl
  · refine broadcastInDim_apply ![1] h1 B (ix2 (0 : Fin 1) q) (ix1 q) (fun a => ?_)
    match a with
    | ⟨0, _⟩ =>
      show q.val = if N = 1 then 0 else q.val
      split
      · have := q.isLt; omega
      · rfl

/-- The zero scalar broadcast to any shape is zero everywhere. -/
theorem hostZero_apply {t : Shape} (dims : Fin 0 → Fin t.rank) (h : (⟨0, ![]⟩ : Shape).BroadcastsInDim t dims) (j : t.Idx) :
    broadcastInDim t dims h (constant (F := Ideal) ⟨0, ![]⟩ .f32 0x00000000#32) j = 0 := by
  refine (broadcastInDim_apply (s := ⟨0, ![]⟩) dims h _ j (fun a => a.elim0) (fun a => a.elim0)).trans ?_
  rw [constant_apply, Ideal.ofBits_zero_f32]

/-- The host's linear layer with the positive part: product, bias broadcast in two steps, sum, maximum with zero. -/
theorem host_lin_relu (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (dims : Fin 0 → Fin 2) (h0 : (⟨0, ![]⟩ : Shape).BroadcastsInDim ⟨2, ![M, N]⟩ dims) :
    maximumf (addf (Host.dotGeneral d none X W)
        (broadcastInDim ⟨2, ![M, N]⟩ ![0, 1] h2 (broadcastInDim ⟨2, ![1, N]⟩ ![1] h1 B)))
      (broadcastInDim ⟨2, ![M, N]⟩ dims h0 (constant ⟨0, ![]⟩ .f32 0x00000000#32))
    = relu (lin X W B) := by
  subst hd
  funext i
  obtain ⟨p, q, rfl⟩ : ∃ (p : Fin M) (q : Fin N), i = ix2 p q := ⟨i 0, i 1, eq_ix2 i⟩
  rw [maximumf_apply, addf_apply, hostZero_apply, hostRow_apply]
  exact congrArg (fun z => max (z + B (ix1 q)) 0) (Cert.Lib.PlainDot.dotGeneral_apply none _ X W p q)

/-- The host's bias-and-positive-part layer. -/
theorem host_addRow_relu (X : FVec Ideal ⟨2, ![M, N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (dims : Fin 0 → Fin 2) (h0 : (⟨0, ![]⟩ : Shape).BroadcastsInDim ⟨2, ![M, N]⟩ dims) :
    maximumf (addf X (broadcastInDim ⟨2, ![M, N]⟩ ![0, 1] h2 (broadcastInDim ⟨2, ![1, N]⟩ ![1] h1 B)))
      (broadcastInDim ⟨2, ![M, N]⟩ dims h0 (constant ⟨0, ![]⟩ .f32 0x00000000#32))
    = relu (addRow X B) := by
  funext i
  obtain ⟨p, q, rfl⟩ : ∃ (p : Fin M) (q : Fin N), i = ix2 p q := ⟨i 0, i 1, eq_ix2 i⟩
  rw [maximumf_apply, addf_apply, hostZero_apply, hostRow_apply]
  rfl

/-- The host's bias layer. -/
theorem host_addRow (X : FVec Ideal ⟨2, ![M, N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf X (broadcastInDim ⟨2, ![M, N]⟩ ![0, 1] h2 (broadcastInDim ⟨2, ![1, N]⟩ ![1] h1 B)) = addRow X B := by
  funext i
  obtain ⟨p, q, rfl⟩ : ∃ (p : Fin M) (q : Fin N), i = ix2 p q := ⟨i 0, i 1, eq_ix2 i⟩
  rw [addf_apply, hostRow_apply]
  rfl

/-- The host's plain product. -/
theorem host_mm (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) :
    Host.dotGeneral d none X W = mm X W := by
  subst hd
  funext i
  obtain ⟨p, q, rfl⟩ : ∃ (p : Fin M) (q : Fin N), i = ix2 p q := ⟨i 0, i 1, eq_ix2 i⟩
  exact Cert.Lib.PlainDot.dotGeneral_apply none _ X W p q

/-! ## A left operand of two blocks side by side -/

section Concat

variable (A : (⟨2, ![M, K]⟩ : Shape).Idx → EReal) (C : (⟨2, ![M, K']⟩ : Shape).Idx → EReal)
  (Wc : (⟨2, ![K + K', N]⟩ : Shape).Idx → EReal)
  (hcat : Shape.Concatenates [(⟨2, ![M, K]⟩ : Shape), ⟨2, ![M, K']⟩] ⟨2, ![M, K + K']⟩ 1)
  (hs1 : (⟨2, ![K + K', N]⟩ : Shape).Slices ![0, 0] ⟨2, ![K, N]⟩)
  (hs2 : (⟨2, ![K + K', N]⟩ : Shape).Slices ![K, 0] ⟨2, ![K', N]⟩)

/-- Left of the seam the two blocks set side by side read the first block. -/
theorem concat_left (p : Fin M) (k : Fin K) :
    concatenate ⟨2, ![M, K + K']⟩ 1 [⟨⟨2, ![M, K]⟩, A⟩, ⟨⟨2, ![M, K']⟩, C⟩] hcat (ix2 p (Fin.castAdd K' k)) = A (ix2 p k) :=
  concatenate_pair_apply_left 1 A C hcat _ rfl (ix2 p k) (fun b => by
    match b with
    | ⟨0, _⟩ => rfl
    | ⟨1, _⟩ => rfl)

/-- Right of the seam they read the second block, the column counted from the seam. -/
theorem concat_right (p : Fin M) (k : Fin K') :
    concatenate ⟨2, ![M, K + K']⟩ 1 [⟨⟨2, ![M, K]⟩, A⟩, ⟨⟨2, ![M, K']⟩, C⟩] hcat (ix2 p (Fin.natAdd K k)) = C (ix2 p k) :=
  concatenate_pair_apply_right 1 A C hcat _ rfl rfl (ix2 p k) (fun b hb => by
    match b, hb with
    | ⟨0, _⟩, _ => rfl
    | ⟨1, _⟩, h => exact absurd rfl h) (by show k.val + K = K + k.val; omega)

/-- The first `K` rows of the weight. -/
theorem slice_top (k : Fin K) (q : Fin N) :
    extractStridedSlice ⟨2, ![K, N]⟩ ![0, 0] Wc hs1 (ix2 k q) = Wc (ix2 (Fin.castAdd K' k) q) :=
  extractStridedSlice_apply ![0, 0] Wc hs1 (ix2 k q) (ix2 (Fin.castAdd K' k) q) (fun a => by
    match a with
    | ⟨0, _⟩ => show k.val = 0 + k.val; omega
    | ⟨1, _⟩ => show q.val = 0 + q.val; omega)

/-- The last `K'` rows of the weight. -/
theorem slice_bot (k : Fin K') (q : Fin N) :
    extractStridedSlice ⟨2, ![K', N]⟩ ![K, 0] Wc hs2 (ix2 k q) = Wc (ix2 (Fin.natAdd K k) q) :=
  extractStridedSlice_apply ![K, 0] Wc hs2 (ix2 k q) (ix2 (Fin.natAdd K k) q) (fun a => by
    match a with
    | ⟨0, _⟩ => show K + k.val = K + k.val; rfl
    | ⟨1, _⟩ => show q.val = 0 + q.val; omega)

/-- The sum over the contraction index of the side-by-side operand against the weight splits at the seam into the two
    blocks' sums against the two row ranges of the weight. -/
theorem sum_concat (p : Fin M) (q : Fin N) :
    (∑ k : Fin (K + K'), concatenate ⟨2, ![M, K + K']⟩ 1 [⟨⟨2, ![M, K]⟩, A⟩, ⟨⟨2, ![M, K']⟩, C⟩] hcat (ix2 p k) * Wc (ix2 k q))
      = (∑ k : Fin K, A (ix2 p k) * extractStridedSlice ⟨2, ![K, N]⟩ ![0, 0] Wc hs1 (ix2 k q))
        + (∑ k : Fin K', C (ix2 p k) * extractStridedSlice ⟨2, ![K', N]⟩ ![K, 0] Wc hs2 (ix2 k q)) := by
  rw [Fin.sum_univ_add]
  refine congrArg₂ (· + ·) (Finset.sum_congr rfl fun k _ => ?_) (Finset.sum_congr rfl fun k _ => ?_)
  · rw [concat_left, slice_top]
  · rw [concat_right, slice_bot]

end Concat

/-- The host's second layer: the side-by-side operand against the whole weight, bias, positive part — is the two-product
    layer of the two blocks against the two row ranges of the weight. -/
theorem host_concat_lin2_relu {Kt : Nat} (hK : Kt = K + K')
    (d : DotDims ⟨2, ![M, Kt]⟩ ⟨2, ![Kt, N]⟩ ⟨2, ![M, N]⟩) (hd : d = hK ▸ DotDims.plain M (K + K') N)
    (A : FVec Ideal ⟨2, ![M, K]⟩ .f32) (C : FVec Ideal ⟨2, ![M, K']⟩ .f32) (Wc : FVec Ideal ⟨2, ![Kt, N]⟩ .f32)
    (B : FVec Ideal ⟨1, ![N]⟩ .f32)
    (hcat : Shape.Concatenates [(⟨2, ![M, K]⟩ : Shape), ⟨2, ![M, K']⟩] ⟨2, ![M, Kt]⟩ 1)
    (hs1 : (⟨2, ![Kt, N]⟩ : Shape).Slices ![0, 0] ⟨2, ![K, N]⟩)
    (hs2 : (⟨2, ![Kt, N]⟩ : Shape).Slices ![K, 0] ⟨2, ![K', N]⟩)
    (h1 : (⟨1, ![N]⟩ : Shape).BroadcastsInDim ⟨2, ![1, N]⟩ ![1])
    (h2 : (⟨2, ![1, N]⟩ : Shape).BroadcastsInDim ⟨2, ![M, N]⟩ ![0, 1])
    (dims : Fin 0 → Fin 2) (h0 : (⟨0, ![]⟩ : Shape).BroadcastsInDim ⟨2, ![M, N]⟩ dims) :
    maximumf (addf (Host.dotGeneral d none
          (concatenate ⟨2, ![M, Kt]⟩ 1 [⟨⟨2, ![M, K]⟩, A⟩, ⟨⟨2, ![M, K']⟩, C⟩] hcat) Wc)
        (broadcastInDim ⟨2, ![M, N]⟩ ![0, 1] h2 (broadcastInDim ⟨2, ![1, N]⟩ ![1] h1 B)))
      (broadcastInDim ⟨2, ![M, N]⟩ dims h0 (constant ⟨0, ![]⟩ .f32 0x00000000#32))
    = relu (lin2 A (extractStridedSlice ⟨2, ![K, N]⟩ ![0, 0] Wc hs1) C (extractStridedSlice ⟨2, ![K', N]⟩ ![K, 0] Wc hs2) B) := by
  subst hK
  subst hd
  funext i
  obtain ⟨p, q, rfl⟩ : ∃ (p : Fin M) (q : Fin N), i = ix2 p q := ⟨i 0, i 1, eq_ix2 i⟩
  rw [maximumf_apply, addf_apply, hostZero_apply, hostRow_apply]
  refine congrArg (fun z => max (z + B (ix1 q)) 0) ?_
  exact (Cert.Lib.PlainDot.dotGeneral_apply none _ _ Wc p q).trans (sum_concat A C Wc hcat hs1 hs2 p q)

/-! ## A zero bias row -/

/-- A product plus a row of zeros is the product. -/
theorem lin_zero (X : (⟨2, ![M, K]⟩ : Shape).Idx → EReal) (W : (⟨2, ![K, N]⟩ : Shape).Idx → EReal)
    (Z : (⟨1, ![N]⟩ : Shape).Idx → EReal) (hZ : ∀ j, Z j = 0) : lin X W Z = mm X W := by
  funext i
  show (∑ k : Fin K, X (ix2 (i 0) k) * W (ix2 k (i 1))) + Z (ix1 (i 1)) = _
  rw [hZ, add_zero]
  rfl

end Cert.Lib.Dense

end
-- ==== Proof.LibRowLayers.lean ====
/-
  The two dense layers a vector unit computes on a block of rows, as whole-array functions on the extended reals.

  A block of `M` rows with `K` features, a `K × N` weight and a `1 × N` bias row give `relu (x · W + b)`: entry
  `(p, q)` is the larger of `0` and `∑ k, x (p, k) · W (k, q) + b (0, q)`. The narrowing of the operands to a shorter float
  format before the product is the identity on extended reals, the product accumulates into zero, and the bias row is
  repeated down the rows. A second product and bias on top of that, without the positive part, gives the output layer.

  An entry of either layer depends on one row of the block only, so a block of rows of a taller array computes the
  same entries as the layer of the whole array at those rows.
-/
import Idealize.ShloMosaic.Lib.ValueIdx
import Idealize.ShloMosaic.Lib.Pipeline.Value
import Idealize.ShloMosaic.PureOps.Ideal.Laws
import proofs.«170367_j24137716203574_1_alg».proof.Proof.LibDense

noncomputable section

open scoped BigOperators

namespace Cert.Lib.RowLayers

open Idealize.ShloMosaic Idealize.ShloMosaic.ValueIdx Cert.Lib.BiasDot Cert.Lib.Dense

variable {m M K N N' : Nat}

/-- A `1 × N` row read as a vector of length `N`. -/
def rowVec (R : (⟨2, ![1, N]⟩ : Shape).Idx → EReal) : (⟨1, ![N]⟩ : Shape).Idx → EReal :=
  fun j => R (ix2 (0 : Fin 1) (j 0))

/-- A vector of length `N` reshaped to a `1 × N` row and read back as a vector is the vector. -/
theorem rowVec_reshape (b : (⟨1, ![N]⟩ : Shape).Idx → EReal) (hc : (⟨1, ![N]⟩ : Shape).ShapeCasts ⟨2, ![1, N]⟩) :
    rowVec (shapeCast ⟨2, ![1, N]⟩ b hc) = b := by
  funext j
  refine (shapeCast_addUnit_apply ![N] b hc (ix2 (0 : Fin 1) (j 0))).trans (congrArg b ?_)
  funext a
  match a with
  | ⟨0, _⟩ => rfl

/-- A `1 × N` row repeated down `M` rows reads, at `(p, q)`, the row at `q`. -/
theorem rowRepeat_apply {α : Type} (R : (⟨2, ![1, N]⟩ : Shape).Idx → α)
    (hc : (⟨2, ![1, N]⟩ : Shape).ShapeCasts ⟨2, ![1, N]⟩) (hb : (⟨2, ![1, N]⟩ : Shape).Broadcasts ⟨2, ![M, N]⟩)
    (p : Fin M) (q : Fin N) :
    broadcastTo ⟨2, ![M, N]⟩ (shapeCast ⟨2, ![1, N]⟩ R hc) hb (ix2 p q) = R (ix2 (0 : Fin 1) q) := by
  rw [shapeCast_self]
  refine broadcastTo_apply _ hb (ix2 p q) (ix2 (0 : Fin 1) q) (fun a => ?_)
  match a with
  | ⟨0, _⟩ => exact (if_pos rfl).symm
  | ⟨1, _⟩ =>
    show q.val = if N = 1 then 0 else q.val
    split
    · have := q.isLt; omega
    · rfl

/-- The product into zero plus the repeated bias row is the linear layer of the block, the weight and the row. -/
theorem linLayer_eq (d : DotDims ⟨2, ![M, K]⟩ ⟨2, ![K, N]⟩ ⟨2, ![M, N]⟩) (hd : d = DotDims.plain M K N)
    (x0 : FVec Ideal ⟨2, ![M, K]⟩ .f32) (x1 : FVec Ideal ⟨2, ![K, N]⟩ .f32) (x2 : FVec Ideal ⟨2, ![1, N]⟩ .f32)
    (hb0 hb1 : FTy.bf16.bits < FTy.f32.bits)
    (h2 : (⟨2, ![1, N]⟩ : Shape).ShapeCasts ⟨2, ![1, N]⟩) (hbr : (⟨2, ![1, N]⟩ : Shape).Broadcasts ⟨2, ![M, N]⟩) :
    addf (FloatOps.matmul d none (truncf .bf16 x0 hb0) (truncf .bf16 x1 hb1) (constant ⟨2, ![M, N]⟩ .f32 0x00000000#32))
        (broadcastTo ⟨2, ![M, N]⟩ (shapeCast ⟨2, ![1, N]⟩ x2 h2) hbr)
      = lin x0 x1 (rowVec x2) := by
  subst hd
  funext i
  obtain ⟨p, q, rfl⟩ : ∃ (p : Fin M) (q : Fin N), i = ix2 p q := ⟨i 0, i 1, eq_ix2 i⟩
  rw [addf_apply, rowRepeat_apply, Cert.Lib.PlainDot.matmul_zero_apply]
  rfl

/-- The same followed by the maximum with a splat zero is the positive part of the linear layer. -/
theorem reluLayer_eq (d : DotDims ⟨2, ![M, K]⟩ ⟨2, ![K, N]⟩ ⟨2, ![M, N]⟩) (hd : d = DotDims.plain M K N)
    (x0 : FVec Ideal ⟨2, ![M, K]⟩ .f32) (x1 : FVec Ideal ⟨2, ![K, N]⟩ .f32) (x2 : FVec Ideal ⟨2, ![1, N]⟩ .f32)
    (hb0 hb1 : FTy.bf16.bits < FTy.f32.bits)
    (h2 : (⟨2, ![1, N]⟩ : Shape).ShapeCasts ⟨2, ![1, N]⟩) (hbr : (⟨2, ![1, N]⟩ : Shape).Broadcasts ⟨2, ![M, N]⟩) :
    maximumf (addf (FloatOps.matmul d none (truncf .bf16 x0 hb0) (truncf .bf16 x1 hb1) (constant ⟨2, ![M, N]⟩ .f32 0x00000000#32))
        (broadcastTo ⟨2, ![M, N]⟩ (shapeCast ⟨2, ![1, N]⟩ x2 h2) hbr))
      (broadcast ⟨2, ![M, N]⟩ (Scalar.ofBits (F := Ideal) .f32 0x00000000#32))
      = relu (lin x0 x1 (rowVec x2)) := by
  rw [linLayer_eq d hd x0 x1 x2 hb0 hb1 h2 hbr]
  funext i
  rw [maximumf_apply, broadcast_apply]
  show max _ (Ideal.ofBits .f32 0x00000000#32) = _
  rw [Ideal.ofBits_zero_f32]
  rfl

/-- The first layer on a block of rows is the first layer of the whole array at those rows: entry `j` of the block's
    layer is entry `i` of the array's when the block's row `j 0` is the array's row `i 0` and the columns agree. -/
theorem layer_block (x0 : (⟨2, ![m, K]⟩ : Shape).Idx → EReal) (x1 : (⟨2, ![K, N]⟩ : Shape).Idx → EReal)
    (x2 : (⟨2, ![1, N]⟩ : Shape).Idx → EReal)
    (A : (⟨2, ![M, K]⟩ : Shape).Idx → EReal) (W : (⟨2, ![K, N]⟩ : Shape).Idx → EReal) (R : (⟨2, ![1, N]⟩ : Shape).Idx → EReal)
    (j : (⟨2, ![m, N]⟩ : Shape).Idx) (i : (⟨2, ![M, N]⟩ : Shape).Idx)
    (h0 : ∀ k : Fin K, x0 (ix2 (j 0) k) = A (ix2 (i 0) k)) (h1 : ∀ k : Fin K, x1 (ix2 k (j 1)) = W (ix2 k (i 1)))
    (h2 : x2 (ix2 (0 : Fin 1) (j 1)) = R (ix2 (0 : Fin 1) (i 1))) :
    relu (lin x0 x1 (rowVec x2)) j = relu (lin A W (rowVec R)) i := by
  show max ((∑ k : Fin K, x0 (ix2 (j 0) k) * x1 (ix2 k (j 1))) + x2 (ix2 (0 : Fin 1) (j 1))) 0
    = max ((∑ k : Fin K, A (ix2 (i 0) k) * W (ix2 k (i 1))) + R (ix2 (0 : Fin 1) (i 1))) 0
  rw [h2]
  exact congrArg (fun z => max (z + R (ix2 (0 : Fin 1) (i 1))) 0) (Finset.sum_congr rfl fun k _ => by rw [h0 k, h1 k])

/-- The two layers on a block of rows are the two layers of the whole array at those rows. -/
theorem head_block (x0 : (⟨2, ![m, K]⟩ : Shape).Idx → EReal) (x1 : (⟨2, ![K, N]⟩ : Shape).Idx → EReal)
    (x2 : (⟨2, ![1, N]⟩ : Shape).Idx → EReal) (x3 : (⟨2, ![N, N']⟩ : Shape).Idx → EReal) (x4 : (⟨2, ![1, N']⟩ : Shape).Idx → EReal)
    (A : (⟨2, ![M, K]⟩ : Shape).Idx → EReal) (W : (⟨2, ![K, N]⟩ : Shape).Idx → EReal) (R : (⟨2, ![1, N]⟩ : Shape).Idx → EReal)
    (W' : (⟨2, ![N, N']⟩ : Shape).Idx → EReal) (R' : (⟨2, ![1, N']⟩ : Shape).Idx → EReal)
    (j : (⟨2, ![m, N']⟩ : Shape).Idx) (i : (⟨2, ![M, N']⟩ : Shape).Idx)
    (h0 : ∀ k : Fin K, x0 (ix2 (j 0) k) = A (ix2 (i 0) k)) (h1 : x1 = W) (h2 : x2 = R)
    (h3 : ∀ k : Fin N, x3 (ix2 k (j 1)) = W' (ix2 k (i 1)))
    (h4 : x4 (ix2 (0 : Fin 1) (j 1)) = R' (ix2 (0 : Fin 1) (i 1))) :
    lin (relu (lin x0 x1 (rowVec x2))) x3 (rowVec x4) j = lin (relu (lin A W (rowVec R))) W' (rowVec R') i := by
  subst h1
  subst h2
  show (∑ k : Fin N, relu (lin x0 x1 (rowVec x2)) (ix2 (j 0) k) * x3 (ix2 k (j 1))) + x4 (ix2 (0 : Fin 1) (j 1))
    = (∑ k : Fin N, relu (lin A x1 (rowVec x2)) (ix2 (i 0) k) * W' (ix2 k (i 1))) + R' (ix2 (0 : Fin 1) (i 1))
  rw [h4]
  refine congrArg (fun z => z + R' (ix2 (0 : Fin 1) (i 1))) (Finset.sum_congr rfl fun k _ => ?_)
  rw [h3 k]
  exact congrArg (fun z => z * W' (ix2 k (i 1)))
    (layer_block x0 x1 x2 A x1 x2 (ix2 (j 0) k) (ix2 (i 0) k) h0 (fun _ => rfl) rfl)

end Cert.Lib.RowLayers

end
-- ==== Proof.LibProductRows.lean ====
/-
  Matrix products and linear layers on a block of rows, as whole-array functions on the extended reals.

  * A matrix unit's product of two operands narrowed to a shorter float format, accumulated into zero, is the plain
    product `mm` of the operands: narrowing is the identity on extended reals.
  * An entry of a product depends on one row of the left operand and one column of the right: a block of rows of a
    taller array computes the entries of the whole array's product at those rows (`mm_block`), and the same for a
    product plus a 1 x N bias row (`lin_block`).
  * The host's product plus a bias broadcast in two steps is the linear layer `lin`, and a linear layer is the product
    with the row added.
-/
import Idealize.ShloMosaic.Lib.ValueIdx
import Idealize.ShloMosaic.Lib.Pipeline.Value
import Idealize.ShloMosaic.PureOps.Ideal.Laws
import proofs.«170367_j24137716203574_1_alg».proof.Proof.LibRowLayers

noncomputable section

open scoped BigOperators

namespace Cert.Lib.ProductRows

open Idealize.ShloMosaic Idealize.ShloMosaic.ValueIdx Cert.Lib.BiasDot Cert.Lib.Dense Cert.Lib.RowLayers

variable {m M K N : Nat}

/-- The product into zero of two narrowed operands is the plain product of the operands. -/
theorem narrowMatmul_eq_mm (d : DotDims ⟨2, ![M, K]⟩ ⟨2, ![K, N]⟩ ⟨2, ![M, N]⟩) (hd : d = DotDims.plain M K N)
    (x0 : FVec Ideal ⟨2, ![M, K]⟩ .f32) (x1 : FVec Ideal ⟨2, ![K, N]⟩ .f32)
    (hb0 hb1 : FTy.bf16.bits < FTy.f32.bits) :
    FloatOps.matmul d none (truncf .bf16 x0 hb0) (truncf .bf16 x1 hb1) (constant ⟨2, ![M, N]⟩ .f32 0x00000000#32)
      = mm x0 x1 := by
  subst hd
  funext i
  obtain ⟨p, q, rfl⟩ : ∃ (p : Fin M) (q : Fin N), i = ix2 p q := ⟨i 0, i 1, eq_ix2 i⟩
  rw [Cert.Lib.PlainDot.matmul_zero_apply]
  rfl

/-- A block of rows of a product: entry `j` of the block's product is entry `i` of the array's when the block's row
    `j 0` is the array's row `i 0` and the right operands agree on the column. -/
theorem mm_block (x0 : (⟨2, ![m, K]⟩ : Shape).Idx → EReal) (x1 : (⟨2, ![K, N]⟩ : Shape).Idx → EReal)
    (A : (⟨2, ![M, K]⟩ : Shape).Idx → EReal) (W : (⟨2, ![K, N]⟩ : Shape).Idx → EReal)
    (j : (⟨2, ![m, N]⟩ : Shape).Idx) (i : (⟨2, ![M, N]⟩ : Shape).Idx)
    (h0 : ∀ k : Fin K, x0 (ix2 (j 0) k) = A (ix2 (i 0) k)) (h1 : ∀ k : Fin K, x1 (ix2 k (j 1)) = W (ix2 k (i 1))) :
    mm x0 x1 j = mm A W i :=
  Finset.sum_congr rfl fun k _ => by rw [h0 k, h1 k]

/-- The same for a product plus a 1 x N bias row. -/
theorem lin_block (x0 : (⟨2, ![m, K]⟩ : Shape).Idx → EReal) (x1 : (⟨2, ![K, N]⟩ : Shape).Idx → EReal)
    (x2 : (⟨2, ![1, N]⟩ : Shape).Idx → EReal)
    (A : (⟨2, ![M, K]⟩ : Shape).Idx → EReal) (W : (⟨2, ![K, N]⟩ : Shape).Idx → EReal) (R : (⟨2, ![1, N]⟩ : Shape).Idx → EReal)
    (j : (⟨2, ![m, N]⟩ : Shape).Idx) (i : (⟨2, ![M, N]⟩ : Shape).Idx)
    (h0 : ∀ k : Fin K, x0 (ix2 (j 0) k) = A (ix2 (i 0) k)) (h1 : ∀ k : Fin K, x1 (ix2 k (j 1)) = W (ix2 k (i 1)))
    (h2 : x2 (ix2 (0 : Fin 1) (j 1)) = R (ix2 (0 : Fin 1) (i 1))) :
    lin x0 x1 (rowVec x2) j = lin A W (rowVec R) i := by
  show (∑ k : Fin K, x0 (ix2 (j 0) k) * x1 (ix2 k (j 1))) + x2 (ix2 (0 : Fin 1) (j 1))
    = (∑ k : Fin K, A (ix2 (i 0) k) * W (ix2 k (i 1))) + R (ix2 (0 : Fin 1) (i 1))
  rw [h2]
  exact congrArg (fun z => z + R (ix2 (0 : Fin 1) (i 1))) (Finset.sum_congr rfl fun k _ => by rw [h0 k, h1 k])

/-- The host's product plus a bias vector broadcast to a row and then down the rows is the linear layer. -/
theorem host_lin (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral d none X W)
        (broadcastInDim ⟨2, ![M, N]⟩ ![0, 1] h2 (broadcastInDim ⟨2, ![1, N]⟩ ![1] h1 B))
      = lin X W B := by
  rw [host_addRow, host_mm d hd]
  rfl

end Cert.Lib.ProductRows

end
-- ==== Proof.RegionValue0.lean ====
/-
  The first region of the kernel program as one function of whole arrays: the 60000 × 256 array it writes is the
  product of the 60000 × 64 array it reads and the 64 × 256 weight, plus the 1 × 256 bias row on every row.

  The region walks the rows in 30 blocks of 2000. At each block the body multiplies the block of rows by the whole
  weight and adds the bias row; an entry depends on one row of the left operand only, so the block's layer is the whole
  layer at those rows, and the 30 blocks cover every row.
-/
import proofs.«170367_j24137716203574_1_alg».proof.Proof.Gen.KernelIdeal.Frame
import proofs.«170367_j24137716203574_1_alg».proof.Proof.LibProductRows
import Idealize.ShloMosaic.Lib.Pipeline.Value
import Idealize.ShloMosaic.Lib.ValueIdx

noncomputable section

namespace Cert.KernelIdeal.RegionValue

open Cert.KernelIdeal Cert.KernelIdeal.Gen Idealize.ShloMosaic Idealize.ShloMosaic.TcCoe Idealize.ShloMosaic.ValueIdx
open Cert.Lib.BiasDot Cert.Lib.Dense Cert.Lib.RowLayers Cert.Lib.ProductRows
open Idealize.ShloMosaic.Pipeline (Dat)

variable (V : (c : Dev nD) → (b : Ref sig .tc) → Buf (Elt Ideal) ((c : Thread nD τ).loc b))

/-- The zero offsets of a whole-block access, as the constant function. -/
theorem zeroOff0 : (![0, 0] : Fin 2 → Nat) = fun _ => 0 := funext fun a => by fin_cases a <;> rfl

/-- The body's value: the linear layer of the block of rows, the weight and the bias row. -/
theorem body0_eq (x0 : Vec Ideal S2000x64 .f32) (x1 : Vec Ideal S64x256 .f32) (x2 : Vec Ideal S1x256 .f32) :
    k0_pay1 x0 x1 x2 = lin x0 x1 (rowVec x2) := by
  unfold k0_pay1
  exact linLayer_eq _ rfl x0 x1 x2 _ _ _ _

/-- The printed index maps over the 30 points: the row blocks move with the point, the weight and the bias row stay. -/
theorem index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The block of rows at point `t` reads the array at row `2000 t + p`. -/
theorem rows0 (c : Dev nD) (t : Fin cfg0.N) (y : S2000x64.Idx) (i : S60000x64.Idx)
    (h0 : (i 0).val = t.val * 2000 + (y 0).val) (h1 : (i 1).val = (y 1).val) :
    iblk0 (F := Ideal) V c 0 t y = V c main_arg0 i := by
  obtain ⟨e0, e1, -, -, -, -, -, -⟩ := index0 t
  show V c main_arg0 (((cfg0.win 0).blk t).view.emb y) = V c main_arg0 i
  refine congrArg (V c main_arg0) ?_
  funext a; apply Fin.ext
  match a with
  | ⟨0, _⟩ => show win0_0.index t (0 : Fin 2) * 2000 + 1 * (y 0).val = (i 0).val; omega
  | ⟨1, _⟩ => show win0_0.index t (1 : Fin 2) * 64 + 1 * (y 1).val = (i 1).val; omega

/-- The weight's block at every point is the whole weight. -/
theorem weight0 (c : Dev nD) (t : Fin cfg0.N) (y : S64x256.Idx) :
    iblk0 (F := Ideal) V c 1 t y = V c main_arg3 y := by
  obtain ⟨-, -, e2, e3, -, -, -, -⟩ := index0 t
  show V c main_arg3 (((cfg0.win 1).blk t).view.emb y) = V c main_arg3 y
  refine congrArg (V c main_arg3) ?_
  funext a; apply Fin.ext
  match a with
  | ⟨0, _⟩ => show win0_1.index t (0 : Fin 2) * 64 + 1 * (y 0).val = (y 0).val; omega
  | ⟨1, _⟩ => show win0_1.index t (1 : Fin 2) * 256 + 1 * (y 1).val = (y 1).val; omega

/-- The bias row's block at every point is the whole row. -/
theorem bias0 (c : Dev nD) (t : Fin cfg0.N) (y : S1x256.Idx) :
    iblk0 (F := Ideal) V c 2 t y = V c main_v4 y := by
  obtain ⟨-, -, -, -, e4, e5, -, -⟩ := index0 t
  show V c main_v4 (((cfg0.win 2).blk t).view.emb y) = V c main_v4 y
  refine congrArg (V c main_v4) ?_
  funext a; apply Fin.ext
  match a with
  | ⟨0, _⟩ => show win0_2.index t (0 : Fin 2) * 1 + 1 * (y 0).val = (y 0).val; omega
  | ⟨1, _⟩ => show win0_2.index t (1 : Fin 2) * 256 + 1 * (y 1).val = (y 1).val; omega

/-- A block's layer at entry `j` is the whole layer at the entry `i` with the same column and row `2000 t + j 0`. -/
theorem point0 (x0 : Vec Ideal S2000x64 .f32) (x1 : Vec Ideal S64x256 .f32) (x2 : Vec Ideal S1x256 .f32)
    (A : S60000x64.Idx → EReal) (W : S64x256.Idx → EReal) (B : S1x256.Idx → EReal) (j : S2000x256.Idx) (i : S60000x256.Idx)
    (h0 : ∀ k : Fin 64, x0 (ix2 (j 0) k) = A (ix2 (i 0) k)) (h1 : x1 = W) (h2 : x2 = B) (hc : (j 1).val = (i 1).val) :
    lin x0 x1 (rowVec x2) j = lin A W (rowVec B) i := by
  subst h1
  subst h2
  have hji : j 1 = i 1 := Fin.ext hc
  exact lin_block x0 x1 x2 A x1 x2 j i h0 (fun k => by rw [hji]) (by rw [hji])

/-- What point `t` writes back is its block of the whole layer. -/
theorem flushed0_eq (c : Dev nD) (t : Fin cfg0.N) :
    (dat0 (F := Ideal) V c).flushed 3 t
      = ((cfg0.win 3).blk t).view.read (Elt Ideal) (lin (V c main_arg0 : S60000x64.Idx → EReal) (V c main_arg3 : S64x256.Idx → EReal) (rowVec (V c main_v4 : S1x256.Idx → EReal)) : S60000x256.Idx → EReal) := by
  show (cfg0.win 3).cut (grid0.coords t) ((dat0 V c).after 3 t) = _
  rw [after0_3]
  unfold out0_3
  rw [View.canon_unit_zero zeroOff0]
  simp only [View.ld_unit_zero (S := S2000x64) zeroOff0, View.ld_unit_zero (S := S64x256) zeroOff0, View.ld_unit_zero (S := S1x256) zeroOff0]
  rw [body0_eq]
  obtain ⟨-, -, -, -, -, -, e6, e7⟩ := index0 t
  funext j
  show lin (iblk0 (F := Ideal) V c 0 t) (iblk0 (F := Ideal) V c 1 t) (rowVec (iblk0 (F := Ideal) V c 2 t)) j
    = lin (V c main_arg0 : S60000x64.Idx → EReal) (V c main_arg3 : S64x256.Idx → EReal) (rowVec (V c main_v4 : S1x256.Idx → EReal)) (((cfg0.win 3).blk t).view.emb j)
  have r0 : ((((cfg0.win 3).blk t).view.emb j) 0).val = t.val * 2000 + (j 0).val := by
    show win0_3.index t (0 : Fin 2) * 2000 + 1 * (j 0).val = _; omega
  have r1 : ((((cfg0.win 3).blk t).view.emb j) 1).val = (j 1).val := by
    show win0_3.index t (1 : Fin 2) * 256 + 1 * (j 1).val = _; omega
  refine point0 _ _ _ _ _ _ j _ (fun k => ?_) (funext fun y => weight0 V c t y) (funext fun y => bias0 V c t y) r1.symm
  exact rows0 V c t _ _ r0 rfl

/-- An index of the array is in point `t`'s block iff each coordinate is in the block's range on its axis. -/
theorem mem_blk0 (t : Fin cfg0.N) (i : S60000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v5).slice (win0_3.rect t)).set ↔ _
  rw [View.set_slice_whole, Rect.mem_set_unit]
  exact Iff.rfl

/-- Every row is in the block of the point `row / 2000`. -/
theorem cover0 (i : S60000x256.Idx) :
    ∃ t : Fin cfg0.N, (cfg0.win 3).flush t = true ∧ i ∈ ((cfg0.win 3).blk t).view.set := by
  have hi0 : (i 0).val < 60000 := (i 0).isLt
  have hi1 : (i 1).val < 256 := (i 1).isLt
  refine ⟨⟨(i 0).val / 2000, by show _ < 30; omega⟩, flush0_3 _, ?_⟩
  rw [mem_blk0]
  obtain ⟨-, -, -, -, -, -, e6, e7⟩ := index0 ⟨(i 0).val / 2000, by show _ < 30; omega⟩
  intro a
  match a with
  | ⟨0, _⟩ =>
    show win0_3.index _ (0 : Fin 2) * 2000 ≤ (i 0).val ∧ (i 0).val < win0_3.index _ (0 : Fin 2) * 2000 + 2000
    rw [e6]; show (i 0).val / 2000 * 2000 ≤ _ ∧ _ < (i 0).val / 2000 * 2000 + 2000; omega
  | ⟨1, _⟩ =>
    show win0_3.index _ (1 : Fin 2) * 256 ≤ (i 1).val ∧ (i 1).val < win0_3.index _ (1 : Fin 2) * 256 + 256
    rw [e7]; omega

/-- The array the first region leaves: the linear layer of the array it reads, the weight and the bias row. -/
theorem arr0 (c : Dev nD) :
    (dat0 (F := Ideal) V c).arrAt 3 cfg0.N
      = (lin (V c main_arg0 : S60000x64.Idx → EReal) (V c main_arg3 : S64x256.Idx → EReal) (rowVec (V c main_v4 : S1x256.Idx → EReal)) : S60000x256.Idx → EReal) :=
  (dat0 (F := Ideal) V c).arrAt_eq_of_cover 3 _ (fun t _ => flushed0_eq V c t) cover0

end Cert.KernelIdeal.RegionValue

end
-- ==== Proof.RegionValue1.lean ====
/-
  The second region of the kernel program as one function of whole arrays: the 20000 × 256 array it writes is the
  product of the 20000 × 128 array it reads and the 128 × 256 weight, plus the 1 × 256 bias row on every row.

  The region walks the rows in 10 blocks of 2000. At each block the body multiplies the block of rows by the whole
  weight and adds the bias row; an entry depends on one row of the left operand only, so the block's layer is the whole
  layer at those rows, and the 10 blocks cover every row.
-/
import proofs.«170367_j24137716203574_1_alg».proof.Proof.Gen.KernelIdeal.Frame
import proofs.«170367_j24137716203574_1_alg».proof.Proof.LibProductRows
import Idealize.ShloMosaic.Lib.Pipeline.Value
import Idealize.ShloMosaic.Lib.ValueIdx

noncomputable section

namespace Cert.KernelIdeal.RegionValue

open Cert.KernelIdeal Cert.KernelIdeal.Gen Idealize.ShloMosaic Idealize.ShloMosaic.TcCoe Idealize.ShloMosaic.ValueIdx
open Cert.Lib.BiasDot Cert.Lib.Dense Cert.Lib.RowLayers Cert.Lib.ProductRows
open Idealize.ShloMosaic.Pipeline (Dat)

variable (V : (c : Dev nD) → (b : Ref sig .tc) → Buf (Elt Ideal) ((c : Thread nD τ).loc b))

/-- The zero offsets of a whole-block access, as the constant function. -/
theorem zeroOff1 : (![0, 0] : Fin 2 → Nat) = fun _ => 0 := funext fun a => by fin_cases a <;> rfl

/-- The body's value: the linear layer of the block of rows, the weight and the bias row. -/
theorem body1_eq (x0 : Vec Ideal S2000x128 .f32) (x1 : Vec Ideal S128x256 .f32) (x2 : Vec Ideal S1x256 .f32) :
    k1_pay1 x0 x1 x2 = lin x0 x1 (rowVec x2) := by
  unfold k1_pay1
  exact linLayer_eq _ rfl x0 x1 x2 _ _ _ _

/-- The printed index maps over the 10 points: the row blocks move with the point, the weight and the bias row stay. -/
theorem index1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The block of rows at point `t` reads the array at row `2000 t + p`. -/
theorem rows1 (c : Dev nD) (t : Fin cfg1.N) (y : S2000x128.Idx) (i : S20000x128.Idx)
    (h0 : (i 0).val = t.val * 2000 + (y 0).val) (h1 : (i 1).val = (y 1).val) :
    iblk1 (F := Ideal) V c 0 t y = V c main_arg1 i := by
  obtain ⟨e0, e1, -, -, -, -, -, -⟩ := index1 t
  show V c main_arg1 (((cfg1.win 0).blk t).view.emb y) = V c main_arg1 i
  refine congrArg (V c main_arg1) ?_
  funext a; apply Fin.ext
  match a with
  | ⟨0, _⟩ => show win1_0.index t (0 : Fin 2) * 2000 + 1 * (y 0).val = (i 0).val; omega
  | ⟨1, _⟩ => show win1_0.index t (1 : Fin 2) * 128 + 1 * (y 1).val = (i 1).val; omega

/-- The weight's block at every point is the whole weight. -/
theorem weight1 (c : Dev nD) (t : Fin cfg1.N) (y : S128x256.Idx) :
    iblk1 (F := Ideal) V c 1 t y = V c main_arg5 y := by
  obtain ⟨-, -, e2, e3, -, -, -, -⟩ := index1 t
  show V c main_arg5 (((cfg1.win 1).blk t).view.emb y) = V c main_arg5 y
  refine congrArg (V c main_arg5) ?_
  funext a; apply Fin.ext
  match a with
  | ⟨0, _⟩ => show win1_1.index t (0 : Fin 2) * 128 + 1 * (y 0).val = (y 0).val; omega
  | ⟨1, _⟩ => show win1_1.index t (1 : Fin 2) * 256 + 1 * (y 1).val = (y 1).val; omega

/-- The bias row's block at every point is the whole row. -/
theorem bias1 (c : Dev nD) (t : Fin cfg1.N) (y : S1x256.Idx) :
    iblk1 (F := Ideal) V c 2 t y = V c main_v6 y := by
  obtain ⟨-, -, -, -, e4, e5, -, -⟩ := index1 t
  show V c main_v6 (((cfg1.win 2).blk t).view.emb y) = V c main_v6 y
  refine congrArg (V c main_v6) ?_
  funext a; apply Fin.ext
  match a with
  | ⟨0, _⟩ => show win1_2.index t (0 : Fin 2) * 1 + 1 * (y 0).val = (y 0).val; omega
  | ⟨1, _⟩ => show win1_2.index t (1 : Fin 2) * 256 + 1 * (y 1).val = (y 1).val; omega

/-- A block's layer at entry `j` is the whole layer at the entry `i` with the same column and row `2000 t + j 0`. -/
theorem point1 (x0 : Vec Ideal S2000x128 .f32) (x1 : Vec Ideal S128x256 .f32) (x2 : Vec Ideal S1x256 .f32)
    (A : S20000x128.Idx → EReal) (W : S128x256.Idx → EReal) (B : S1x256.Idx → EReal) (j : S2000x256.Idx) (i : S20000x256.Idx)
    (h0 : ∀ k : Fin 128, x0 (ix2 (j 0) k) = A (ix2 (i 0) k)) (h1 : x1 = W) (h2 : x2 = B) (hc : (j 1).val = (i 1).val) :
    lin x0 x1 (rowVec x2) j = lin A W (rowVec B) i := by
  subst h1
  subst h2
  have hji : j 1 = i 1 := Fin.ext hc
  exact lin_block x0 x1 x2 A x1 x2 j i h0 (fun k => by rw [hji]) (by rw [hji])

/-- What point `t` writes back is its block of the whole layer. -/
theorem flushed1_eq (c : Dev nD) (t : Fin cfg1.N) :
    (dat1 (F := Ideal) V c).flushed 3 t
      = ((cfg1.win 3).blk t).view.read (Elt Ideal) (lin (V c main_arg1 : S20000x128.Idx → EReal) (V c main_arg5 : S128x256.Idx → EReal) (rowVec (V c main_v6 : S1x256.Idx → EReal)) : S20000x256.Idx → EReal) := by
  show (cfg1.win 3).cut (grid1.coords t) ((dat1 V c).after 3 t) = _
  rw [after1_3]
  unfold out1_3
  rw [View.canon_unit_zero zeroOff1]
  simp only [View.ld_unit_zero (S := S2000x128) zeroOff1, View.ld_unit_zero (S := S128x256) zeroOff1, View.ld_unit_zero (S := S1x256) zeroOff1]
  rw [body1_eq]
  obtain ⟨-, -, -, -, -, -, e6, e7⟩ := index1 t
  funext j
  show lin (iblk1 (F := Ideal) V c 0 t) (iblk1 (F := Ideal) V c 1 t) (rowVec (iblk1 (F := Ideal) V c 2 t)) j
    = lin (V c main_arg1 : S20000x128.Idx → EReal) (V c main_arg5 : S128x256.Idx → EReal) (rowVec (V c main_v6 : S1x256.Idx → EReal)) (((cfg1.win 3).blk t).view.emb j)
  have r0 : ((((cfg1.win 3).blk t).view.emb j) 0).val = t.val * 2000 + (j 0).val := by
    show win1_3.index t (0 : Fin 2) * 2000 + 1 * (j 0).val = _; omega
  have r1 : ((((cfg1.win 3).blk t).view.emb j) 1).val = (j 1).val := by
    show win1_3.index t (1 : Fin 2) * 256 + 1 * (j 1).val = _; omega
  refine point1 _ _ _ _ _ _ j _ (fun k => ?_) (funext fun y => weight1 V c t y) (funext fun y => bias1 V c t y) r1.symm
  exact rows1 V c t _ _ r0 rfl

/-- An index of the array is in point `t`'s block iff each coordinate is in the block's range on its axis. -/
theorem mem_blk1 (t : Fin cfg1.N) (i : S20000x256.Idx) :
    i ∈ ((cfg1.win 3).blk t).view.set ↔ ∀ a : Fin 2, win1_3.index t a * S2000x256.size a ≤ (i a).val ∧ (i a).val < win1_3.index t a * S2000x256.size a + S2000x256.size a := by
  show i ∈ ((View.whole main_v7).slice (win1_3.rect t)).set ↔ _
  rw [View.set_slice_whole, Rect.mem_set_unit]
  exact Iff.rfl

/-- Every row is in the block of the point `row / 2000`. -/
theorem cover1 (i : S20000x256.Idx) :
    ∃ t : Fin cfg1.N, (cfg1.win 3).flush t = true ∧ i ∈ ((cfg1.win 3).blk t).view.set := by
  have hi0 : (i 0).val < 20000 := (i 0).isLt
  have hi1 : (i 1).val < 256 := (i 1).isLt
  refine ⟨⟨(i 0).val / 2000, by show _ < 10; omega⟩, flush1_3 _, ?_⟩
  rw [mem_blk1]
  obtain ⟨-, -, -, -, -, -, e6, e7⟩ := index1 ⟨(i 0).val / 2000, by show _ < 10; omega⟩
  intro a
  match a with
  | ⟨0, _⟩ =>
    show win1_3.index _ (0 : Fin 2) * 2000 ≤ (i 0).val ∧ (i 0).val < win1_3.index _ (0 : Fin 2) * 2000 + 2000
    rw [e6]; show (i 0).val / 2000 * 2000 ≤ _ ∧ _ < (i 0).val / 2000 * 2000 + 2000; omega
  | ⟨1, _⟩ =>
    show win1_3.index _ (1 : Fin 2) * 256 ≤ (i 1).val ∧ (i 1).val < win1_3.index _ (1 : Fin 2) * 256 + 256
    rw [e7]; omega

/-- The array the second region leaves: the linear layer of the array it reads, the weight and the bias row. -/
theorem arr1 (c : Dev nD) :
    (dat1 (F := Ideal) V c).arrAt 3 cfg1.N
      = (lin (V c main_arg1 : S20000x128.Idx → EReal) (V c main_arg5 : S128x256.Idx → EReal) (rowVec (V c main_v6 : S1x256.Idx → EReal)) : S20000x256.Idx → EReal) :=
  (dat1 (F := Ideal) V c).arrAt_eq_of_cover 3 _ (fun t _ => flushed1_eq V c t) cover1

end Cert.KernelIdeal.RegionValue

end
-- ==== Proof.RegionValue2.lean ====
/-
  The third region of the kernel program as one function of whole arrays: the 80000 × 256 array it writes is the
  plain product of the 80000 × 256 array it reads and the 256 × 256 weight.

  The region walks the rows in 40 blocks of 2000. At each block the body multiplies the block of rows by the whole
  weight; an entry of a product depends on one row of the left operand only, so the block's product is the whole
  product at those rows, and the 40 blocks cover every row.
-/
import proofs.«170367_j24137716203574_1_alg».proof.Proof.Gen.KernelIdeal.Frame
import proofs.«170367_j24137716203574_1_alg».proof.Proof.LibProductRows
import Idealize.ShloMosaic.Lib.Pipeline.Value
import Idealize.ShloMosaic.Lib.ValueIdx

noncomputable section

namespace Cert.KernelIdeal.RegionValue

open Cert.KernelIdeal Cert.KernelIdeal.Gen Idealize.ShloMosaic Idealize.ShloMosaic.TcCoe Idealize.ShloMosaic.ValueIdx
open Cert.Lib.BiasDot Cert.Lib.Dense Cert.Lib.RowLayers Cert.Lib.ProductRows
open Idealize.ShloMosaic.Pipeline (Dat)

variable (V : (c : Dev nD) → (b : Ref sig .tc) → Buf (Elt Ideal) ((c : Thread nD τ).loc b))

/-- The zero offsets of a whole-block access, as the constant function. -/
theorem zeroOff2 : (![0, 0] : Fin 2 → Nat) = fun _ => 0 := funext fun a => by fin_cases a <;> rfl

/-- The body's value: the product of the block of rows and the weight. -/
theorem body2_eq (x0 : Vec Ideal S2000x256 .f32) (x1 : Vec Ideal S256x256 .f32) : k2_pay1 x0 x1 = mm x0 x1 := by
  unfold k2_pay1
  rw [shapeCast_self]
  exact narrowMatmul_eq_mm _ rfl x0 x1 _ _

/-- The printed index maps over the 40 points: the row blocks move with the point, the weight stays. -/
theorem index2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The block of rows at point `t` reads the array at row `2000 t + p`. -/
theorem rows2 (c : Dev nD) (t : Fin cfg2.N) (y : S2000x256.Idx) (i : S80000x256.Idx)
    (h0 : (i 0).val = t.val * 2000 + (y 0).val) (h1 : (i 1).val = (y 1).val) :
    iblk2 (F := Ideal) V c 0 t y = V c main_v8 i := by
  obtain ⟨e0, e1, -, -, -, -⟩ := index2 t
  show V c main_v8 (((cfg2.win 0).blk t).view.emb y) = V c main_v8 i
  refine congrArg (V c main_v8) ?_
  funext a; apply Fin.ext
  match a with
  | ⟨0, _⟩ => show win2_0.index t (0 : Fin 2) * 2000 + 1 * (y 0).val = (i 0).val; omega
  | ⟨1, _⟩ => show win2_0.index t (1 : Fin 2) * 256 + 1 * (y 1).val = (i 1).val; omega

/-- The weight's block at every point is the whole weight. -/
theorem weight2 (c : Dev nD) (t : Fin cfg2.N) (y : S256x256.Idx) :
    iblk2 (F := Ideal) V c 1 t y = V c main_arg7 y := by
  obtain ⟨-, -, e2, e3, -, -⟩ := index2 t
  show V c main_arg7 (((cfg2.win 1).blk t).view.emb y) = V c main_arg7 y
  refine congrArg (V c main_arg7) ?_
  funext a; apply Fin.ext
  match a with
  | ⟨0, _⟩ => show win2_1.index t (0 : Fin 2) * 256 + 1 * (y 0).val = (y 0).val; omega
  | ⟨1, _⟩ => show win2_1.index t (1 : Fin 2) * 256 + 1 * (y 1).val = (y 1).val; omega

/-- A block's product at entry `j` is the whole product at the entry `i` with the same column and row `2000 t + j 0`. -/
theorem point2 (x0 : Vec Ideal S2000x256 .f32) (x1 : Vec Ideal S256x256 .f32)
    (A : S80000x256.Idx → EReal) (W : S256x256.Idx → EReal) (j : S2000x256.Idx) (i : S80000x256.Idx)
    (h0 : ∀ k : Fin 256, x0 (ix2 (j 0) k) = A (ix2 (i 0) k)) (h1 : x1 = W) (hc : (j 1).val = (i 1).val) :
    mm x0 x1 j = mm A W i := by
  subst h1
  have hji : j 1 = i 1 := Fin.ext hc
  exact mm_block x0 x1 A x1 j i h0 (fun k => by rw [hji])

/-- What point `t` writes back is its block of the whole product. -/
theorem flushed2_eq (c : Dev nD) (t : Fin cfg2.N) :
    (dat2 (F := Ideal) V c).flushed 2 t
      = ((cfg2.win 2).blk t).view.read (Elt Ideal) (mm (V c main_v8 : S80000x256.Idx → EReal) (V c main_arg7 : S256x256.Idx → EReal) : S80000x256.Idx → EReal) := by
  show (cfg2.win 2).cut (grid2.coords t) ((dat2 V c).after 2 t) = _
  rw [after2_2]
  unfold out2_2
  rw [View.canon_unit_zero zeroOff2]
  simp only [View.ld_unit_zero (S := S2000x256) zeroOff2, View.ld_unit_zero (S := S256x256) zeroOff2]
  rw [body2_eq]
  obtain ⟨-, -, -, -, e4, e5⟩ := index2 t
  funext j
  show mm (iblk2 (F := Ideal) V c 0 t) (iblk2 (F := Ideal) V c 1 t) j
    = mm (V c main_v8 : S80000x256.Idx → EReal) (V c main_arg7 : S256x256.Idx → EReal) (((cfg2.win 2).blk t).view.emb j)
  have r0 : ((((cfg2.win 2).blk t).view.emb j) 0).val = t.val * 2000 + (j 0).val := by
    show win2_2.index t (0 : Fin 2) * 2000 + 1 * (j 0).val = _; omega
  have r1 : ((((cfg2.win 2).blk t).view.emb j) 1).val = (j 1).val := by
    show win2_2.index t (1 : Fin 2) * 256 + 1 * (j 1).val = _; omega
  refine point2 _ _ _ _ j _ (fun k => ?_) (funext fun y => weight2 V c t y) r1.symm
  exact rows2 V c t _ _ r0 rfl

/-- An index of the array is in point `t`'s block iff each coordinate is in the block's range on its axis. -/
theorem mem_blk2 (t : Fin cfg2.N) (i : S80000x256.Idx) :
    i ∈ ((cfg2.win 2).blk t).view.set ↔ ∀ a : Fin 2, win2_2.index t a * S2000x256.size a ≤ (i a).val ∧ (i a).val < win2_2.index t a * S2000x256.size a + S2000x256.size a := by
  show i ∈ ((View.whole main_v9).slice (win2_2.rect t)).set ↔ _
  rw [View.set_slice_whole, Rect.mem_set_unit]
  exact Iff.rfl

/-- Every row is in the block of the point `row / 2000`. -/
theorem cover2 (i : S80000x256.Idx) :
    ∃ t : Fin cfg2.N, (cfg2.win 2).flush t = true ∧ i ∈ ((cfg2.win 2).blk t).view.set := by
  have hi0 : (i 0).val < 80000 := (i 0).isLt
  have hi1 : (i 1).val < 256 := (i 1).isLt
  refine ⟨⟨(i 0).val / 2000, by show _ < 40; omega⟩, flush2_2 _, ?_⟩
  rw [mem_blk2]
  obtain ⟨-, -, -, -, e4, e5⟩ := index2 ⟨(i 0).val / 2000, by show _ < 40; omega⟩
  intro a
  match a with
  | ⟨0, _⟩ =>
    show win2_2.index _ (0 : Fin 2) * 2000 ≤ (i 0).val ∧ (i 0).val < win2_2.index _ (0 : Fin 2) * 2000 + 2000
    rw [e4]; show (i 0).val / 2000 * 2000 ≤ _ ∧ _ < (i 0).val / 2000 * 2000 + 2000; omega
  | ⟨1, _⟩ =>
    show win2_2.index _ (1 : Fin 2) * 256 ≤ (i 1).val ∧ (i 1).val < win2_2.index _ (1 : Fin 2) * 256 + 256
    rw [e5]; omega

/-- The array the third region leaves: the product of the array it reads and the weight. -/
theorem arr2 (c : Dev nD) :
    (dat2 (F := Ideal) V c).arrAt 2 cfg2.N
      = (mm (V c main_v8 : S80000x256.Idx → EReal) (V c main_arg7 : S256x256.Idx → EReal) : S80000x256.Idx → EReal) :=
  (dat2 (F := Ideal) V c).arrAt_eq_of_cover 2 _ (fun t _ => flushed2_eq V c t) cover2

end Cert.KernelIdeal.RegionValue

end
-- ==== Proof.LibBnRelu.lean ====
/-
  Normalisation of the columns of a matrix, then the positive part, as one function of whole arrays on the extended reals.

  A matrix with `M` rows and `N` columns, and four vectors of length `N` — a mean, a variance, a scale and a shift per
  column — give the matrix whose entry `(p, q)` is the larger of `0` and
  `(z (p, q) − mean q) · rsqrt (var q + ε) · scale q + shift q`, where `rsqrt` is the reciprocal square root of the
  extended reals and `ε` is the value of one fixed 32-bit pattern, kept as that pattern's value and never evaluated.

  Three spellings are that function:
  * a vector unit's, on a block of rows: the four vectors arrive as `1 × N` rows, each repeated down the rows, the
    reciprocal square root taken on the row before it is repeated;
  * the same on a block of `m` rows of a taller matrix: an entry depends on its own entry of the matrix and on its
    column of the vectors only, so a block of rows computes the whole matrix's entries at those rows;
  * the host's: each vector broadcast to a `1 × N` row and then down the rows, `ε` and `0` broadcast from scalars,
    and the host's reciprocal square root, which on the extended reals is the same function as the vector unit's.
-/
import Idealize.ShloMosaic.Lib.ValueIdx
import Idealize.ShloMosaic.Lib.Pipeline.Value
import Idealize.ShloMosaic.PureOps.Ideal.Laws
import proofs.«170367_j24137716203574_1_alg».proof.Proof.LibRowLayers

noncomputable section

open scoped BigOperators

namespace Cert.Lib.BnRelu

open Idealize.ShloMosaic Idealize.ShloMosaic.ValueIdx Cert.Lib.BiasDot Cert.Lib.Dense Cert.Lib.RowLayers

variable {m M N : Nat}

/-- Column normalisation, scale, shift and positive part: entry `(p, q)` is
    `max ((z (p, q) − mu q) · rsqrt (var q + ε) · g q + b q) 0`. -/
def bnRelu (z : (⟨2, ![M, N]⟩ : Shape).Idx → EReal) (mu var g b : (⟨1, ![N]⟩ : Shape).Idx → EReal) :
    (⟨2, ![M, N]⟩ : Shape).Idx → EReal :=
  fun i => max ((((z i) - mu (ix1 (i 1))) * Ideal.rsqrt (var (ix1 (i 1)) + Ideal.ofBits .f32 0x3727C5AC#32)) * g (ix1 (i 1))
    + b (ix1 (i 1))) 0

theorem bnRelu_apply (z : (⟨2, ![M, N]⟩ : Shape).Idx → EReal) (mu var g b : (⟨1, ![N]⟩ : Shape).Idx → EReal)
    (p : Fin M) (q : Fin N) :
    bnRelu z mu var g b (ix2 p q)
      = max ((((z (ix2 p q)) - mu (ix1 q)) * Ideal.rsqrt (var (ix1 q) + Ideal.ofBits .f32 0x3727C5AC#32)) * g (ix1 q) + b (ix1 q)) 0 :=
  rfl

/-- A `1 × N` row repeated down `M` rows reads, at `(p, q)`, the row at `q`. -/
theorem rowOnly_apply {α : Type} (R : (⟨2, ![1, N]⟩ : Shape).Idx → α)
    (hb : (⟨2, ![1, N]⟩ : Shape).Broadcasts ⟨2, ![M, N]⟩) (p : Fin M) (q : Fin N) :
    broadcastTo ⟨2, ![M, N]⟩ R hb (ix2 p q) = R (ix2 (0 : Fin 1) q) := by
  refine broadcastTo_apply _ hb (ix2 p q) (ix2 (0 : Fin 1) q) (fun a => ?_)
  match a with
  | ⟨0, _⟩ => exact (if_pos rfl).symm
  | ⟨1, _⟩ =>
    show q.val = if N = 1 then 0 else q.val
    split
    · have := q.isLt; omega
    · rfl

/-- The vector unit's spelling on a block: the rows repeated down the block, the reciprocal square root taken on the
    variance row plus the splat `ε`, the maximum with a splat zero. -/
theorem body_eq (z : FVec Ideal ⟨2, ![M, N]⟩ .f32) (rvar rmean rg rb : FVec Ideal ⟨2, ![1, N]⟩ .f32)
    (hz : (⟨2, ![M, N]⟩ : Shape).ShapeCasts ⟨2, ![M, N]⟩)
    (hr : (⟨2, ![1, N]⟩ : Shape).ShapeCasts ⟨2, ![1, N]⟩) (hbr : (⟨2, ![1, N]⟩ : Shape).Broadcasts ⟨2, ![M, N]⟩) :
    maximumf
        (addf
          (mulf
            (mulf (subf (shapeCast ⟨2, ![M, N]⟩ z hz) (broadcastTo ⟨2, ![M, N]⟩ (shapeCast ⟨2, ![1, N]⟩ rmean hr) hbr))
              (broadcastTo ⟨2, ![M, N]⟩
                (rsqrt (addf (shapeCast ⟨2, ![1, N]⟩ rvar hr)
                  (broadcast ⟨2, ![1, N]⟩ (Scalar.ofBits (F := Ideal) .f32 0x3727C5AC#32)))) hbr))
            (broadcastTo ⟨2, ![M, N]⟩ (shapeCast ⟨2, ![1, N]⟩ rg hr) hbr))
          (broadcastTo ⟨2, ![M, N]⟩ (shapeCast ⟨2, ![1, N]⟩ rb hr) hbr))
        (broadcast ⟨2, ![M, N]⟩ (Scalar.ofBits (F := Ideal) .f32 0x00000000#32))
      = bnRelu z (rowVec rmean) (rowVec rvar) (rowVec rg) (rowVec rb) := by
  funext i
  obtain ⟨p, q, rfl⟩ : ∃ (p : Fin M) (q : Fin N), i = ix2 p q := ⟨i 0, i 1, eq_ix2 i⟩
  simp only [shapeCast_self]
  rw [maximumf_apply, addf_apply, mulf_apply, mulf_apply, subf_apply, broadcast_apply,
    rowOnly_apply rmean, rowOnly_apply rg, rowOnly_apply rb, rowOnly_apply (rsqrt _)]
  show max (((z (ix2 p q) - rmean (ix2 (0 : Fin 1) q))
      * Ideal.rsqrt (rvar (ix2 (0 : Fin 1) q) + Ideal.ofBits .f32 0x3727C5AC#32)) * rg (ix2 (0 : Fin 1) q)
      + rb (ix2 (0 : Fin 1) q)) (Ideal.ofBits .f32 0x00000000#32) = _
  rw [Ideal.ofBits_zero_f32]
  rfl

/-- A block of rows: entry `j` of the block's function is entry `i` of the whole matrix's when the matrix entries
    agree and the columns agree. -/
theorem bnRelu_block (zb : (⟨2, ![m, N]⟩ : Shape).Idx → EReal) (Z : (⟨2, ![M, N]⟩ : Shape).Idx → EReal)
    (mu var g b : (⟨1, ![N]⟩ : Shape).Idx → EReal)
    (j : (⟨2, ![m, N]⟩ : Shape).Idx) (i : (⟨2, ![M, N]⟩ : Shape).Idx)
    (hz : zb j = Z i) (hc : (j 1).val = (i 1).val) :
    bnRelu zb mu var g b j = bnRelu Z mu var g b i := by
  have hji : j 1 = i 1 := Fin.ext hc
  show max ((((zb j) - mu (ix1 (j 1))) * Ideal.rsqrt (var (ix1 (j 1)) + Ideal.ofBits .f32 0x3727C5AC#32)) * g (ix1 (j 1))
      + b (ix1 (j 1))) 0
    = max ((((Z i) - mu (ix1 (i 1))) * Ideal.rsqrt (var (ix1 (i 1)) + Ideal.ofBits .f32 0x3727C5AC#32)) * g (ix1 (i 1))
      + b (ix1 (i 1))) 0
  rw [hz, hji]

/-- A scalar constant broadcast to any shape is its value everywhere. -/
theorem hostConst_apply {t : Shape} (bits : BitVec FTy.f32.bits) (dims : Fin 0 → Fin t.rank)
    (h : (⟨0, ![]⟩ : Shape).BroadcastsInDim t dims) (j : t.Idx) :
    broadcastInDim t dims h (constant (F := Ideal) ⟨0, ![]⟩ .f32 bits) j = Ideal.ofBits .f32 bits := by
  refine (broadcastInDim_apply (s := ⟨0, ![]⟩) dims h _ j (fun a => a.elim0) (fun a => a.elim0)).trans ?_
  rw [constant_apply]

/-- The host's spelling: every vector broadcast to a row and then down the rows, `ε` and `0` broadcast from scalars,
    the host's reciprocal square root on the vector. -/
theorem host_eq (Z : FVec Ideal ⟨2, ![M, N]⟩ .f32) (mu var g b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (dimsE : Fin 0 → Fin 1) (hE : (⟨0, ![]⟩ : Shape).BroadcastsInDim ⟨1, ![N]⟩ dimsE)
    (dims0 : Fin 0 → Fin 2) (h0 : (⟨0, ![]⟩ : Shape).BroadcastsInDim ⟨2, ![M, N]⟩ dims0) :
    maximumf
        (addf
          (mulf
            (mulf (subf Z (broadcastInDim ⟨2, ![M, N]⟩ ![0, 1] h2 (broadcastInDim ⟨2, ![1, N]⟩ ![1] h1 mu)))
              (broadcastInDim ⟨2, ![M, N]⟩ ![0, 1] h2 (broadcastInDim ⟨2, ![1, N]⟩ ![1] h1
                (Host.rsqrt (addf var (broadcastInDim ⟨1, ![N]⟩ dimsE hE (constant ⟨0, ![]⟩ .f32 0x3727C5AC#32)))))))
            (broadcastInDim ⟨2, ![M, N]⟩ ![0, 1] h2 (broadcastInDim ⟨2, ![1, N]⟩ ![1] h1 g)))
          (broadcastInDim ⟨2, ![M, N]⟩ ![0, 1] h2 (broadcastInDim ⟨2, ![1, N]⟩ ![1] h1 b)))
        (broadcastInDim ⟨2, ![M, N]⟩ dims0 h0 (constant ⟨0, ![]⟩ .f32 0x00000000#32))
      = bnRelu Z mu var g b := by
  funext i
  obtain ⟨p, q, rfl⟩ : ∃ (p : Fin M) (q : Fin N), i = ix2 p q := ⟨i 0, i 1, eq_ix2 i⟩
  rw [maximumf_apply, addf_apply, mulf_apply, mulf_apply, subf_apply, hostZero_apply,
    hostRow_apply mu, hostRow_apply g, hostRow_apply b, hostRow_apply (Host.rsqrt _)]
  show max (((Z (ix2 p q) - mu (ix1 q))
      * Ideal.rsqrt (var (ix1 q) + broadcastInDim ⟨1, ![N]⟩ dimsE hE (constant (F := Ideal) ⟨0, ![]⟩ .f32 0x3727C5AC#32) (ix1 q)))
      * g (ix1 q) + b (ix1 q)) 0 = _
  rw [hostConst_apply]
  rfl

end Cert.Lib.BnRelu

end
-- ==== Proof.RegionValue3.lean ====
/-
  The fourth region of the kernel program as one function of whole arrays: the 80000 × 256 array it writes is the
  column normalisation, scale, shift and positive part of the 80000 × 256 array it reads, by the four 1 × 256 rows
  (mean, variance, scale, shift) it reads.

  The region walks the rows in 40 blocks of 2000. At each block the body normalises the block of rows by the whole
  rows; an entry depends on its own entry of the array and on its column of the rows only, so the block's result is
  the whole result at those rows, and the 40 blocks cover every row.
-/
import proofs.«170367_j24137716203574_1_alg».proof.Proof.Gen.KernelIdeal.Frame
import proofs.«170367_j24137716203574_1_alg».proof.Proof.LibProductRows
import proofs.«170367_j24137716203574_1_alg».proof.Proof.LibBnRelu
import Idealize.ShloMosaic.Lib.Pipeline.Value
import Idealize.ShloMosaic.Lib.ValueIdx

noncomputable section

namespace Cert.KernelIdeal.RegionValue

open Cert.KernelIdeal Cert.KernelIdeal.Gen Idealize.ShloMosaic Idealize.ShloMosaic.TcCoe Idealize.ShloMosaic.ValueIdx
open Cert.Lib.BiasDot Cert.Lib.Dense Cert.Lib.RowLayers Cert.Lib.ProductRows Cert.Lib.BnRelu
open Idealize.ShloMosaic.Pipeline (Dat)

variable (V : (c : Dev nD) → (b : Ref sig .tc) → Buf (Elt Ideal) ((c : Thread nD τ).loc b))

/-- The zero offsets of a whole-block access, as the constant function. -/
theorem zeroOff3 : (![0, 0] : Fin 2 → Nat) = fun _ => 0 := funext fun a => by fin_cases a <;> rfl

/-- The body's value: the normalisation of the block of rows by the mean, variance, scale and shift rows (the body
    reads the variance row first, then the mean row). -/
theorem body3_eq (x0 : Vec Ideal S2000x256 .f32) (xvar xmean xg xb : Vec Ideal S1x256 .f32) :
    k3_pay1 x0 xvar xmean xg xb = bnRelu x0 (rowVec xmean) (rowVec xvar) (rowVec xg) (rowVec xb) := by
  unfold k3_pay1
  exact body_eq x0 xvar xmean xg xb _ _ _

/-- The printed index maps over the 40 points: the row blocks move with the point, the four rows stay. -/
theorem index3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The block of rows at point `t` reads the array at row `2000 t + p`. -/
theorem rows3 (c : Dev nD) (t : Fin cfg3.N) (y : S2000x256.Idx) (i : S80000x256.Idx)
    (h0 : (i 0).val = t.val * 2000 + (y 0).val) (h1 : (i 1).val = (y 1).val) :
    iblk3 (F := Ideal) V c 0 t y = V c main_v48 i := by
  obtain ⟨e0, e1, -⟩ := index3 t
  show V c main_v48 (((cfg3.win 0).blk t).view.emb y) = V c main_v48 i
  refine congrArg (V c main_v48) ?_
  funext a; apply Fin.ext
  match a with
  | ⟨0, _⟩ => show win3_0.index t (0 : Fin 2) * 2000 + 1 * (y 0).val = (i 0).val; omega
  | ⟨1, _⟩ => show win3_0.index t (1 : Fin 2) * 256 + 1 * (y 1).val = (i 1).val; omega

/-- The mean row's block at every point is the whole row. -/
theorem mean3 (c : Dev nD) (t : Fin cfg3.N) (y : S1x256.Idx) :
    iblk3 (F := Ideal) V c 1 t y = V c main_v53 y := by
  obtain ⟨-, -, e0, e1, -⟩ := index3 t
  show V c main_v53 (((cfg3.win 1).blk t).view.emb y) = V c main_v53 y
  refine congrArg (V c main_v53) ?_
  funext a; apply Fin.ext
  match a with
  | ⟨0, _⟩ => show win3_1.index t (0 : Fin 2) * 1 + 1 * (y 0).val = (y 0).val; omega
  | ⟨1, _⟩ => show win3_1.index t (1 : Fin 2) * 256 + 1 * (y 1).val = (y 1).val; omega

/-- The variance row's block at every point is the whole row. -/
theorem var3 (c : Dev nD) (t : Fin cfg3.N) (y : S1x256.Idx) :
    iblk3 (F := Ideal) V c 2 t y = V c main_v54 y := by
  obtain ⟨-, -, -, -, e0, e1, -⟩ := index3 t
  show V c main_v54 (((cfg3.win 2).blk t).view.emb y) = V c main_v54 y
  refine congrArg (V c main_v54) ?_
  funext a; apply Fin.ext
  match a with
  | ⟨0, _⟩ => show win3_2.index t (0 : Fin 2) * 1 + 1 * (y 0).val = (y 0).val; omega
  | ⟨1, _⟩ => show win3_2.index t (1 : Fin 2) * 256 + 1 * (y 1).val = (y 1).val; omega

/-- The scale row's block at every point is the whole row. -/
theorem scale3 (c : Dev nD) (t : Fin cfg3.N) (y : S1x256.Idx) :
    iblk3 (F := Ideal) V c 3 t y = V c main_v55 y := by
  obtain ⟨-, -, -, -, -, -, e0, e1, -⟩ := index3 t
  show V c main_v55 (((cfg3.win 3).blk t).view.emb y) = V c main_v55 y
  refine congrArg (V c main_v55) ?_
  funext a; apply Fin.ext
  match a with
  | ⟨0, _⟩ => show win3_3.index t (0 : Fin 2) * 1 + 1 * (y 0).val = (y 0).val; omega
  | ⟨1, _⟩ => show win3_3.index t (1 : Fin 2) * 256 + 1 * (y 1).val = (y 1).val; omega

/-- The shift row's block at every point is the whole row. -/
theorem shift3 (c : Dev nD) (t : Fin cfg3.N) (y : S1x256.Idx) :
    iblk3 (F := Ideal) V c 4 t y = V c main_v56 y := by
  obtain ⟨-, -, -, -, -, -, -, -, e0, e1, -⟩ := index3 t
  show V c main_v56 (((cfg3.win 4).blk t).view.emb y) = V c main_v56 y
  refine congrArg (V c main_v56) ?_
  funext a; apply Fin.ext
  match a with
  | ⟨0, _⟩ => show win3_4.index t (0 : Fin 2) * 1 + 1 * (y 0).val = (y 0).val; omega
  | ⟨1, _⟩ => show win3_4.index t (1 : Fin 2) * 256 + 1 * (y 1).val = (y 1).val; omega

/-- A block's result at entry `j` is the whole result at the entry `i` holding the same array entry in the same column. -/
theorem point3 (x0 : Vec Ideal S2000x256 .f32) (x1 x2 x3 x4 : Vec Ideal S1x256 .f32)
    (Z : S80000x256.Idx → EReal) (R1 R2 R3 R4 : S1x256.Idx → EReal) (j : S2000x256.Idx) (i : S80000x256.Idx)
    (h0 : x0 j = Z i) (h1 : x1 = R1) (h2 : x2 = R2) (h3 : x3 = R3) (h4 : x4 = R4) (hc : (j 1).val = (i 1).val) :
    bnRelu x0 (rowVec x1) (rowVec x2) (rowVec x3) (rowVec x4) j = bnRelu Z (rowVec R1) (rowVec R2) (rowVec R3) (rowVec R4) i := by
  subst h1
  subst h2
  subst h3
  subst h4
  exact bnRelu_block x0 Z _ _ _ _ j i h0 hc

/-- What point `t` writes back is its block of the whole result. -/
theorem flushed3_eq (c : Dev nD) (t : Fin cfg3.N) :
    (dat3 (F := Ideal) V c).flushed 5 t
      = ((cfg3.win 5).blk t).view.read (Elt Ideal) (bnRelu (V c main_v48 : S80000x256.Idx → EReal) (rowVec (V c main_v53 : S1x256.Idx → EReal)) (rowVec (V c main_v54 : S1x256.Idx → EReal)) (rowVec (V c main_v55 : S1x256.Idx → EReal)) (rowVec (V c main_v56 : S1x256.Idx → EReal)) : S80000x256.Idx → EReal) := by
  show (cfg3.win 5).cut (grid3.coords t) ((dat3 V c).after 5 t) = _
  rw [after3_5]
  unfold out3_5
  rw [View.canon_unit_zero zeroOff3]
  simp only [View.ld_unit_zero (S := S2000x256) zeroOff3, View.ld_unit_zero (S := S1x256) zeroOff3]
  rw [body3_eq]
  obtain ⟨-, -, -, -, -, -, -, -, -, -, e10, e11⟩ := index3 t
  funext j
  show bnRelu (iblk3 (F := Ideal) V c 0 t) (rowVec (iblk3 (F := Ideal) V c 1 t)) (rowVec (iblk3 (F := Ideal) V c 2 t)) (rowVec (iblk3 (F := Ideal) V c 3 t)) (rowVec (iblk3 (F := Ideal) V c 4 t)) j
    = bnRelu (V c main_v48 : S80000x256.Idx → EReal) (rowVec (V c main_v53 : S1x256.Idx → EReal)) (rowVec (V c main_v54 : S1x256.Idx → EReal)) (rowVec (V c main_v55 : S1x256.Idx → EReal)) (rowVec (V c main_v56 : S1x256.Idx → EReal)) (((cfg3.win 5).blk t).view.emb j)
  have r0 : ((((cfg3.win 5).blk t).view.emb j) 0).val = t.val * 2000 + (j 0).val := by
    show win3_5.index t (0 : Fin 2) * 2000 + 1 * (j 0).val = _; omega
  have r1 : ((((cfg3.win 5).blk t).view.emb j) 1).val = (j 1).val := by
    show win3_5.index t (1 : Fin 2) * 256 + 1 * (j 1).val = _; omega
  exact point3 _ _ _ _ _ _ _ _ _ _ j _ (rows3 V c t j _ r0 r1) (funext fun y => mean3 V c t y) (funext fun y => var3 V c t y)
    (funext fun y => scale3 V c t y) (funext fun y => shift3 V c t y) r1.symm

/-- An index of the array is in point `t`'s block iff each coordinate is in the block's range on its axis. -/
theorem mem_blk3 (t : Fin cfg3.N) (i : S80000x256.Idx) :
    i ∈ ((cfg3.win 5).blk t).view.set ↔ ∀ a : Fin 2, win3_5.index t a * S2000x256.size a ≤ (i a).val ∧ (i a).val < win3_5.index t a * S2000x256.size a + S2000x256.size a := by
  show i ∈ ((View.whole main_v57).slice (win3_5.rect t)).set ↔ _
  rw [View.set_slice_whole, Rect.mem_set_unit]
  exact Iff.rfl

/-- Every row is in the block of the point `row / 2000`. -/
theorem cover3 (i : S80000x256.Idx) :
    ∃ t : Fin cfg3.N, (cfg3.win 5).flush t = true ∧ i ∈ ((cfg3.win 5).blk t).view.set := by
  have hi0 : (i 0).val < 80000 := (i 0).isLt
  have hi1 : (i 1).val < 256 := (i 1).isLt
  refine ⟨⟨(i 0).val / 2000, by show _ < 40; omega⟩, flush3_5 _, ?_⟩
  rw [mem_blk3]
  obtain ⟨-, -, -, -, -, -, -, -, -, -, e10, e11⟩ := index3 ⟨(i 0).val / 2000, by show _ < 40; omega⟩
  intro a
  match a with
  | ⟨0, _⟩ =>
    show win3_5.index _ (0 : Fin 2) * 2000 ≤ (i 0).val ∧ (i 0).val < win3_5.index _ (0 : Fin 2) * 2000 + 2000
    rw [e10]; show (i 0).val / 2000 * 2000 ≤ _ ∧ _ < (i 0).val / 2000 * 2000 + 2000; omega
  | ⟨1, _⟩ =>
    show win3_5.index _ (1 : Fin 2) * 256 ≤ (i 1).val ∧ (i 1).val < win3_5.index _ (1 : Fin 2) * 256 + 256
    rw [e11]; omega

/-- The array the fourth region leaves: the normalisation, scale, shift and positive part of the array it reads. -/
theorem arr3 (c : Dev nD) :
    (dat3 (F := Ideal) V c).arrAt 5 cfg3.N
      = (bnRelu (V c main_v48 : S80000x256.Idx → EReal) (rowVec (V c main_v53 : S1x256.Idx → EReal)) (rowVec (V c main_v54 : S1x256.Idx → EReal)) (rowVec (V c main_v55 : S1x256.Idx → EReal)) (rowVec (V c main_v56 : S1x256.Idx → EReal)) : S80000x256.Idx → EReal) :=
  (dat3 (F := Ideal) V c).arrAt_eq_of_cover 5 _ (fun t _ => flushed3_eq V c t) cover3

end Cert.KernelIdeal.RegionValue

end
-- ==== Proof.RegionValue4.lean ====
/-
  The fifth region of the kernel program as one function of whole arrays: the 80000 × 128 array it writes is the
  plain product of the 80000 × 256 array it reads and the 256 × 128 weight.

  The region walks the rows in 40 blocks of 2000. At each block the body multiplies the block of rows by the whole
  weight; an entry of a product depends on one row of the left operand only, so the block's product is the whole
  product at those rows, and the 40 blocks cover every row.
-/
import proofs.«170367_j24137716203574_1_alg».proof.Proof.Gen.KernelIdeal.Frame
import proofs.«170367_j24137716203574_1_alg».proof.Proof.LibProductRows
import Idealize.ShloMosaic.Lib.Pipeline.Value
import Idealize.ShloMosaic.Lib.ValueIdx

noncomputable section

namespace Cert.KernelIdeal.RegionValue

open Cert.KernelIdeal Cert.KernelIdeal.Gen Idealize.ShloMosaic Idealize.ShloMosaic.TcCoe Idealize.ShloMosaic.ValueIdx
open Cert.Lib.BiasDot Cert.Lib.Dense Cert.Lib.RowLayers Cert.Lib.ProductRows
open Idealize.ShloMosaic.Pipeline (Dat)

variable (V : (c : Dev nD) → (b : Ref sig .tc) → Buf (Elt Ideal) ((c : Thread nD τ).loc b))

/-- The zero offsets of a whole-block access, as the constant function. -/
theorem zeroOff4 : (![0, 0] : Fin 2 → Nat) = fun _ => 0 := funext fun a => by fin_cases a <;> rfl

/-- The body's value: the product of the block of rows and the weight. -/
theorem body4_eq (x0 : Vec Ideal S2000x256 .f32) (x1 : Vec Ideal S256x128 .f32) : k4_pay1 x0 x1 = mm x0 x1 := by
  unfold k4_pay1
  rw [shapeCast_self]
  exact narrowMatmul_eq_mm _ rfl x0 x1 _ _

/-- The printed index maps over the 40 points: the row blocks move with the point, the weight stays. -/
theorem index4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The block of rows at point `t` reads the array at row `2000 t + p`. -/
theorem rows4 (c : Dev nD) (t : Fin cfg4.N) (y : S2000x256.Idx) (i : S80000x256.Idx)
    (h0 : (i 0).val = t.val * 2000 + (y 0).val) (h1 : (i 1).val = (y 1).val) :
    iblk4 (F := Ideal) V c 0 t y = V c main_v57 i := by
  obtain ⟨e0, e1, -, -, -, -⟩ := index4 t
  show V c main_v57 (((cfg4.win 0).blk t).view.emb y) = V c main_v57 i
  refine congrArg (V c main_v57) ?_
  funext a; apply Fin.ext
  match a with
  | ⟨0, _⟩ => show win4_0.index t (0 : Fin 2) * 2000 + 1 * (y 0).val = (i 0).val; omega
  | ⟨1, _⟩ => show win4_0.index t (1 : Fin 2) * 256 + 1 * (y 1).val = (i 1).val; omega

/-- The weight's block at every point is the whole weight. -/
theorem weight4 (c : Dev nD) (t : Fin cfg4.N) (y : S256x128.Idx) :
    iblk4 (F := Ideal) V c 1 t y = V c main_arg9 y := by
  obtain ⟨-, -, e2, e3, -, -⟩ := index4 t
  show V c main_arg9 (((cfg4.win 1).blk t).view.emb y) = V c main_arg9 y
  refine congrArg (V c main_arg9) ?_
  funext a; apply Fin.ext
  match a with
  | ⟨0, _⟩ => show win4_1.index t (0 : Fin 2) * 256 + 1 * (y 0).val = (y 0).val; omega
  | ⟨1, _⟩ => show win4_1.index t (1 : Fin 2) * 128 + 1 * (y 1).val = (y 1).val; omega

/-- A block's product at entry `j` is the whole product at the entry `i` with the same column and row `2000 t + j 0`. -/
theorem point4 (x0 : Vec Ideal S2000x256 .f32) (x1 : Vec Ideal S256x128 .f32)
    (A : S80000x256.Idx → EReal) (W : S256x128.Idx → EReal) (j : S2000x128.Idx) (i : S80000x128.Idx)
    (h0 : ∀ k : Fin 256, x0 (ix2 (j 0) k) = A (ix2 (i 0) k)) (h1 : x1 = W) (hc : (j 1).val = (i 1).val) :
    mm x0 x1 j = mm A W i := by
  subst h1
  have hji : j 1 = i 1 := Fin.ext hc
  exact mm_block x0 x1 A x1 j i h0 (fun k => by rw [hji])

/-- What point `t` writes back is its block of the whole product. -/
theorem flushed4_eq (c : Dev nD) (t : Fin cfg4.N) :
    (dat4 (F := Ideal) V c).flushed 2 t
      = ((cfg4.win 2).blk t).view.read (Elt Ideal) (mm (V c main_v57 : S80000x256.Idx → EReal) (V c main_arg9 : S256x128.Idx → EReal) : S80000x128.Idx → EReal) := by
  show (cfg4.win 2).cut (grid4.coords t) ((dat4 V c).after 2 t) = _
  rw [after4_2]
  unfold out4_2
  rw [View.canon_unit_zero zeroOff4]
  simp only [View.ld_unit_zero (S := S2000x256) zeroOff4, View.ld_unit_zero (S := S256x128) zeroOff4]
  rw [body4_eq]
  obtain ⟨-, -, -, -, e4, e5⟩ := index4 t
  funext j
  show mm (iblk4 (F := Ideal) V c 0 t) (iblk4 (F := Ideal) V c 1 t) j
    = mm (V c main_v57 : S80000x256.Idx → EReal) (V c main_arg9 : S256x128.Idx → EReal) (((cfg4.win 2).blk t).view.emb j)
  have r0 : ((((cfg4.win 2).blk t).view.emb j) 0).val = t.val * 2000 + (j 0).val := by
    show win4_2.index t (0 : Fin 2) * 2000 + 1 * (j 0).val = _; omega
  have r1 : ((((cfg4.win 2).blk t).view.emb j) 1).val = (j 1).val := by
    show win4_2.index t (1 : Fin 2) * 128 + 1 * (j 1).val = _; omega
  refine point4 _ _ _ _ j _ (fun k => ?_) (funext fun y => weight4 V c t y) r1.symm
  exact rows4 V c t _ _ r0 rfl

/-- An index of the array is in point `t`'s block iff each coordinate is in the block's range on its axis. -/
theorem mem_blk4 (t : Fin cfg4.N) (i : S80000x128.Idx) :
    i ∈ ((cfg4.win 2).blk t).view.set ↔ ∀ a : Fin 2, win4_2.index t a * S2000x128.size a ≤ (i a).val ∧ (i a).val < win4_2.index t a * S2000x128.size a + S2000x128.size a := by
  show i ∈ ((View.whole main_v58).slice (win4_2.rect t)).set ↔ _
  rw [View.set_slice_whole, Rect.mem_set_unit]
  exact Iff.rfl

/-- Every row is in the block of the point `row / 2000`. -/
theorem cover4 (i : S80000x128.Idx) :
    ∃ t : Fin cfg4.N, (cfg4.win 2).flush t = true ∧ i ∈ ((cfg4.win 2).blk t).view.set := by
  have hi0 : (i 0).val < 80000 := (i 0).isLt
  have hi1 : (i 1).val < 128 := (i 1).isLt
  refine ⟨⟨(i 0).val / 2000, by show _ < 40; omega⟩, flush4_2 _, ?_⟩
  rw [mem_blk4]
  obtain ⟨-, -, -, -, e4, e5⟩ := index4 ⟨(i 0).val / 2000, by show _ < 40; omega⟩
  intro a
  match a with
  | ⟨0, _⟩ =>
    show win4_2.index _ (0 : Fin 2) * 2000 ≤ (i 0).val ∧ (i 0).val < win4_2.index _ (0 : Fin 2) * 2000 + 2000
    rw [e4]; show (i 0).val / 2000 * 2000 ≤ _ ∧ _ < (i 0).val / 2000 * 2000 + 2000; omega
  | ⟨1, _⟩ =>
    show win4_2.index _ (1 : Fin 2) * 128 ≤ (i 1).val ∧ (i 1).val < win4_2.index _ (1 : Fin 2) * 128 + 128
    rw [e5]; omega

/-- The array the fifth region leaves: the product of the array it reads and the weight. -/
theorem arr4 (c : Dev nD) :
    (dat4 (F := Ideal) V c).arrAt 2 cfg4.N
      = (mm (V c main_v57 : S80000x256.Idx → EReal) (V c main_arg9 : S256x128.Idx → EReal) : S80000x128.Idx → EReal) :=
  (dat4 (F := Ideal) V c).arrAt_eq_of_cover 2 _ (fun t _ => flushed4_eq V c t) cover4

end Cert.KernelIdeal.RegionValue

end
-- ==== Proof.KNet.lean ====
/-
  The idealized kernel's buffers at the segment boundaries, as values.

  Each pallas region's result array is a whole-array function of the region's input arrays as the region finds them; the
  host operations between regions reshape a bias vector to a row, stack two arrays, or leave things alone. Walking @main
  from the launch: the two input layers are `x · W + b` of the arguments, their stacking feeds the first convolution's
  product, and so on — each boundary's contents at the buffer the next segment reads.
-/
import proofs.«170367_j24137716203574_1_alg».proof.Proof.KCarry
import proofs.«170367_j24137716203574_1_alg».proof.Proof.RegionValue0
import proofs.«170367_j24137716203574_1_alg».proof.Proof.RegionValue1
import proofs.«170367_j24137716203574_1_alg».proof.Proof.RegionValue2
import proofs.«170367_j24137716203574_1_alg».proof.Proof.RegionValue3
import proofs.«170367_j24137716203574_1_alg».proof.Proof.RegionValue4
import proofs.«170367_j24137716203574_1_alg».proof.Proof.LibBnRelu
import proofs.«170367_j24137716203574_1_alg».proof.Proof.LibAfter

set_option maxRecDepth 16384

noncomputable section

namespace Cert.KernelIdeal.Net

open Cert.KernelIdeal Cert.KernelIdeal.Gen Cert.KernelIdeal.Carry Cert.KernelIdeal.RegionValue
open Idealize.ShloMosaic Idealize.ShloMosaic.TcCoe Idealize.ShloMosaic.StableHlo Idealize.ShloMosaic.ValueIdx
open Cert.Lib.BiasDot Cert.Lib.Dense Cert.Lib.RowLayers Cert.Lib.ProductRows Cert.Lib.BnRelu

variable (m : (ℓ : Loc nD τ sig) → Buf (Elt Ideal) ℓ) (ρ : Dev nD → PrngReg) (c : Dev nD)

/-- The first bias vector, laid out as a row by the host before region 0. -/
theorem row4 : (W1 m ρ c (Proc.devRef .tc main_v4) : S1x256.Idx → EReal)
    = shapeCast S1x256 (m ((c : Thread nD τ).loc main_arg4) : S256.Idx → EReal) shapeCasts_S256_S1x256 := by
  show after hostOps0 (W0 m ρ c) (Proc.devRef .tc main_v4) = _
  read_fold
  rfl

/-- Region 0's result: the first input layer of the arguments. -/
theorem layer1 : (W2 m ρ c (Proc.devRef .tc main_v5) : S60000x256.Idx → EReal)
    = lin (m ((c : Thread nD τ).loc main_arg0)) (m ((c : Thread nD τ).loc main_arg3)) (m ((c : Thread nD τ).loc main_arg4)) := by
  refine (W2_arr m ρ c 3).trans ((arr0 (V1 m ρ) c).trans ?_)
  have h0 : (V1 m ρ c main_arg0 : S60000x64.Idx → EReal) = m ((c : Thread nD τ).loc main_arg0) := k1 m ρ c main_arg0 (by decide)
  have h3 : (V1 m ρ c main_arg3 : S64x256.Idx → EReal) = m ((c : Thread nD τ).loc main_arg3) := k1 m ρ c main_arg3 (by decide)
  have h4 : rowVec (V1 m ρ c main_v4 : S1x256.Idx → EReal) = m ((c : Thread nD τ).loc main_arg4) := by
    rw [show (V1 m ρ c main_v4 : S1x256.Idx → EReal) = _ from row4 m ρ c]
    exact rowVec_reshape _ _
  rw [h0, h3, h4]

/-- The second bias vector, laid out as a row by the host before region 1. -/
theorem row6 : (W3 m ρ c (Proc.devRef .tc main_v6) : S1x256.Idx → EReal)
    = shapeCast S1x256 (m ((c : Thread nD τ).loc main_arg6) : S256.Idx → EReal) shapeCasts_S256_S1x256 := by
  show after hostOps1 (W2 m ρ c) (Proc.devRef .tc main_v6) = _
  read_fold
  rw [((k2 m ρ c main_arg6 (by decide)).trans (k1 m ρ c main_arg6 (by decide)))]
  rfl

/-- Region 1's result: the second input layer of the arguments. -/
theorem layer2 : (W4 m ρ c (Proc.devRef .tc main_v7) : S20000x256.Idx → EReal)
    = lin (m ((c : Thread nD τ).loc main_arg1)) (m ((c : Thread nD τ).loc main_arg5)) (m ((c : Thread nD τ).loc main_arg6)) := by
  refine (W4_arr m ρ c 3).trans ((arr1 (V3 m ρ) c).trans ?_)
  have h1 : (V3 m ρ c main_arg1 : S20000x128.Idx → EReal) = m ((c : Thread nD τ).loc main_arg1) := ((k3 m ρ c main_arg1 (by decide)).trans ((k2 m ρ c main_arg1 (by decide)).trans (k1 m ρ c main_arg1 (by decide))))
  have h5 : (V3 m ρ c main_arg5 : S128x256.Idx → EReal) = m ((c : Thread nD τ).loc main_arg5) := ((k3 m ρ c main_arg5 (by decide)).trans ((k2 m ρ c main_arg5 (by decide)).trans (k1 m ρ c main_arg5 (by decide))))
  have h6 : rowVec (V3 m ρ c main_v6 : S1x256.Idx → EReal) = m ((c : Thread nD τ).loc main_arg6) := by
    rw [show (V3 m ρ c main_v6 : S1x256.Idx → EReal) = _ from row6 m ρ c]
    exact rowVec_reshape _ _
  rw [h1, h5, h6]

/-- Two tables of 256 columns stacked, 60000 rows over 20000. -/
def stack (a : S60000x256.Idx → EReal) (b : S20000x256.Idx → EReal) : S80000x256.Idx → EReal :=
  concatenate S80000x256 0 [⟨S60000x256, a⟩, ⟨S20000x256, b⟩] concatenates_S60000x256_S20000x256_S80000x256_d0

/-- The two input layers stacked: what the first convolution's product reads. -/
theorem stacked : (W5 m ρ c (Proc.devRef .tc main_v8) : S80000x256.Idx → EReal)
    = stack (lin (m ((c : Thread nD τ).loc main_arg0)) (m ((c : Thread nD τ).loc main_arg3)) (m ((c : Thread nD τ).loc main_arg4)))
        (lin (m ((c : Thread nD τ).loc main_arg1)) (m ((c : Thread nD τ).loc main_arg5)) (m ((c : Thread nD τ).loc main_arg6))) := by
  show after hostOps2 (W4 m ρ c) (Proc.devRef .tc main_v8) = _
  read_fold
  rw [((k4 m ρ c main_v5 (by decide)).trans (k3 m ρ c main_v5 (by decide))), show (W2 m ρ c (Proc.devRef .tc main_v5) : S60000x256.Idx → EReal) = _ from layer1 m ρ c,
    show (W4 m ρ c (Proc.devRef .tc main_v7) : S20000x256.Idx → EReal) = _ from layer2 m ρ c]
  rfl

/-- Region 2's result: the stacked layers times the first convolution's weight. -/
theorem prod1 : (W6 m ρ c (Proc.devRef .tc main_v9) : S80000x256.Idx → EReal)
    = mm (stack (lin (m ((c : Thread nD τ).loc main_arg0)) (m ((c : Thread nD τ).loc main_arg3)) (m ((c : Thread nD τ).loc main_arg4)))
        (lin (m ((c : Thread nD τ).loc main_arg1)) (m ((c : Thread nD τ).loc main_arg5)) (m ((c : Thread nD τ).loc main_arg6)))) (m ((c : Thread nD τ).loc main_arg7)) := by
  refine (W6_arr m ρ c 2).trans ((arr2 (V5 m ρ) c).trans ?_)
  have h8 : (V5 m ρ c main_v8 : S80000x256.Idx → EReal) = _ := stacked m ρ c
  have h7 : (V5 m ρ c main_arg7 : S256x256.Idx → EReal) = m ((c : Thread nD τ).loc main_arg7) := ((k5 m ρ c main_arg7 (by decide)).trans ((k4 m ρ c main_arg7 (by decide)).trans ((k3 m ρ c main_arg7 (by decide)).trans ((k2 m ρ c main_arg7 (by decide)).trans (k1 m ρ c main_arg7 (by decide))))))
  rw [h8, h7]

/-- The edge rows and the first convolution's bias, as the first message passing finds them. -/
theorem src_at6 : W6 m ρ c (Proc.devRef .tc main_v1) = W1 m ρ c (Proc.devRef .tc main_v1) := ((k6 m ρ c main_v1 (by decide)).trans ((k5 m ρ c main_v1 (by decide)).trans ((k4 m ρ c main_v1 (by decide)).trans ((k3 m ρ c main_v1 (by decide)).trans (k2 m ρ c main_v1 (by decide))))))
theorem dst_at6 : W6 m ρ c (Proc.devRef .tc main_v3) = W1 m ρ c (Proc.devRef .tc main_v3) := ((k6 m ρ c main_v3 (by decide)).trans ((k5 m ρ c main_v3 (by decide)).trans ((k4 m ρ c main_v3 (by decide)).trans ((k3 m ρ c main_v3 (by decide)).trans (k2 m ρ c main_v3 (by decide))))))
theorem bias_at6 : W6 m ρ c (Proc.devRef .tc main_arg8) = m ((c : Thread nD τ).loc main_arg8) := ((k6 m ρ c main_arg8 (by decide)).trans ((k5 m ρ c main_arg8 (by decide)).trans ((k4 m ρ c main_arg8 (by decide)).trans ((k3 m ρ c main_arg8 (by decide)).trans ((k2 m ρ c main_arg8 (by decide)).trans (k1 m ρ c main_arg8 (by decide)))))))

/-- The table and its column means survive the variance's operations. -/
theorem table_at8 : W8 m ρ c (Proc.devRef .tc main_v48) = W7 m ρ c (Proc.devRef .tc main_v48) := (k8 m ρ c main_v48 (by decide))
theorem mean_at8 : W8 m ρ c (Proc.devRef .tc main_v51) = W7 m ρ c (Proc.devRef .tc main_v51) := (k8 m ρ c main_v51 (by decide))

/-- The four rows the host lays out before region 3 (means, variances, scales, shifts), each read back as a vector: a
    vector reshaped to a row and read as a vector again is itself. Stated from any buffer contents. -/
theorem rows_read (V : Valuation τ sig (Elt Ideal)) :
    rowVec (after hostOps3_2 V (Proc.devRef .tc main_v53) : S1x256.Idx → EReal) = (V (Proc.devRef .tc main_v51) : S256.Idx → EReal)
    ∧ rowVec (after hostOps3_2 V (Proc.devRef .tc main_v54) : S1x256.Idx → EReal) = (V (Proc.devRef .tc main_v52) : S256.Idx → EReal)
    ∧ rowVec (after hostOps3_2 V (Proc.devRef .tc main_v55) : S1x256.Idx → EReal) = (V (Proc.devRef .tc main_arg11) : S256.Idx → EReal)
    ∧ rowVec (after hostOps3_2 V (Proc.devRef .tc main_v56) : S1x256.Idx → EReal) = (V (Proc.devRef .tc main_arg12) : S256.Idx → EReal) := by
  refine ⟨?_, ?_, ?_, ?_⟩ <;> read_fold <;> exact rowVec_reshape _ _

theorem row53 : rowVec (W9 m ρ c (Proc.devRef .tc main_v53) : S1x256.Idx → EReal) = (W7 m ρ c (Proc.devRef .tc main_v51) : S256.Idx → EReal) :=
  (rows_read (W8 m ρ c)).1.trans (mean_at8 m ρ c)
theorem row54 : rowVec (W9 m ρ c (Proc.devRef .tc main_v54) : S1x256.Idx → EReal) = (W8 m ρ c (Proc.devRef .tc main_v52) : S256.Idx → EReal) :=
  (rows_read (W8 m ρ c)).2.1
theorem row55 : rowVec (W9 m ρ c (Proc.devRef .tc main_v55) : S1x256.Idx → EReal) = (m ((c : Thread nD τ).loc main_arg11) : S256.Idx → EReal) :=
  (rows_read (W8 m ρ c)).2.2.1.trans ((k8 m ρ c main_arg11 (by decide)).trans ((k7 m ρ c main_arg11 (by decide)).trans ((k6 m ρ c main_arg11 (by decide)).trans ((k5 m ρ c main_arg11 (by decide)).trans ((k4 m ρ c main_arg11 (by decide)).trans ((k3 m ρ c main_arg11 (by decide)).trans ((k2 m ρ c main_arg11 (by decide)).trans (k1 m ρ c main_arg11 (by decide)))))))))
theorem row56 : rowVec (W9 m ρ c (Proc.devRef .tc main_v56) : S1x256.Idx → EReal) = (m ((c : Thread nD τ).loc main_arg12) : S256.Idx → EReal) :=
  (rows_read (W8 m ρ c)).2.2.2.trans ((k8 m ρ c main_arg12 (by decide)).trans ((k7 m ρ c main_arg12 (by decide)).trans ((k6 m ρ c main_arg12 (by decide)).trans ((k5 m ρ c main_arg12 (by decide)).trans ((k4 m ρ c main_arg12 (by decide)).trans ((k3 m ρ c main_arg12 (by decide)).trans ((k2 m ρ c main_arg12 (by decide)).trans (k1 m ρ c main_arg12 (by decide)))))))))

/-- Region 3's result: the table normalised column by column with its means and variances, scaled, shifted, and its
    positive part taken. -/
theorem normed : (W10 m ρ c (Proc.devRef .tc main_v57) : S80000x256.Idx → EReal)
    = bnRelu (W7 m ρ c (Proc.devRef .tc main_v48)) (W7 m ρ c (Proc.devRef .tc main_v51)) (W8 m ρ c (Proc.devRef .tc main_v52))
        (m ((c : Thread nD τ).loc main_arg11)) (m ((c : Thread nD τ).loc main_arg12)) := by
  refine (W10_arr m ρ c 5).trans ((arr3 (V9 m ρ) c).trans ?_)
  have h48 : (V9 m ρ c main_v48 : S80000x256.Idx → EReal) = W7 m ρ c (Proc.devRef .tc main_v48) := ((k9 m ρ c main_v48 (by decide)).trans (k8 m ρ c main_v48 (by decide)))
  rw [h48, show rowVec (V9 m ρ c main_v53 : S1x256.Idx → EReal) = _ from row53 m ρ c, show rowVec (V9 m ρ c main_v54 : S1x256.Idx → EReal) = _ from row54 m ρ c,
    show rowVec (V9 m ρ c main_v55 : S1x256.Idx → EReal) = _ from row55 m ρ c, show rowVec (V9 m ρ c main_v56 : S1x256.Idx → EReal) = _ from row56 m ρ c]

/-- Region 4's result: the normalised table times the second convolution's weight. -/
theorem prod2 : (W11 m ρ c (Proc.devRef .tc main_v58) : S80000x128.Idx → EReal)
    = mm (W10 m ρ c (Proc.devRef .tc main_v57) : S80000x256.Idx → EReal) (m ((c : Thread nD τ).loc main_arg9)) := by
  refine (W11_arr m ρ c 2).trans ((arr4 (V10 m ρ) c).trans ?_)
  have h9 : (V10 m ρ c main_arg9 : S256x128.Idx → EReal) = m ((c : Thread nD τ).loc main_arg9) := ((k10 m ρ c main_arg9 (by decide)).trans ((k9 m ρ c main_arg9 (by decide)).trans ((k8 m ρ c main_arg9 (by decide)).trans ((k7 m ρ c main_arg9 (by decide)).trans ((k6 m ρ c main_arg9 (by decide)).trans ((k5 m ρ c main_arg9 (by decide)).trans ((k4 m ρ c main_arg9 (by decide)).trans ((k3 m ρ c main_arg9 (by decide)).trans ((k2 m ρ c main_arg9 (by decide)).trans (k1 m ρ c main_arg9 (by decide)))))))))))
  rw [h9]

/-- The edge rows and the second convolution's bias, as the second message passing finds them. -/
theorem src_at11 : W11 m ρ c (Proc.devRef .tc main_v1) = W1 m ρ c (Proc.devRef .tc main_v1) := ((k11 m ρ c main_v1 (by decide)).trans ((k10 m ρ c main_v1 (by decide)).trans ((k9 m ρ c main_v1 (by decide)).trans ((k8 m ρ c main_v1 (by decide)).trans ((k7 m ρ c main_v1 (by decide)).trans ((k6 m ρ c main_v1 (by decide)).trans ((k5 m ρ c main_v1 (by decide)).trans ((k4 m ρ c main_v1 (by decide)).trans ((k3 m ρ c main_v1 (by decide)).trans (k2 m ρ c main_v1 (by decide)))))))))))
theorem dst_at11 : W11 m ρ c (Proc.devRef .tc main_v3) = W1 m ρ c (Proc.devRef .tc main_v3) := ((k11 m ρ c main_v3 (by decide)).trans ((k10 m ρ c main_v3 (by decide)).trans ((k9 m ρ c main_v3 (by decide)).trans ((k8 m ρ c main_v3 (by decide)).trans ((k7 m ρ c main_v3 (by decide)).trans ((k6 m ρ c main_v3 (by decide)).trans ((k5 m ρ c main_v3 (by decide)).trans ((k4 m ρ c main_v3 (by decide)).trans ((k3 m ρ c main_v3 (by decide)).trans (k2 m ρ c main_v3 (by decide)))))))))))
theorem bias_at11 : W11 m ρ c (Proc.devRef .tc main_arg10) = m ((c : Thread nD τ).loc main_arg10) := ((k11 m ρ c main_arg10 (by decide)).trans ((k10 m ρ c main_arg10 (by decide)).trans ((k9 m ρ c main_arg10 (by decide)).trans ((k8 m ρ c main_arg10 (by decide)).trans ((k7 m ρ c main_arg10 (by decide)).trans ((k6 m ρ c main_arg10 (by decide)).trans ((k5 m ρ c main_arg10 (by decide)).trans ((k4 m ρ c main_arg10 (by decide)).trans ((k3 m ρ c main_arg10 (by decide)).trans ((k2 m ρ c main_arg10 (by decide)).trans (k1 m ρ c main_arg10 (by decide))))))))))))

end Cert.KernelIdeal.Net

end
-- ==== Proof.LibTyped.lean ====
/-
  The contents of a typed reference, transported to its buffer's type and back.

  A value of an outlined function is held at a typed reference: its contents are carried to the buffer's own
  type (`toBuf`) when written and back (`ofBuf`) when read, both along the reference's type equation. Carried
  there and back — a result written by one operation and read by the next — they are unchanged. Stated for any
  typed reference, so a rewriting pass can drop every such pair without computing a buffer's type.
-/
import Idealize.ShloMosaic.Lib.StableHlo

namespace Cert.Lib.Typed

open Idealize.ShloMosaic Idealize.ShloMosaic.StableHlo

variable {sig : RefSig} {Val : EltTy → Type} {T : BufTy}

/-- Written to the buffer's type and read back at the value's type: unchanged. -/
theorem ofBuf_toBuf (x : TRef sig T) (v : T.Contents Val) : x.ofBuf (x.toBuf v) = v := by
  obtain ⟨r, h, h1, h2⟩ := x
  subst h
  rfl

/-- Read at the value's type and written back to the buffer's type: unchanged. -/
theorem toBuf_ofBuf (x : TRef sig T) (v : x.ref.ty.Contents Val) : x.toBuf (x.ofBuf v) = v := by
  obtain ⟨r, h, h1, h2⟩ := x
  subst h
  rfl

end Cert.Lib.Typed
-- ==== Proof.RNet.lean ====
/-
  The idealized reference's buffers at the stage boundaries, as values.

  The reference is one line of host operations cut into stages. Walking it from the launch: each input layer is the
  product of an argument with its weight plus the bias broadcast down the rows, `x · W + b`; the two layers' rows are
  stacked; the stack times the first convolution's weight; after the first message passing and the column statistics,
  the table is normalised column by column, scaled, shifted and its positive part taken; that times the second
  convolution's weight. Each boundary's contents are stated at the buffer the next stage reads, and the buffers a later
  stage reads unchanged are carried there.
-/
import proofs.«170367_j24137716203574_1_alg».proof.Proof.RCarry
import proofs.«170367_j24137716203574_1_alg».proof.Proof.LibProductRows
import proofs.«170367_j24137716203574_1_alg».proof.Proof.LibBnRelu
import proofs.«170367_j24137716203574_1_alg».proof.Proof.LibTyped
import Idealize.ShloMosaic.PureOps.Ideal

set_option maxRecDepth 16384

noncomputable section

namespace Cert.ReferenceIdeal.Net

open Cert.ReferenceIdeal Cert.ReferenceIdeal.Gen Cert.ReferenceIdeal.Run Cert.ReferenceIdeal.Carry
open Idealize.ShloMosaic Idealize.ShloMosaic.TcCoe Idealize.ShloMosaic.StableHlo Idealize.ShloMosaic.ValueIdx
open Cert.Lib.BiasDot Cert.Lib.Dense Cert.Lib.RowLayers Cert.Lib.ProductRows Cert.Lib.BnRelu

variable (m : (ℓ : Loc nD τ sig) → Buf (Elt Ideal) ℓ) (c : Dev nD)

/-! ## Each stage read at its result buffer, from any contents before it -/

section Stages

variable (X : Valuation τ sig (Elt Ideal))

/-- The first input layer's stage leaves `x · W + b` of the three buffers it reads. -/
theorem read_layer1 : (after rL1 X (Proc.devRef .tc main_v7) : S60000x256.Idx → EReal)
    = lin (X (Proc.devRef .tc main_arg0)) (X (Proc.devRef .tc main_arg3)) (X (Proc.devRef .tc main_arg4)) := by
  read_fold
  exact host_lin _ rfl _ _ _ _ _

/-- The second input layer's stage leaves `x · W + b` of the three buffers it reads. -/
theorem read_layer2 : (after rL2 X (Proc.devRef .tc main_v11) : S20000x256.Idx → EReal)
    = lin (X (Proc.devRef .tc main_arg1)) (X (Proc.devRef .tc main_arg5)) (X (Proc.devRef .tc main_arg6)) := by
  read_fold
  exact host_lin _ rfl _ _ _ _ _

/-- The stacking stage leaves the first table's rows over the second's. -/
theorem read_stacked : (after rCat X (Proc.devRef .tc main_v12) : S80000x256.Idx → EReal)
    = concatenate S80000x256 0 [⟨S60000x256, (X (Proc.devRef .tc main_v7))⟩, ⟨S20000x256, (X (Proc.devRef .tc main_v11))⟩] concatenates_S60000x256_S20000x256_S80000x256_d0 := by
  read_fold

/-- The first product's stage leaves the table times the weight. -/
theorem read_prod1 : (after rMM1 X (Proc.devRef .tc main_v13) : S80000x256.Idx → EReal)
    = mm ((X (Proc.devRef .tc main_v12)) : S80000x256.Idx → EReal) (X (Proc.devRef .tc main_arg7)) := by
  read_fold
  exact host_mm _ rfl _ _

/-- The normalisation stage leaves the table normalised column by column by the means and variances it reads, scaled,
    shifted, and its positive part taken. -/
theorem read_normed : (after rBN X (Proc.devRef .tc main_v72) : S80000x256.Idx → EReal)
    = bnRelu (X (Proc.devRef .tc main_v52)) (X (Proc.devRef .tc main_v55)) (X (Proc.devRef .tc main_v56)) (X (Proc.devRef .tc main_arg11)) (X (Proc.devRef .tc main_arg12)) := by
  read_fold
  simp only [Cert.Lib.Typed.ofBuf_toBuf, Cert.Lib.Typed.toBuf_ofBuf]
  exact host_eq _ _ _ _ _ _ _ _ _ _ _

/-- The second product's stage leaves the table times the weight. -/
theorem read_prod2 : (after rMM2 X (Proc.devRef .tc main_v73) : S80000x128.Idx → EReal)
    = mm ((X (Proc.devRef .tc main_v72)) : S80000x256.Idx → EReal) (X (Proc.devRef .tc main_arg9)) := by
  read_fold
  exact host_mm _ rfl _ _

end Stages

/-! ## The boundaries' contents -/

/-- The first input layer: the first argument times its weight, plus its bias on every row. -/
theorem layer1 : (Q2 m c (Proc.devRef .tc main_v7) : S60000x256.Idx → EReal)
    = lin (m ((c.tc : Thread nD τ).loc main_arg0)) (m ((c.tc : Thread nD τ).loc main_arg3)) (m ((c.tc : Thread nD τ).loc main_arg4)) := by
  refine (read_layer1 (Q1 m c)).trans ?_
  rw [q1 m c main_arg0 (by decide), q1 m c main_arg3 (by decide), q1 m c main_arg4 (by decide)]

/-- The second input layer: the second argument times its weight, plus its bias on every row. -/
theorem layer2 : (Q3 m c (Proc.devRef .tc main_v11) : S20000x256.Idx → EReal)
    = lin (m ((c.tc : Thread nD τ).loc main_arg1)) (m ((c.tc : Thread nD τ).loc main_arg5)) (m ((c.tc : Thread nD τ).loc main_arg6)) := by
  refine (read_layer2 (Q2 m c)).trans ?_
  rw [((q2 m c main_arg1 (by decide)).trans (q1 m c main_arg1 (by decide))), ((q2 m c main_arg5 (by decide)).trans (q1 m c main_arg5 (by decide))), ((q2 m c main_arg6 (by decide)).trans (q1 m c main_arg6 (by decide)))]

/-- Two tables of 256 columns stacked, 60000 rows over 20000. -/
def stack (a : S60000x256.Idx → EReal) (b : S20000x256.Idx → EReal) : S80000x256.Idx → EReal :=
  concatenate S80000x256 0 [⟨S60000x256, a⟩, ⟨S20000x256, b⟩] concatenates_S60000x256_S20000x256_S80000x256_d0

/-- The two input layers stacked: what the first convolution's product reads. -/
theorem stacked : (Q4 m c (Proc.devRef .tc main_v12) : S80000x256.Idx → EReal)
    = stack (lin (m ((c.tc : Thread nD τ).loc main_arg0)) (m ((c.tc : Thread nD τ).loc main_arg3)) (m ((c.tc : Thread nD τ).loc main_arg4)))
        (lin (m ((c.tc : Thread nD τ).loc main_arg1)) (m ((c.tc : Thread nD τ).loc main_arg5)) (m ((c.tc : Thread nD τ).loc main_arg6))) := by
  refine (read_stacked (Q3 m c)).trans ?_
  rw [q3 m c main_v7 (by decide), show (Q2 m c (Proc.devRef .tc main_v7) : S60000x256.Idx → EReal) = _ from layer1 m c,
    show (Q3 m c (Proc.devRef .tc main_v11) : S20000x256.Idx → EReal) = _ from layer2 m c]
  rfl

/-- The stacked layers times the first convolution's weight. -/
theorem prod1 : (Q5 m c (Proc.devRef .tc main_v13) : S80000x256.Idx → EReal)
    = mm (stack (lin (m ((c.tc : Thread nD τ).loc main_arg0)) (m ((c.tc : Thread nD τ).loc main_arg3)) (m ((c.tc : Thread nD τ).loc main_arg4)))
        (lin (m ((c.tc : Thread nD τ).loc main_arg1)) (m ((c.tc : Thread nD τ).loc main_arg5)) (m ((c.tc : Thread nD τ).loc main_arg6)))) (m ((c.tc : Thread nD τ).loc main_arg7)) := by
  refine (read_prod1 (Q4 m c)).trans ?_
  rw [show (Q4 m c (Proc.devRef .tc main_v12) : S80000x256.Idx → EReal) = _ from stacked m c,
    ((q4 m c main_arg7 (by decide)).trans ((q3 m c main_arg7 (by decide)).trans ((q2 m c main_arg7 (by decide)).trans (q1 m c main_arg7 (by decide)))))]

/-- The edge rows and the first convolution's bias, as the first message passing finds them. -/
theorem src_at5 : Q5 m c (Proc.devRef .tc main_v1) = Q1 m c (Proc.devRef .tc main_v1) := ((q5 m c main_v1 (by decide)).trans ((q4 m c main_v1 (by decide)).trans ((q3 m c main_v1 (by decide)).trans (q2 m c main_v1 (by decide)))))
theorem dst_at5 : Q5 m c (Proc.devRef .tc main_v3) = Q1 m c (Proc.devRef .tc main_v3) := ((q5 m c main_v3 (by decide)).trans ((q4 m c main_v3 (by decide)).trans ((q3 m c main_v3 (by decide)).trans (q2 m c main_v3 (by decide)))))
theorem bias_at5 : Q5 m c (Proc.devRef .tc main_arg8) = m ((c.tc : Thread nD τ).loc main_arg8) := ((q5 m c main_arg8 (by decide)).trans ((q4 m c main_arg8 (by decide)).trans ((q3 m c main_arg8 (by decide)).trans ((q2 m c main_arg8 (by decide)).trans (q1 m c main_arg8 (by decide))))))

/-- The table and its column means survive the variance's operations. -/
theorem table_at7 : Q7 m c (Proc.devRef .tc main_v52) = Q6 m c (Proc.devRef .tc main_v52) := (q7 m c main_v52 (by decide))
theorem mean_at7 : Q7 m c (Proc.devRef .tc main_v55) = Q6 m c (Proc.devRef .tc main_v55) := (q7 m c main_v55 (by decide))

/-- The table normalised column by column with its means and variances, scaled, shifted, and its positive part taken. -/
theorem normed : (Q8 m c (Proc.devRef .tc main_v72) : S80000x256.Idx → EReal)
    = bnRelu (Q6 m c (Proc.devRef .tc main_v52)) (Q6 m c (Proc.devRef .tc main_v55)) (Q7 m c (Proc.devRef .tc main_v56))
        (m ((c.tc : Thread nD τ).loc main_arg11)) (m ((c.tc : Thread nD τ).loc main_arg12)) := by
  refine (read_normed (Q7 m c)).trans ?_
  rw [table_at7 m c, mean_at7 m c, ((q7 m c main_arg11 (by decide)).trans ((q6 m c main_arg11 (by decide)).trans ((q5 m c main_arg11 (by decide)).trans ((q4 m c main_arg11 (by decide)).trans ((q3 m c main_arg11 (by decide)).trans ((q2 m c main_arg11 (by decide)).trans (q1 m c main_arg11 (by decide)))))))),
    ((q7 m c main_arg12 (by decide)).trans ((q6 m c main_arg12 (by decide)).trans ((q5 m c main_arg12 (by decide)).trans ((q4 m c main_arg12 (by decide)).trans ((q3 m c main_arg12 (by decide)).trans ((q2 m c main_arg12 (by decide)).trans (q1 m c main_arg12 (by decide))))))))]

/-- The normalised table times the second convolution's weight. -/
theorem prod2 : (Q9 m c (Proc.devRef .tc main_v73) : S80000x128.Idx → EReal)
    = mm (Q8 m c (Proc.devRef .tc main_v72) : S80000x256.Idx → EReal) (m ((c.tc : Thread nD τ).loc main_arg9)) := by
  refine (read_prod2 (Q8 m c)).trans ?_
  rw [((q8 m c main_arg9 (by decide)).trans ((q7 m c main_arg9 (by decide)).trans ((q6 m c main_arg9 (by decide)).trans ((q5 m c main_arg9 (by decide)).trans ((q4 m c main_arg9 (by decide)).trans ((q3 m c main_arg9 (by decide)).trans ((q2 m c main_arg9 (by decide)).trans (q1 m c main_arg9 (by decide)))))))))]

/-- The edge rows and the second convolution's bias, as the second message passing finds them. -/
theorem src_at9 : Q9 m c (Proc.devRef .tc main_v1) = Q1 m c (Proc.devRef .tc main_v1) := ((q9 m c main_v1 (by decide)).trans ((q8 m c main_v1 (by decide)).trans ((q7 m c main_v1 (by decide)).trans ((q6 m c main_v1 (by decide)).trans ((q5 m c main_v1 (by decide)).trans ((q4 m c main_v1 (by decide)).trans ((q3 m c main_v1 (by decide)).trans (q2 m c main_v1 (by decide)))))))))
theorem dst_at9 : Q9 m c (Proc.devRef .tc main_v3) = Q1 m c (Proc.devRef .tc main_v3) := ((q9 m c main_v3 (by decide)).trans ((q8 m c main_v3 (by decide)).trans ((q7 m c main_v3 (by decide)).trans ((q6 m c main_v3 (by decide)).trans ((q5 m c main_v3 (by decide)).trans ((q4 m c main_v3 (by decide)).trans ((q3 m c main_v3 (by decide)).trans (q2 m c main_v3 (by decide)))))))))
theorem bias_at9 : Q9 m c (Proc.devRef .tc main_arg10) = m ((c.tc : Thread nD τ).loc main_arg10) := ((q9 m c main_arg10 (by decide)).trans ((q8 m c main_arg10 (by decide)).trans ((q7 m c main_arg10 (by decide)).trans ((q6 m c main_arg10 (by decide)).trans ((q5 m c main_arg10 (by decide)).trans ((q4 m c main_arg10 (by decide)).trans ((q3 m c main_arg10 (by decide)).trans ((q2 m c main_arg10 (by decide)).trans (q1 m c main_arg10 (by decide))))))))))

end Cert.ReferenceIdeal.Net

end
-- ==== Proof.Shared.lean ====
/-
  The host stretches the two programs share.

  Outside the five dense stages the kernel's @main and the reference run the same host operations on the same values:
  the two rows of the edge table sliced out and flattened; the first graph convolution's message passing (self-loops
  appended, degrees scattered, inverse square roots gathered at both ends of every edge, rows gathered, scaled and
  scatter-added, the bias added) followed by the column sums and means; the column variances; the second convolution's
  message passing. For each stretch: if the two programs' buffers agree on what the stretch reads, they agree on what it
  writes. The operations themselves are never opened — both folds are read back to the same tree of operations over the
  stretch's inputs.
-/
import proofs.«170367_j24137716203574_1_alg».proof.Proof.Gen.KernelIdeal.Launch
import proofs.«170367_j24137716203574_1_alg».proof.Proof.RefRun
import proofs.«170367_j24137716203574_1_alg».proof.Proof.LibAfter
import proofs.«170367_j24137716203574_1_alg».proof.Proof.LibTyped
import Idealize.ShloMosaic.PureOps.Ideal

set_option maxRecDepth 16384

noncomputable section

namespace Cert.Bridge.Shared

open Idealize.ShloMosaic Idealize.ShloMosaic.TcCoe Idealize.ShloMosaic.StableHlo

variable (VK : Valuation Cert.KernelIdeal.τ Cert.KernelIdeal.sig (Elt Ideal)) (VR : Valuation Cert.ReferenceIdeal.τ Cert.ReferenceIdeal.sig (Elt Ideal))

attribute [local irreducible] Host.scatterAdd Host.gather Host.reduceAdd Host.rsqrt Host.divf concatenate iotaInDim broadcastInDim shapeCast extractStridedSlice

/-- The sources: row 0 of the edge table, flattened. -/
theorem edges_src (h2 : (VK (Proc.devRef .tc Cert.KernelIdeal.main_arg2) : ((⟨Cert.KernelIdeal.S2x500000, .i32⟩ : BufTy).Contents (Elt Ideal))) = VR (Proc.devRef .tc Cert.ReferenceIdeal.main_arg2)) :
    (after Cert.KernelIdeal.Gen.hostOps0 VK (Proc.devRef .tc Cert.KernelIdeal.main_v1) : ((⟨Cert.KernelIdeal.S500000, .i32⟩ : BufTy).Contents (Elt Ideal))) = after Cert.ReferenceIdeal.Run.rA VR (Proc.devRef .tc Cert.ReferenceIdeal.main_v1) := by
  read_fold
  rw [h2]
  all_goals rfl

/-- The destinations: row 1 of the edge table, flattened. -/
theorem edges_dst (h2 : (VK (Proc.devRef .tc Cert.KernelIdeal.main_arg2) : ((⟨Cert.KernelIdeal.S2x500000, .i32⟩ : BufTy).Contents (Elt Ideal))) = VR (Proc.devRef .tc Cert.ReferenceIdeal.main_arg2)) :
    (after Cert.KernelIdeal.Gen.hostOps0 VK (Proc.devRef .tc Cert.KernelIdeal.main_v3) : ((⟨Cert.KernelIdeal.S500000, .i32⟩ : BufTy).Contents (Elt Ideal))) = after Cert.ReferenceIdeal.Run.rA VR (Proc.devRef .tc Cert.ReferenceIdeal.main_v3) := by
  read_fold
  rw [h2]
  all_goals rfl

set_option maxHeartbeats 4000000 in
/-- The first convolution's message passing: from the same product, edge rows and bias, the same table. -/
theorem conv1_table (h9 : (VK (Proc.devRef .tc Cert.KernelIdeal.main_v9) : ((⟨Cert.KernelIdeal.S80000x256, .f32⟩ : BufTy).Contents (Elt Ideal))) = VR (Proc.devRef .tc Cert.ReferenceIdeal.main_v13))
    (h1 : (VK (Proc.devRef .tc Cert.KernelIdeal.main_v1) : ((⟨Cert.KernelIdeal.S500000, .i32⟩ : BufTy).Contents (Elt Ideal))) = VR (Proc.devRef .tc Cert.ReferenceIdeal.main_v1)) (h3 : (VK (Proc.devRef .tc Cert.KernelIdeal.main_v3) : ((⟨Cert.KernelIdeal.S500000, .i32⟩ : BufTy).Contents (Elt Ideal))) = VR (Proc.devRef .tc Cert.ReferenceIdeal.main_v3))
    (h8 : (VK (Proc.devRef .tc Cert.KernelIdeal.main_arg8) : ((⟨Cert.KernelIdeal.S256, .f32⟩ : BufTy).Contents (Elt Ideal))) = VR (Proc.devRef .tc Cert.ReferenceIdeal.main_arg8)) :
    (after Cert.KernelIdeal.Gen.hostOps3 VK (Proc.devRef .tc Cert.KernelIdeal.main_v48) : ((⟨Cert.KernelIdeal.S80000x256, .f32⟩ : BufTy).Contents (Elt Ideal))) = after Cert.ReferenceIdeal.Run.rT1 VR (Proc.devRef .tc Cert.ReferenceIdeal.main_v52) := by
  read_fold
  simp only [h9, h1, h3, h8]
  all_goals rfl

set_option maxHeartbeats 4000000 in
/-- The column means of that table. -/
theorem conv1_mean (h9 : (VK (Proc.devRef .tc Cert.KernelIdeal.main_v9) : ((⟨Cert.KernelIdeal.S80000x256, .f32⟩ : BufTy).Contents (Elt Ideal))) = VR (Proc.devRef .tc Cert.ReferenceIdeal.main_v13))
    (h1 : (VK (Proc.devRef .tc Cert.KernelIdeal.main_v1) : ((⟨Cert.KernelIdeal.S500000, .i32⟩ : BufTy).Contents (Elt Ideal))) = VR (Proc.devRef .tc Cert.ReferenceIdeal.main_v1)) (h3 : (VK (Proc.devRef .tc Cert.KernelIdeal.main_v3) : ((⟨Cert.KernelIdeal.S500000, .i32⟩ : BufTy).Contents (Elt Ideal))) = VR (Proc.devRef .tc Cert.ReferenceIdeal.main_v3))
    (h8 : (VK (Proc.devRef .tc Cert.KernelIdeal.main_arg8) : ((⟨Cert.KernelIdeal.S256, .f32⟩ : BufTy).Contents (Elt Ideal))) = VR (Proc.devRef .tc Cert.ReferenceIdeal.main_arg8)) :
    (after Cert.KernelIdeal.Gen.hostOps3 VK (Proc.devRef .tc Cert.KernelIdeal.main_v51) : ((⟨Cert.KernelIdeal.S256, .f32⟩ : BufTy).Contents (Elt Ideal))) = after Cert.ReferenceIdeal.Run.rT1 VR (Proc.devRef .tc Cert.ReferenceIdeal.main_v55) := by
  read_fold
  simp only [h9, h1, h3, h8]
  all_goals rfl

set_option maxHeartbeats 4000000 in
/-- The integer zero the variance is called with. -/
theorem conv1_zero :
    (after Cert.KernelIdeal.Gen.hostOps3 VK (Proc.devRef .tc Cert.KernelIdeal.main_c_9) : ((⟨Cert.KernelIdeal.S_, .i32⟩ : BufTy).Contents (Elt Ideal))) = after Cert.ReferenceIdeal.Run.rT1 VR (Proc.devRef .tc Cert.ReferenceIdeal.main_c_9) := by
  read_fold
  all_goals rfl

set_option maxHeartbeats 4000000 in
/-- The column variances: from the same table and the same integer zero, the same variances. -/
theorem variance (h48 : (VK (Proc.devRef .tc Cert.KernelIdeal.main_v48) : ((⟨Cert.KernelIdeal.S80000x256, .f32⟩ : BufTy).Contents (Elt Ideal))) = VR (Proc.devRef .tc Cert.ReferenceIdeal.main_v52)) (h0 : (VK (Proc.devRef .tc Cert.KernelIdeal.main_c_9) : ((⟨Cert.KernelIdeal.S_, .i32⟩ : BufTy).Contents (Elt Ideal))) = VR (Proc.devRef .tc Cert.ReferenceIdeal.main_c_9)) :
    (after Cert.KernelIdeal.Gen.hostOps3_1 VK (Proc.devRef .tc Cert.KernelIdeal.main_v52) : ((⟨Cert.KernelIdeal.S256, .f32⟩ : BufTy).Contents (Elt Ideal))) = after Cert.ReferenceIdeal.Run.rVar VR (Proc.devRef .tc Cert.ReferenceIdeal.main_v56) := by
  read_fold
  simp only [Cert.Lib.Typed.ofBuf_toBuf, Cert.Lib.Typed.toBuf_ofBuf, h48, h0]
  all_goals rfl

set_option maxHeartbeats 4000000 in
/-- The second convolution's message passing: from the same product, edge rows and bias, the same result. -/
theorem conv2 (h58 : (VK (Proc.devRef .tc Cert.KernelIdeal.main_v58) : ((⟨Cert.KernelIdeal.S80000x128, .f32⟩ : BufTy).Contents (Elt Ideal))) = VR (Proc.devRef .tc Cert.ReferenceIdeal.main_v73))
    (h1 : (VK (Proc.devRef .tc Cert.KernelIdeal.main_v1) : ((⟨Cert.KernelIdeal.S500000, .i32⟩ : BufTy).Contents (Elt Ideal))) = VR (Proc.devRef .tc Cert.ReferenceIdeal.main_v1)) (h3 : (VK (Proc.devRef .tc Cert.KernelIdeal.main_v3) : ((⟨Cert.KernelIdeal.S500000, .i32⟩ : BufTy).Contents (Elt Ideal))) = VR (Proc.devRef .tc Cert.ReferenceIdeal.main_v3))
    (h10 : (VK (Proc.devRef .tc Cert.KernelIdeal.main_arg10) : ((⟨Cert.KernelIdeal.S128, .f32⟩ : BufTy).Contents (Elt Ideal))) = VR (Proc.devRef .tc Cert.ReferenceIdeal.main_arg10)) :
    (after Cert.KernelIdeal.Gen.hostOps5 VK (Proc.devRef .tc Cert.KernelIdeal.main_v97) : ((⟨Cert.KernelIdeal.S80000x128, .f32⟩ : BufTy).Contents (Elt Ideal))) = after Cert.ReferenceIdeal.Run.rT2 VR (Proc.devRef .tc Cert.ReferenceIdeal.main_v112) := by
  read_fold
  simp only [h58, h1, h3, h10]
  all_goals rfl

end Cert.Bridge.Shared

end
-- ==== Proof.Bridge.lean ====
/-
  The two idealized programs compute the same result.

  Walking both programs stage by stage from memories that agree on the thirteen arguments: the flattened edge rows agree;
  the two input layers are the same `x · W + b`, so their stackings and the first products agree; the first message
  passing, the column means and the column variances are the same operations on equal values; the normalised tables are
  the same function of equal tables, means, variances, scales and shifts; the second products agree; and the second
  message passing is again the same operations on equal values. No law of arithmetic beyond reading a matrix unit's
  product into zero as the plain sum is used, so nothing here needs the inputs to be finite.
-/
import proofs.«170367_j24137716203574_1_alg».proof.Proof.KNet
import proofs.«170367_j24137716203574_1_alg».proof.Proof.RNet
import proofs.«170367_j24137716203574_1_alg».proof.Proof.Shared

set_option maxRecDepth 16384

noncomputable section

namespace Cert.Bridge

open Idealize.ShloMosaic Idealize.ShloMosaic.TcCoe Idealize.ShloMosaic.StableHlo Idealize.SL.Sem

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

set_option maxHeartbeats 2000000 in
/-- From memories that agree on the arguments, the kernel's last boundary holds at its result buffer what the reference's
    last stage holds at its own. -/
theorem result_eq
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    (Cert.KernelIdeal.Gen.W12 m ρ c (Proc.devRef .tc Cert.KernelIdeal.main_v97) : ((⟨Cert.KernelIdeal.S80000x128, .f32⟩ : BufTy).Contents (Elt Ideal))) = Cert.ReferenceIdeal.Carry.Q10 m' c (Proc.devRef .tc Cert.ReferenceIdeal.main_v112) := by
  obtain ⟨a0, a1, a2, a3, a4, a5, a6, a7, a8, a9, a10, a11, a12⟩ := hagree
  -- the edge rows
  have e1 : (Cert.KernelIdeal.Gen.W1 m ρ c (Proc.devRef .tc Cert.KernelIdeal.main_v1) : ((⟨Cert.KernelIdeal.S500000, .i32⟩ : BufTy).Contents (Elt Ideal))) = Cert.ReferenceIdeal.Carry.Q1 m' c (Proc.devRef .tc Cert.ReferenceIdeal.main_v1) :=
    Shared.edges_src (Cert.KernelIdeal.Gen.W0 m ρ c) (Cert.ReferenceIdeal.Carry.Q0 m' c) a2.symm
  have e3 : (Cert.KernelIdeal.Gen.W1 m ρ c (Proc.devRef .tc Cert.KernelIdeal.main_v3) : ((⟨Cert.KernelIdeal.S500000, .i32⟩ : BufTy).Contents (Elt Ideal))) = Cert.ReferenceIdeal.Carry.Q1 m' c (Proc.devRef .tc Cert.ReferenceIdeal.main_v3) :=
    Shared.edges_dst (Cert.KernelIdeal.Gen.W0 m ρ c) (Cert.ReferenceIdeal.Carry.Q0 m' c) a2.symm
  -- the input layers, stacked, times the first weight
  have e9 : (Cert.KernelIdeal.Gen.W6 m ρ c (Proc.devRef .tc Cert.KernelIdeal.main_v9) : ((⟨Cert.KernelIdeal.S80000x256, .f32⟩ : BufTy).Contents (Elt Ideal))) = Cert.ReferenceIdeal.Carry.Q5 m' c (Proc.devRef .tc Cert.ReferenceIdeal.main_v13) := by
    rw [Cert.KernelIdeal.Net.prod1 m ρ c, Cert.ReferenceIdeal.Net.prod1 m' c, a0, a1, a3, a4, a5, a6, a7]
    rfl
  -- the first message passing, the means, the variances
  have s6 : (Cert.KernelIdeal.Gen.W6 m ρ c (Proc.devRef .tc Cert.KernelIdeal.main_v1) : ((⟨Cert.KernelIdeal.S500000, .i32⟩ : BufTy).Contents (Elt Ideal))) = Cert.ReferenceIdeal.Carry.Q5 m' c (Proc.devRef .tc Cert.ReferenceIdeal.main_v1) :=
    (Cert.KernelIdeal.Net.src_at6 m ρ c).trans (e1.trans (Cert.ReferenceIdeal.Net.src_at5 m' c).symm)
  have d6 : (Cert.KernelIdeal.Gen.W6 m ρ c (Proc.devRef .tc Cert.KernelIdeal.main_v3) : ((⟨Cert.KernelIdeal.S500000, .i32⟩ : BufTy).Contents (Elt Ideal))) = Cert.ReferenceIdeal.Carry.Q5 m' c (Proc.devRef .tc Cert.ReferenceIdeal.main_v3) :=
    (Cert.KernelIdeal.Net.dst_at6 m ρ c).trans (e3.trans (Cert.ReferenceIdeal.Net.dst_at5 m' c).symm)
  have b6 : (Cert.KernelIdeal.Gen.W6 m ρ c (Proc.devRef .tc Cert.KernelIdeal.main_arg8) : ((⟨Cert.KernelIdeal.S256, .f32⟩ : BufTy).Contents (Elt Ideal))) = Cert.ReferenceIdeal.Carry.Q5 m' c (Proc.devRef .tc Cert.ReferenceIdeal.main_arg8) :=
    (Cert.KernelIdeal.Net.bias_at6 m ρ c).trans (a8.symm.trans (Cert.ReferenceIdeal.Net.bias_at5 m' c).symm)
  have t48 : (Cert.KernelIdeal.Gen.W7 m ρ c (Proc.devRef .tc Cert.KernelIdeal.main_v48) : ((⟨Cert.KernelIdeal.S80000x256, .f32⟩ : BufTy).Contents (Elt Ideal))) = Cert.ReferenceIdeal.Carry.Q6 m' c (Proc.devRef .tc Cert.ReferenceIdeal.main_v52) :=
    Shared.conv1_table (Cert.KernelIdeal.Gen.W6 m ρ c) (Cert.ReferenceIdeal.Carry.Q5 m' c) e9 s6 d6 b6
  have t51 : (Cert.KernelIdeal.Gen.W7 m ρ c (Proc.devRef .tc Cert.KernelIdeal.main_v51) : ((⟨Cert.KernelIdeal.S256, .f32⟩ : BufTy).Contents (Elt Ideal))) = Cert.ReferenceIdeal.Carry.Q6 m' c (Proc.devRef .tc Cert.ReferenceIdeal.main_v55) :=
    Shared.conv1_mean (Cert.KernelIdeal.Gen.W6 m ρ c) (Cert.ReferenceIdeal.Carry.Q5 m' c) e9 s6 d6 b6
  have t0 : (Cert.KernelIdeal.Gen.W7 m ρ c (Proc.devRef .tc Cert.KernelIdeal.main_c_9) : ((⟨Cert.KernelIdeal.S_, .i32⟩ : BufTy).Contents (Elt Ideal))) = Cert.ReferenceIdeal.Carry.Q6 m' c (Proc.devRef .tc Cert.ReferenceIdeal.main_c_9) :=
    Shared.conv1_zero (Cert.KernelIdeal.Gen.W6 m ρ c) (Cert.ReferenceIdeal.Carry.Q5 m' c)
  have t52 : (Cert.KernelIdeal.Gen.W8 m ρ c (Proc.devRef .tc Cert.KernelIdeal.main_v52) : ((⟨Cert.KernelIdeal.S256, .f32⟩ : BufTy).Contents (Elt Ideal))) = Cert.ReferenceIdeal.Carry.Q7 m' c (Proc.devRef .tc Cert.ReferenceIdeal.main_v56) :=
    Shared.variance (Cert.KernelIdeal.Gen.W7 m ρ c) (Cert.ReferenceIdeal.Carry.Q6 m' c) t48 t0
  -- the normalised table, times the second weight
  have e57 : (Cert.KernelIdeal.Gen.W10 m ρ c (Proc.devRef .tc Cert.KernelIdeal.main_v57) : ((⟨Cert.KernelIdeal.S80000x256, .f32⟩ : BufTy).Contents (Elt Ideal))) = Cert.ReferenceIdeal.Carry.Q8 m' c (Proc.devRef .tc Cert.ReferenceIdeal.main_v72) := by
    rw [Cert.KernelIdeal.Net.normed m ρ c, Cert.ReferenceIdeal.Net.normed m' c, t48, t51, t52, a11, a12]
  have e58 : (Cert.KernelIdeal.Gen.W11 m ρ c (Proc.devRef .tc Cert.KernelIdeal.main_v58) : ((⟨Cert.KernelIdeal.S80000x128, .f32⟩ : BufTy).Contents (Elt Ideal))) = Cert.ReferenceIdeal.Carry.Q9 m' c (Proc.devRef .tc Cert.ReferenceIdeal.main_v73) := by
    rw [Cert.KernelIdeal.Net.prod2 m ρ c, Cert.ReferenceIdeal.Net.prod2 m' c, e57, a9]
  -- the second message passing
  have s11 : (Cert.KernelIdeal.Gen.W11 m ρ c (Proc.devRef .tc Cert.KernelIdeal.main_v1) : ((⟨Cert.KernelIdeal.S500000, .i32⟩ : BufTy).Contents (Elt Ideal))) = Cert.ReferenceIdeal.Carry.Q9 m' c (Proc.devRef .tc Cert.ReferenceIdeal.main_v1) :=
    (Cert.KernelIdeal.Net.src_at11 m ρ c).trans (e1.trans (Cert.ReferenceIdeal.Net.src_at9 m' c).symm)
  have d11 : (Cert.KernelIdeal.Gen.W11 m ρ c (Proc.devRef .tc Cert.KernelIdeal.main_v3) : ((⟨Cert.KernelIdeal.S500000, .i32⟩ : BufTy).Contents (Elt Ideal))) = Cert.ReferenceIdeal.Carry.Q9 m' c (Proc.devRef .tc Cert.ReferenceIdeal.main_v3) :=
    (Cert.KernelIdeal.Net.dst_at11 m ρ c).trans (e3.trans (Cert.ReferenceIdeal.Net.dst_at9 m' c).symm)
  have b11 : (Cert.KernelIdeal.Gen.W11 m ρ c (Proc.devRef .tc Cert.KernelIdeal.main_arg10) : ((⟨Cert.KernelIdeal.S128, .f32⟩ : BufTy).Contents (Elt Ideal))) = Cert.ReferenceIdeal.Carry.Q9 m' c (Proc.devRef .tc Cert.ReferenceIdeal.main_arg10) :=
    (Cert.KernelIdeal.Net.bias_at11 m ρ c).trans (a10.symm.trans (Cert.ReferenceIdeal.Net.bias_at9 m' c).symm)
  exact Shared.conv2 (Cert.KernelIdeal.Gen.W11 m ρ c) (Cert.ReferenceIdeal.Carry.Q9 m' c) e58 s11 d11 b11

end Cert.Bridge

end
-- ==== Proof.lean ====
/-
  A two-layer graph convolution network on 80000 nodes — two input layers `x · W + b` stacked, a graph convolution
  (product with a weight, then message passing over the edge table with symmetric degree normalisation and a bias),
  batch normalisation with a positive part, and a second graph convolution — computed by a program with five pallas
  regions against a plain host program.

  The kernel runs the two input layers, the two convolution products and the normalisation as regions tiled over blocks
  of 2000 rows, the matrix unit's operands narrowed to a shorter float format; everything else — the message passing,
  the column means and variances — is the same host operations in both programs. On the extended reals narrowing is the
  identity and a product accumulated into zero is the plain sum over the contraction index, an entry of each region's
  result depends on one row of its left operand only, and the blocks cover every row: so each region's result array is
  the whole-array layer, product or normalisation of the arrays it reads, which is what the host computes in the
  reference. The shared host stretches are never opened: equal inputs give equal outputs.

  The claims: each program runs to the end leaving its arguments as launched (the kernel's two frames are the generated
  ones; the reference's is its run with the result dropped); the idealized kernel is the printed kernel read on the
  extended reals with no rewrite (nothing to preserve); and from memories agreeing on the arguments both idealized
  programs end with the same result, entry by entry. No step divides, cancels or distributes, so the inputs'
  finiteness is never used.
-/
import proofs.«170367_j24137716203574_1_alg».proof.Defs
import proofs.«170367_j24137716203574_1_alg».proof.Proof.Gen.Kernel
import proofs.«170367_j24137716203574_1_alg».proof.Proof.Gen.Kernel.Frame
import proofs.«170367_j24137716203574_1_alg».proof.Proof.Gen.KernelIdeal
import proofs.«170367_j24137716203574_1_alg».proof.Proof.Gen.KernelIdeal.Frame
import proofs.«170367_j24137716203574_1_alg».proof.Proof.Gen.ReferenceIdeal
import proofs.«170367_j24137716203574_1_alg».proof.Proof.Gen.Pre_finite_inputs
import proofs.«170367_j24137716203574_1_alg».proof.Proof.KRun
import proofs.«170367_j24137716203574_1_alg».proof.Proof.RefRun
import proofs.«170367_j24137716203574_1_alg».proof.Proof.RKept
import proofs.«170367_j24137716203574_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The printed kernel runs to the end and leaves its arguments as launched. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs to the end, and no operation of its line writes an argument. -/
theorem frame_reference : Cert.frame_ReferenceIdeal := fun m ρ _ =>
  (θ_run Cert.ReferenceIdeal.defs _ _).mono (fun r h c =>
      ⟨(h c Cert.ReferenceIdeal.main_arg0).trans (Cert.ReferenceIdeal.Carry.kept m c Cert.ReferenceIdeal.main_arg0 (by decide) (by decide) (by decide) (by decide) (by decide) (by decide) (by decide) (by decide) (by decide) (by decide)),
       (h c Cert.ReferenceIdeal.main_arg1).trans (Cert.ReferenceIdeal.Carry.kept m c Cert.ReferenceIdeal.main_arg1 (by decide) (by decide) (by decide) (by decide) (by decide) (by decide) (by decide) (by decide) (by decide) (by decide)),
       (h c Cert.ReferenceIdeal.main_arg2).trans (Cert.ReferenceIdeal.Carry.kept m c Cert.ReferenceIdeal.main_arg2 (by decide) (by decide) (by decide) (by decide) (by decide) (by decide) (by decide) (by decide) (by decide) (by decide)),
       (h c Cert.ReferenceIdeal.main_arg3).trans (Cert.ReferenceIdeal.Carry.kept m c Cert.ReferenceIdeal.main_arg3 (by decide) (by decide) (by decide) (by decide) (by decide) (by decide) (by decide) (by decide) (by decide) (by decide)),
       (h c Cert.ReferenceIdeal.main_arg4).trans (Cert.ReferenceIdeal.Carry.kept m c Cert.ReferenceIdeal.main_arg4 (by decide) (by decide) (by decide) (by decide) (by decide) (by decide) (by decide) (by decide) (by decide) (by decide)),
       (h c Cert.ReferenceIdeal.main_arg5).trans (Cert.ReferenceIdeal.Carry.kept m c Cert.ReferenceIdeal.main_arg5 (by decide) (by decide) (by decide) (by decide) (by decide) (by decide) (by decide) (by decide) (by decide) (by decide)),
       (h c Cert.ReferenceIdeal.main_arg6).trans (Cert.ReferenceIdeal.Carry.kept m c Cert.ReferenceIdeal.main_arg6 (by decide) (by decide) (by decide) (by decide) (by decide) (by decide) (by decide) (by decide) (by decide) (by decide)),
       (h c Cert.ReferenceIdeal.main_arg7).trans (Cert.ReferenceIdeal.Carry.kept m c Cert.ReferenceIdeal.main_arg7 (by decide) (by decide) (by decide) (by decide) (by decide) (by decide) (by decide) (by decide) (by decide) (by decide)),
       (h c Cert.ReferenceIdeal.main_arg8).trans (Cert.ReferenceIdeal.Carry.kept m c Cert.ReferenceIdeal.main_arg8 (by decide) (by decide) (by decide) (by decide) (by decide) (by decide) (by decide) (by decide) (by decide) (by decide)),
       (h c Cert.ReferenceIdeal.main_arg9).trans (Cert.ReferenceIdeal.Carry.kept m c Cert.ReferenceIdeal.main_arg9 (by decide) (by decide) (by decide) (by decide) (by decide) (by decide) (by decide) (by decide) (by decide) (by decide)),
       (h c Cert.ReferenceIdeal.main_arg10).trans (Cert.ReferenceIdeal.Carry.kept m c Cert.ReferenceIdeal.main_arg10 (by decide) (by decide) (by decide) (by decide) (by decide) (by decide) (by decide) (by decide) (by decide) (by decide)),
       (h c Cert.ReferenceIdeal.main_arg11).trans (Cert.ReferenceIdeal.Carry.kept m c Cert.ReferenceIdeal.main_arg11 (by decide) (by decide) (by decide) (by decide) (by decide) (by decide) (by decide) (by decide) (by decide) (by decide)),
       (h c Cert.ReferenceIdeal.main_arg12).trans (Cert.ReferenceIdeal.Carry.kept m c Cert.ReferenceIdeal.main_arg12 (by decide) (by decide) (by decide) (by decide) (by decide) (by decide) (by decide) (by decide) (by decide) (by decide))⟩)
    (Cert.ReferenceIdeal.Run.run (F := Ideal) m ρ)

/-- The ideal pass rewrote nothing: there is nothing to preserve. -/
theorem preserves : Cert.preserves_Kernel_KernelIdeal := trivial

/-- From memories agreeing on the arguments both idealized programs end with the reference's last stage at the result
    buffer: the kernel because its last boundary holds the same value there, the reference by its run. -/
theorem algebraic : Cert.algebraic_KernelIdeal_ReferenceIdeal := by
  intro m ρ m' ρ' _ hagree
  refine ⟨fun c => Cert.ReferenceIdeal.Carry.Q10 m' c (Proc.devRef .tc Cert.ReferenceIdeal.main_v112), ?_, ?_⟩
  · refine (θ_run Cert.KernelIdeal.defs _ _).mono (fun r h c => ?_) (Cert.KernelIdeal.Run.run_final (F := Ideal) m ρ)
    exact ⟨(h c _ (Cert.KernelIdeal.Gen.mem_uc Cert.KernelIdeal.main_v97 (by decide))).trans (Cert.Bridge.result_eq m ρ m' c (hagree c)),
       (h c _ (Cert.KernelIdeal.Gen.mem_uc Cert.KernelIdeal.main_arg0 (by decide))).trans (Cert.KernelIdeal.Gen.W12_main_arg0 m ρ c),
       (h c _ (Cert.KernelIdeal.Gen.mem_uc Cert.KernelIdeal.main_arg1 (by decide))).trans (Cert.KernelIdeal.Gen.W12_main_arg1 m ρ c),
       (h c _ (Cert.KernelIdeal.Gen.mem_uc Cert.KernelIdeal.main_arg2 (by decide))).trans (Cert.KernelIdeal.Gen.W12_main_arg2 m ρ c),
       (h c _ (Cert.KernelIdeal.Gen.mem_uc Cert.KernelIdeal.main_arg3 (by decide))).trans (Cert.KernelIdeal.Gen.W12_main_arg3 m ρ c),
       (h c _ (Cert.KernelIdeal.Gen.mem_uc Cert.KernelIdeal.main_arg4 (by decide))).trans (Cert.KernelIdeal.Gen.W12_main_arg4 m ρ c),
       (h c _ (Cert.KernelIdeal.Gen.mem_uc Cert.KernelIdeal.main_arg5 (by decide))).trans (Cert.KernelIdeal.Gen.W12_main_arg5 m ρ c),
       (h c _ (Cert.KernelIdeal.Gen.mem_uc Cert.KernelIdeal.main_arg6 (by decide))).trans (Cert.KernelIdeal.Gen.W12_main_arg6 m ρ c),
       (h c _ (Cert.KernelIdeal.Gen.mem_uc Cert.KernelIdeal.main_arg7 (by decide))).trans (Cert.KernelIdeal.Gen.W12_main_arg7 m ρ c),
       (h c _ (Cert.KernelIdeal.Gen.mem_uc Cert.KernelIdeal.main_arg8 (by decide))).trans (Cert.KernelIdeal.Gen.W12_main_arg8 m ρ c),
       (h c _ (Cert.KernelIdeal.Gen.mem_uc Cert.KernelIdeal.main_arg9 (by decide))).trans (Cert.KernelIdeal.Gen.W12_main_arg9 m ρ c),
       (h c _ (Cert.KernelIdeal.Gen.mem_uc Cert.KernelIdeal.main_arg10 (by decide))).trans (Cert.KernelIdeal.Gen.W12_main_arg10 m ρ c),
       (h c _ (Cert.KernelIdeal.Gen.mem_uc Cert.KernelIdeal.main_arg11 (by decide))).trans (Cert.KernelIdeal.Gen.W12_main_arg11 m ρ c),
       (h c _ (Cert.KernelIdeal.Gen.mem_uc Cert.KernelIdeal.main_arg12 (by decide))).trans (Cert.KernelIdeal.Gen.W12_main_arg12 m ρ c)⟩
  · refine (θ_run Cert.ReferenceIdeal.defs _ _).mono (fun r h c => ?_) (Cert.ReferenceIdeal.Run.run (F := Ideal) m' ρ')
    exact ⟨(h c Cert.ReferenceIdeal.main_v112).trans (Cert.ReferenceIdeal.Carry.result_at m' c Cert.ReferenceIdeal.main_v112),
       (h c Cert.ReferenceIdeal.main_arg0).trans (Cert.ReferenceIdeal.Carry.kept m' c Cert.ReferenceIdeal.main_arg0 (by decide) (by decide) (by decide) (by decide) (by decide) (by decide) (by decide) (by decide) (by decide) (by decide)),
       (h c Cert.ReferenceIdeal.main_arg1).trans (Cert.ReferenceIdeal.Carry.kept m' c Cert.ReferenceIdeal.main_arg1 (by decide) (by decide) (by decide) (by decide) (by decide) (by decide) (by decide) (by decide) (by decide) (by decide)),
       (h c Cert.ReferenceIdeal.main_arg2).trans (Cert.ReferenceIdeal.Carry.kept m' c Cert.ReferenceIdeal.main_arg2 (by decide) (by decide) (by decide) (by decide) (by decide) (by decide) (by decide) (by decide) (by decide) (by decide)),
       (h c Cert.ReferenceIdeal.main_arg3).trans (Cert.ReferenceIdeal.Carry.kept m' c Cert.ReferenceIdeal.main_arg3 (by decide) (by decide) (by decide) (by decide) (by decide) (by decide) (by decide) (by decide) (by decide) (by decide)),
       (h c Cert.ReferenceIdeal.main_arg4).trans (Cert.ReferenceIdeal.Carry.kept m' c Cert.ReferenceIdeal.main_arg4 (by decide) (by decide) (by decide) (by decide) (by decide) (by decide) (by decide) (by decide) (by decide) (by decide)),
       (h c Cert.ReferenceIdeal.main_arg5).trans (Cert.ReferenceIdeal.Carry.kept m' c Cert.ReferenceIdeal.main_arg5 (by decide) (by decide) (by decide) (by decide) (by decide) (by decide) (by decide) (by decide) (by decide) (by decide)),
       (h c Cert.ReferenceIdeal.main_arg6).trans (Cert.ReferenceIdeal.Carry.kept m' c Cert.ReferenceIdeal.main_arg6 (by decide) (by decide) (by decide) (by decide) (by decide) (by decide) (by decide) (by decide) (by decide) (by decide)),
       (h c Cert.ReferenceIdeal.main_arg7).trans (Cert.ReferenceIdeal.Carry.kept m' c Cert.ReferenceIdeal.main_arg7 (by decide) (by decide) (by decide) (by decide) (by decide) (by decide) (by decide) (by decide) (by decide) (by decide)),
       (h c Cert.ReferenceIdeal.main_arg8).trans (Cert.ReferenceIdeal.Carry.kept m' c Cert.ReferenceIdeal.main_arg8 (by decide) (by decide) (by decide) (by decide) (by decide) (by decide) (by decide) (by decide) (by decide) (by decide)),
       (h c Cert.ReferenceIdeal.main_arg9).trans (Cert.ReferenceIdeal.Carry.kept m' c Cert.ReferenceIdeal.main_arg9 (by decide) (by decide) (by decide) (by decide) (by decide) (by decide) (by decide) (by decide) (by decide) (by decide)),
       (h c Cert.ReferenceIdeal.main_arg10).trans (Cert.ReferenceIdeal.Carry.kept m' c Cert.ReferenceIdeal.main_arg10 (by decide) (by decide) (by decide) (by decide) (by decide) (by decide) (by decide) (by decide) (by decide) (by decide)),
       (h c Cert.ReferenceIdeal.main_arg11).trans (Cert.ReferenceIdeal.Carry.kept m' c Cert.ReferenceIdeal.main_arg11 (by decide) (by decide) (by decide) (by decide) (by decide) (by decide) (by decide) (by decide) (by decide) (by decide)),
       (h c Cert.ReferenceIdeal.main_arg12).trans (Cert.ReferenceIdeal.Carry.kept m' c Cert.ReferenceIdeal.main_arg12 (by decide) (by decide) (by decide) (by decide) (by decide) (by decide) (by decide) (by decide) (by decide) (by decide))⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
